-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S50000x128 : Shape := ⟨2, ![50000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x64 .f32) (main_arg11 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x64 .f32) (main_arg7 : FVec F S64 .f32) (main_arg8 : FVec F S128x128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x256 .f32) (main_arg1 : IVec S2x600000 32) (main_arg2 : FVec F S50000x128 .f32) (main_arg3 : IVec S2x600000 32) (main_arg4 : FVec F S256x128 .f32) (main_arg5 : FVec F S128 .f32) (main_arg6 : FVec F S128x64 .f32) (main_arg7 : FVec F S64 .f32) (main_arg8 : FVec F S128x128 .f32) (main_arg9 : FVec F S128 .f32) (main_arg10 : FVec F S128x64 .f32) (main_arg11 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x256 : Shape := ⟨2, ![50000, 256]⟩
abbrev S2x600000 : Shape := ⟨2, ![2, 600000]⟩
abbrev S50000x128 : Shape := ⟨2, ![50000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x256 : Shape := ⟨2, ![5000, 256]⟩
abbrev S5000x1 : Shape := ⟨2, ![5000, 1]⟩
abbrev S5000x128 : Shape := ⟨2, ![5000, 128]⟩
abbrev S600000x128 : Shape := ⟨2, ![600000, 128]⟩
abbrev S1x128 : Shape := ⟨2, ![1, 128]⟩
abbrev S50000x64 : Shape := ⟨2, ![50000, 64]⟩
abbrev S5000x64 : Shape := ⟨2, ![5000, 64]⟩
abbrev S600000x64 : Shape := ⟨2, ![600000, 64]⟩
abbrev S1x64 : Shape := ⟨2, ![1, 64]⟩

abbrev nBuf : Space → Nat
  | .hbm => 116
  | .vmem => 64
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S50000x128, .f32⟩
  | .hbm, ⟨3, _⟩ => ⟨S2x600000, .i32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S50000, .f32⟩
  | .hbm, ⟨20, _⟩ => ⟨S600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S50000x1, .f32⟩
  | .hbm, ⟨44, _⟩ => ⟨S1x128, .f32⟩
  | .hbm, ⟨45, _⟩ => ⟨S50000x128, .f32⟩
  | .hbm, ⟨46, _⟩ => ⟨S50000x1, .f32⟩
  | .hbm, ⟨47, _⟩ => ⟨S50000x64, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x64, .f32⟩
  | .hbm, ⟨57, _⟩ => ⟨S_, .f32⟩
  | .hbm, ⟨58, _⟩ => ⟨S50000x64, .f32⟩
  | .hbm, ⟨59, _⟩ => ⟨S600000x1, .i32⟩
  | .hbm, ⟨60, _⟩ => ⟨S50000x64, .f32⟩
  | .hbm, ⟨61, _⟩ => ⟨S50000x1, .f32⟩
  | .hbm, ⟨62, _⟩ => ⟨S1x64, .f32⟩
  | .hbm, ⟨63, _⟩ => ⟨S50000x64, .f32⟩
  | .hbm, ⟨64, _⟩ => ⟨S1x600000, .i32⟩
  | .hbm, ⟨65, _⟩ => ⟨S600000, .i32⟩
  | .hbm, ⟨66, _⟩ => ⟨S1x600000, .i32⟩
  | .hbm, ⟨67, _⟩ => ⟨S600000, .i32⟩
  | .hbm, ⟨68, _⟩ => ⟨S_, .f32⟩
  | .hbm, ⟨69, _⟩ => ⟨S600000, .f32⟩
  | .hbm, ⟨70, _⟩ => ⟨S_, .f32⟩
  | .hbm, ⟨71, _⟩ => ⟨S50000, .f32⟩
  | .hbm, ⟨72, _⟩ => ⟨S600000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x128, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S600000x128, .f32⟩
  | .hbm, ⟨91, _⟩ => ⟨S_, .f32⟩
  | .hbm, ⟨92, _⟩ => ⟨S50000x128, .f32⟩
  | .hbm, ⟨93, _⟩ => ⟨S600000x1, .i32⟩
  | .hbm, ⟨94, _⟩ => ⟨S50000x128, .f32⟩
  | .hbm, ⟨95, _⟩ => ⟨S50000x1, .f32⟩
  | .hbm, ⟨96, _⟩ => ⟨S1x128, .f32⟩
  | .hbm, ⟨97, _⟩ => ⟨S50000x128, .f32⟩
  | .hbm, ⟨98, _⟩ => ⟨S50000x1, .f32⟩
  | .hbm, ⟨99, _⟩ => ⟨S50000x64, .f32⟩
  | .hbm, ⟨100, _⟩ => ⟨S_, .i32⟩
  | .hbm, ⟨101, _⟩ => ⟨S600000, .i32⟩
  | .hbm, ⟨102, _⟩ => ⟨S600000, .i1⟩
  | .hbm, ⟨103, _⟩ => ⟨S_, .i32⟩
  | .hbm, ⟨104, _⟩ => ⟨S600000, .i32⟩
  | .hbm, ⟨105, _⟩ => ⟨S600000, .i32⟩
  | .hbm, ⟨106, _⟩ => ⟨S600000, .i32⟩
  | .hbm, ⟨107, _⟩ => ⟨S600000x1, .i32⟩
  | .hbm, ⟨108, _⟩ => ⟨S600000x64, .f32⟩
  | .hbm, ⟨109, _⟩ => ⟨S_, .f32⟩
  | .hbm, ⟨110, _⟩ => ⟨S50000x64, .f32⟩
  | .hbm, ⟨111, _⟩ => ⟨S600000x1, .i32⟩
  | .hbm, ⟨112, _⟩ => ⟨S50000x64, .f32⟩
  | .hbm, ⟨113, _⟩ => ⟨S50000x1, .f32⟩
  | .hbm, ⟨114, _⟩ => ⟨S1x64, .f32⟩
  | .hbm, ⟨115, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x64, .f32⟩
  | .local _ .vmem, ⟨51, _⟩ => ⟨S5000x1, .f32⟩
  | .local _ .vmem, ⟨52, _⟩ => ⟨S5000x1, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x1, .f32⟩
  | .local _ .vmem, ⟨60, _⟩ => ⟨S5000x1, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg3_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem3_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem4_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S128x128_S128x128_0_0 : ∀ a, (![0, 0] : Fin 2 → Nat) a + S128x128.size a ≤ S128x128.size a
  h_S128x128 : 0 < S128x128.numel
  scatter_S50000_S600000x1_S600000_n_0_0_1_wf : ScatterDims.WF S50000 S600000x1 S600000 [] [0] [0] 1
  dot_S5000x256_S256x128_S5000x128_1_0_0_1_n_n_wf : DotDims.WF S5000x256 S256x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S50000x64.size a
  hwx7_4 : ∀ i : grid7.Coords, EltTy.bits .f32 = 32 ∨ (Rect.block (s := S50000x64) S5000x64.size (cc7_transform_4 i) (hinb7_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg2) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v55) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v65) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v68) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v68) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v69) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v70) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v80) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v81) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v82) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v83) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S50000x128 : Shape := ⟨2, ![50000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x64 : Shape := ⟨2, ![50000, 64]⟩
abbrev S600000x64 : Shape := ⟨2, ![600000, 64]⟩
abbrev S1x64 : Shape := ⟨2, ![1, 64]⟩

abbrev nBuf : Space → Nat
  | .hbm => 250
  | .vmem => 0
  | .smem => 0
  | _ => 0

abbrev hbmTy0_0 (i : Nat) : BufTy := match i % 128 with
  | 0 => ⟨S50000x256, .f32⟩
  | 1 => ⟨S2x600000, .i32⟩
  | 2 => ⟨S50000x128, .f32⟩
  | 3 => ⟨S2x600000, .i32⟩
  | 4 => ⟨S256x128, .f32⟩
  | 5 => ⟨S128, .f32⟩
  | 6 => ⟨S128x64, .f32⟩
  | 7 => ⟨S64, .f32⟩
  | 8 => ⟨S128x128, .f32⟩
  | 9 => ⟨S128, .f32⟩
  | 10 => ⟨S128x64, .f32⟩
  | 11 => ⟨S64, .f32⟩
  | 12 => ⟨S1x600000, .i32⟩
  | 13 => ⟨S600000, .i32⟩
  | 14 => ⟨S1x600000, .i32⟩
  | 15 => ⟨S600000, .i32⟩
  | 16 => ⟨S50000x128, .f32⟩
  | 17 => ⟨S_, .f32⟩
  | 18 => ⟨S600000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S600000x1, .f32⟩
  | 58 => ⟨S600000x128, .f32⟩
  | 59 => ⟨S600000x128, .f32⟩
  | 60 => ⟨S_, .f32⟩
  | 61 => ⟨S50000x128, .f32⟩
  | 62 => ⟨S600000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x64, .f32⟩
  | 76 => ⟨S_, .f32⟩
  | 77 => ⟨S600000, .f32⟩
  | 78 => ⟨S_, .f32⟩
  | 79 => ⟨S50000, .f32⟩
  | 80 => ⟨S600000x1, .i32⟩
  | 81 => ⟨S50000, .f32⟩
  | 82 => ⟨S_, .f32⟩
  | 83 => ⟨S50000, .f32⟩
  | 84 => ⟨S50000, .f32⟩
  | 85 => ⟨S_, .f32⟩
  | 86 => ⟨S50000, .f32⟩
  | 87 => ⟨S50000, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000, .f32⟩
  | 106 => ⟨S600000, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x64, .f32⟩
  | 116 => ⟨S600000x1, .f32⟩
  | 117 => ⟨S600000x64, .f32⟩
  | 118 => ⟨S600000x64, .f32⟩
  | 119 => ⟨S_, .f32⟩
  | 120 => ⟨S50000x64, .f32⟩
  | 121 => ⟨S600000x1, .i32⟩
  | 122 => ⟨S50000x64, .f32⟩
  | 123 => ⟨S50000, .f32⟩
  | 124 => ⟨S50000x1, .f32⟩
  | 125 => ⟨S50000x64, .f32⟩
  | 126 => ⟨S50000x64, .f32⟩
  | 127 => ⟨S50000x64, .f32⟩
  | _ => ⟨S50000x256, .f32⟩

abbrev hbmTy0_1 (i : Nat) : BufTy := match i % 128 with
  | 0 => ⟨S1x64, .f32⟩
  | 1 => ⟨S50000x64, .f32⟩
  | 2 => ⟨S50000x64, .f32⟩
  | 3 => ⟨S1x600000, .i32⟩
  | 4 => ⟨S600000, .i32⟩
  | 5 => ⟨S1x600000, .i32⟩
  | 6 => ⟨S600000, .i32⟩
  | 7 => ⟨S50000x128, .f32⟩
  | 8 => ⟨S_, .f32⟩
  | 9 => ⟨S600000, .f32⟩
  | 10 => ⟨S_, .f32⟩
  | 11 => ⟨S50000, .f32⟩
  | 12 => ⟨S600000x1, .i32⟩
  | 13 => ⟨S50000, .f32⟩
  | 14 => ⟨S_, .f32⟩
  | 15 => ⟨S50000, .f32⟩
  | 16 => ⟨S50000, .f32⟩
  | 17 => ⟨S_, .f32⟩
  | 18 => ⟨S50000, .f32⟩
  | 19 => ⟨S50000, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S600000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x128, .f32⟩
  | 48 => ⟨S600000x1, .f32⟩
  | 49 => ⟨S600000x128, .f32⟩
  | 50 => ⟨S600000x128, .f32⟩
  | 51 => ⟨S_, .f32⟩
  | 52 => ⟨S50000x128, .f32⟩
  | 53 => ⟨S600000x1, .i32⟩
  | 54 => ⟨S50000x128, .f32⟩
  | 55 => ⟨S50000, .f32⟩
  | 56 => ⟨S50000x1, .f32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x64, .f32⟩
  | 67 => ⟨S_, .f32⟩
  | 68 => ⟨S600000, .f32⟩
  | 69 => ⟨S_, .f32⟩
  | 70 => ⟨S50000, .f32⟩
  | 71 => ⟨S600000x1, .i32⟩
  | 72 => ⟨S50000, .f32⟩
  | 73 => ⟨S_, .f32⟩
  | 74 => ⟨S50000, .f32⟩
  | 75 => ⟨S50000, .f32⟩
  | 76 => ⟨S_, .f32⟩
  | 77 => ⟨S50000, .f32⟩
  | 78 => ⟨S50000, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000, .f32⟩
  | 97 => ⟨S600000, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x64, .f32⟩
  | 107 => ⟨S600000x1, .f32⟩
  | 108 => ⟨S600000x64, .f32⟩
  | 109 => ⟨S600000x64, .f32⟩
  | 110 => ⟨S_, .f32⟩
  | 111 => ⟨S50000x64, .f32⟩
  | 112 => ⟨S600000x1, .i32⟩
  | 113 => ⟨S50000x64, .f32⟩
  | 114 => ⟨S50000, .f32⟩
  | 115 => ⟨S50000x1, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call0_cst : Ref sig .tc := ⟨.hbm, 72, rfl⟩
abbrev main_call0_v0 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_19 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_20 : Ref sig .tc := ⟨.hbm, 136, rfl⟩
abbrev main_v100 : Ref sig .tc := ⟨.hbm, 137, rfl⟩
abbrev main_cst_21 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_22 : Ref sig .tc := ⟨.hbm, 142, rfl⟩
abbrev main_v104 : Ref sig .tc := ⟨.hbm, 143, rfl⟩
abbrev main_v105 : Ref sig .tc := ⟨.hbm, 144, rfl⟩
abbrev main_cst_23 : Ref sig .tc := ⟨.hbm, 145, rfl⟩
abbrev main_v106 : Ref sig .tc := ⟨.hbm, 146, rfl⟩
abbrev main_v107 : Ref sig .tc := ⟨.hbm, 147, rfl⟩
abbrev main_c_24 : Ref sig .tc := ⟨.hbm, 148, rfl⟩
abbrev main_v108 : Ref sig .tc := ⟨.hbm, 149, rfl⟩
abbrev main_v109 : Ref sig .tc := ⟨.hbm, 150, rfl⟩
abbrev main_c_25 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_26 : Ref sig .tc := ⟨.hbm, 157, rfl⟩
abbrev main_v115 : Ref sig .tc := ⟨.hbm, 158, rfl⟩
abbrev main_v116 : Ref sig .tc := ⟨.hbm, 159, rfl⟩
abbrev main_c_27 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_c_28 : Ref sig .tc := ⟨.hbm, 167, rfl⟩
abbrev main_v123 : Ref sig .tc := ⟨.hbm, 168, rfl⟩
abbrev main_v124 : Ref sig .tc := ⟨.hbm, 169, rfl⟩
abbrev main_c_29 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_30 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_call1_cst : Ref sig .tc := ⟨.hbm, 191, rfl⟩
abbrev main_call1_v0 : Ref sig .tc := ⟨.hbm, 192, rfl⟩
abbrev main_v144 : Ref sig .tc := ⟨.hbm, 193, rfl⟩
abbrev main_v145 : Ref sig .tc := ⟨.hbm, 194, rfl⟩
abbrev main_cst_31 : Ref sig .tc := ⟨.hbm, 195, rfl⟩
abbrev main_v146 : Ref sig .tc := ⟨.hbm, 196, rfl⟩
abbrev main_cst_32 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_33 : Ref sig .tc := ⟨.hbm, 201, rfl⟩
abbrev main_v150 : Ref sig .tc := ⟨.hbm, 202, rfl⟩
abbrev main_v151 : Ref sig .tc := ⟨.hbm, 203, rfl⟩
abbrev main_cst_34 : Ref sig .tc := ⟨.hbm, 204, rfl⟩
abbrev main_v152 : Ref sig .tc := ⟨.hbm, 205, rfl⟩
abbrev main_v153 : Ref sig .tc := ⟨.hbm, 206, rfl⟩
abbrev main_c_35 : Ref sig .tc := ⟨.hbm, 207, rfl⟩
abbrev main_v154 : Ref sig .tc := ⟨.hbm, 208, rfl⟩
abbrev main_v155 : Ref sig .tc := ⟨.hbm, 209, rfl⟩
abbrev main_c_36 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_c_37 : Ref sig .tc := ⟨.hbm, 216, rfl⟩
abbrev main_v161 : Ref sig .tc := ⟨.hbm, 217, rfl⟩
abbrev main_v162 : Ref sig .tc := ⟨.hbm, 218, rfl⟩
abbrev main_c_38 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_c_39 : Ref sig .tc := ⟨.hbm, 226, rfl⟩
abbrev main_v169 : Ref sig .tc := ⟨.hbm, 227, rfl⟩
abbrev main_v170 : Ref sig .tc := ⟨.hbm, 228, rfl⟩
abbrev main_c_40 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_cst_41 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its two results named.

  @main is eight calls among stretches of host operations. Every weakly fair execution from a memory with zero
  counters terminates without a fault, and in the final state the two result buffers hold what the last boundary of
  the fold through @main holds for them (the contents after the eighth call: each call's arrays at what its grid's
  write-backs leave, every other buffer as the preceding stretch of host operations left it), and every argument is as
  launched. The launch, the segments and the proof data are the frame's; only the final reading differs: two more
  buffers are read off the last thread state.
-/
import proofs.«119174_j20590073217487_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run_named : θ_run defs (onTc (τ := τ) (main (F := F))) ⟨m, fun _ => 0, ρ⟩ (fun r => ∀ c : Dev nD,
      r.2.mem ((c.tc : Thread nD τ).loc main_v41) = W16 m ρ c (Proc.devRef .tc main_v41)
      ∧ r.2.mem ((c.tc : Thread nD τ).loc main_v83) = W16 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v41 (by decide)),
       h c _ (mem_uc main_v83 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.Named

end
-- ==== Proof.KernelParts.lean ====
/-
  The host-side pieces of the idealized kernel's program, as functions of one graph's edge array  idx : [2, E]
  (row 0 the sources, row 1 the destinations; E = 600000 edges, N = 50000 nodes):

  * the source and destination node numbers, each a row of the edge array;
  * the per-node factor: the number of edges arriving at the node, plus one for the self-loop, to the power −1/2 —
    a scatter-add of ones through the destination column, one added, the power taken entry by entry;
  * the source column wrapped (a negative node number has N added) and the destination column as given;
  * the zero accumulators the aggregation starts from.

  Also two casts read at an index: a vector [a] seen as a column [a, 1] reads the vector at the row; the cast of a
  vector [a] to a row [1, a] is in the library.
-/
import proofs.«119174_j20590073217487_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Parts

open Idealize.ShloMosaic Idealize.ShloMosaic.ValueIdx Cert.KernelIdeal Cert.KernelIdeal.Facts₀

/-- The edges' source node numbers: row 0 of the edge array. -/
def srcOf (idx : IVec S2x600000 32) : IVec S600000 32 :=
  shapeCast S600000 (extractStridedSlice S1x600000 ![0, 0] idx slices_S2x600000_S1x600000_0_0) shapeCasts_S1x600000_S600000

/-- The edges' destination node numbers: row 1 of the edge array. -/
def dstOf (idx : IVec S2x600000 32) : IVec S600000 32 :=
  shapeCast S600000 (extractStridedSlice S1x600000 ![1, 0] idx slices_S2x600000_S1x600000_1_0) shapeCasts_S1x600000_S600000

/-- A vector of node numbers as a column of start indices. -/
def colOf (v : IVec S600000 32) : IVec S600000x1 32 := broadcastInDim S600000x1 ![0] bcast_S600000_S600000x1_0 v

/-- A vector of node numbers wrapped (a negative number has N added), as a column of start indices. -/
def wrapColOf (v : IVec S600000 32) : IVec S600000x1 32 :=
  broadcastInDim S600000x1 ![0] bcast_S600000_S600000x1_0
    (select (cmpi CmpIPredicate.slt v (broadcastInDim S600000 ![] bcast_S_S600000 (constantI S_ 32 0#32)))
      (addi v (broadcastInDim S600000 ![] bcast_S_S600000 (constantI S_ 32 50000#32))) v)

/-- The per-node factor: (edges arriving + 1) ^ (−1/2). -/
def factorOf (idx : IVec S2x600000 32) : FVec Ideal S50000 .f32 :=
  Host.powf
    (addf
      (Host.scatterAdd (F := Ideal) scatter_S50000_S600000x1_S600000_n_0_0_1
        (broadcastInDim S50000 ![] bcast_S_S50000 (constant (F := Ideal) S_ .f32 0x00000000#32))
        (colOf (dstOf idx))
        (broadcastInDim S600000 ![] bcast_S_S600000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- The zero accumulator of width 128. -/
def zeros128 : FVec Ideal S50000x128 .f32 := broadcastInDim S50000x128 ![] bcast_S_S50000x128 (constant (F := Ideal) S_ .f32 0x00000000#32)

/-- The zero accumulator of width 64. -/
def zeros64 : FVec Ideal S50000x64 .f32 := broadcastInDim S50000x64 ![] bcast_S_S50000x64 (constant (F := Ideal) S_ .f32 0x00000000#32)

/-- A vector  [a]  cast to a column  [a, 1]  reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.KernelIdeal.Parts

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibScaledAggregate.lean ====
/-
  GENERAL LEMMA: a per-node scaling of a message-passing layer's aggregation MOVES ONTO THE EDGES.

  In a layer over a graph with N nodes and E edges, features of width C, every edge e carries the row of its source
  node  src e  to its destination node  dst e, where the rows that arrive are added up: a row gather  H[src]  followed
  by an accumulating row scatter, from zero, through the column  dst. Let  s : [N]  be a per-node factor. Scaling the
  rows per SOURCE node before they travel and the sum per DESTINATION node after it,

      s p · Σ_{e : dst e = p}  H[src e, q] · s[src e],

  is the same as scattering the unscaled rows, each multiplied by its edge's weight  s[src e] · s[dst e]:

      Σ_{e : dst e = p}  H[src e, q] · (s[src e] · s[dst e]).

  Here  s[dst e]  is itself gathered, through a second column  dwrap  that agrees with the scatter's column  dcol
  wherever the scatter's index is in range [0, N) — which is every edge that contributes: a scatter index is not
  clamped, an update whose row leaves the operand is dropped, so for a contributing edge  dcol e = p  exactly, the
  gather of  s  at  dwrap e = dcol e  is not clamped either, and it reads  s p.

  On the extended reals this needs only that every  s i  is a nonnegative real: such a factor distributes over any
  finite sum, infinite terms included (by induction on the sum, from the two-term law); multiplication there is
  commutative and associative. No finiteness of  H  is assumed. Any extents N, E, C, any index width w.
-/
import proofs.«119174_j20590073217487_2_alg».proof.Proof.LibEdgeReads

noncomputable section

namespace Cert.LibScaledAggregate

open Idealize.ShloMosaic Idealize.ShloMosaic.ValueIdx Cert.LibEdgeReads
open scoped BigOperators

/-- A nonnegative real factor distributes over any finite sum of extended reals (infinite terms included). -/
theorem mul_sum_of_nonneg_of_ne_top {ι : Type} (c : EReal) (hc : 0 ≤ c) (hc' : c ≠ ⊤) (S : Finset ι) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top hc hc', ih]

/-- SCALING OUT OF THE AGGREGATION: the destination's factor times the scattered sum of source-scaled gathered rows is
    the scattered sum of the gathered rows each times its edge weight `s[src e] · s[dwrap e]`, for a nonnegative real
    factor `s` and a column `dwrap` that agrees with the scatter's column wherever that one is in range. -/
theorem aggregate_scale_out {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : (⟨2, ![N, C]⟩ : Shape).Idx → EReal) (s : (⟨1, ![N]⟩ : Shape).Idx → EReal)
    (hs : ∀ i, 0 ≤ s i ∧ s i ≠ ⊤)
    (z z' : (⟨2, ![N, C]⟩ : Shape).Idx → EReal) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Ideal.hostScatterAdd dS z dcol (Host.gather dG (fun i => H i * s (ix1 (i 0))) src) (ix2 p q)
      = Ideal.hostScatterAdd dS' z' dcol (fun j => Host.gather dG' H src j
          * (Host.gather dg s src (ix1 (j 0)) * Host.gather dg s dwrap (ix1 (j 0)))) (ix2 p q) := by
  subst hS hS' hG hG' hg
  -- both sides: zero plus the sum over the updates that land on (p, q); the factor goes inside the sum
  unfold Ideal.hostScatterAdd
  rw [hz, hz', zero_add, zero_add, mul_sum_of_nonneg_of_ne_top _ (hs _).1 (hs _).2]
  refine Finset.sum_congr rfl ?_
  intro j hj
  -- an update that lands on row p has scatter index exactly p: in range, so the second column agrees there
  obtain ⟨hrow, -⟩ := scatter_rows_lands wfS _ rfl dcol j (ix2 p q) (Finset.mem_filter.mp hj).2
  have hrow' : (dcol (ix2 (j 0) (0 : Fin 1))).toInt = (p.val : ℤ) := hrow
  have hp := p.isLt
  have hw := hwrap (j 0) (by rw [hrow']; omega) (by rw [hrow']; omega)
  -- the two row gathers and the two element gathers, read at the update's index
  have g1 := (congrArg (Host.gather (rowGatherDims N E C wfG) (fun i => H i * s (ix1 (i 0))) src) (eq_ix2 j)).trans
    (gather_rows_apply hN wfG _ rfl (fun i => H i * s (ix1 (i 0))) src (j 0) (j 1))
  have g2 := (congrArg (Host.gather (rowGatherDims N E C wfG') H src) (eq_ix2 j)).trans
    (gather_rows_apply hN wfG' _ rfl H src (j 0) (j 1))
  have g3 := gather_elts_apply hN wfg _ rfl s src (j 0)
  have g4 := gather_elts_apply hN wfg _ rfl s dwrap (j 0)
  -- the clamped row of the second column is p itself
  have hrowp : (⟨min (dwrap (ix2 (j 0) (0 : Fin 1))).toInt.toNat (N - 1), by omega⟩ : Fin N) = p := by
    refine Fin.ext ?_
    show min (dwrap (ix2 (j 0) (0 : Fin 1))).toInt.toNat (N - 1) = p.val
    rw [hw, hrow']
    omega
  rw [hrowp] at g4
  beta_reduce
  rw [g1, g2, g3, g4]
  show s (ix1 p) * (H _ * s _) = H _ * (s _ * s (ix1 p))
  rw [mul_comm (s (ix1 p)), mul_assoc]
  rfl

end Cert.LibScaledAggregate

end
-- ==== Proof.LibHostAggregate.lean ====
/-
  GENERAL LEMMA: a per-node scaling of a message-passing layer's aggregation moves onto the edges, with both
  aggregations spelt as the host's accumulating scatter `Host.scatterAdd`.

  In a layer over a graph with N nodes and E edges, features of width C, a row gather `H[src]` is followed by an
  accumulating row scatter, from zero, through the destination column. For a per-node factor `s` that is a nonnegative
  real,

      s p · Σ_{e : dst e = p}  (H · s)[src e, q]   =   Σ_{e : dst e = p}  H[src e, q] · (s[src e] · s[dst e]),

  where the right side gathers `s` at the destinations through a second column that agrees with the scatter's wherever
  that one is in range [0, N). This is LibScaledAggregate's `aggregate_scale_out` with the two sums written as a
  printed host program writes them, `Host.scatterAdd d x idx upd`, and not as the extended reals' `Ideal.hostScatterAdd`.
  The two spellings are the same function by definition; the point of stating the law in this one, over VARIABLE
  extents N, E, C and index width w, is that it then applies to a program's scatter at literal extents by matching
  the statement as written, with nothing to unfold at those extents.
-/
import proofs.«119174_j20590073217487_2_alg».proof.Proof.LibScaledAggregate

noncomputable section

namespace Cert.LibHostAggregate

open Idealize.ShloMosaic Idealize.ShloMosaic.ValueIdx Cert.LibEdgeReads Cert.LibScaledAggregate

/-- The aggregation law with both aggregations spelt as the host's accumulating scatter: the destination's factor
    times the scattered sum of source-scaled gathered rows is the scattered sum of the gathered rows each times its
    edge's weight, for a nonnegative real per-node factor and a second destination column that agrees with the
    scatter's wherever that one is in range. -/
theorem layer_law {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : FVec Ideal ⟨2, ![N, C]⟩ .f32) (s : FVec Ideal ⟨1, ![N]⟩ .f32)
    (hs : ∀ i, 0 ≤ s i ∧ s i ≠ ⊤)
    (z z' : FVec Ideal ⟨2, ![N, C]⟩ .f32) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Host.scatterAdd (F := Ideal) dS z dcol (Host.gather dG (fun i => H i * s (ix1 (i 0))) src) (ix2 p q)
      = Host.scatterAdd (F := Ideal) dS' z' dcol (fun j => Host.gather dG' H src j
          * (Host.gather dg s src (ix1 (j 0)) * Host.gather dg s dwrap (ix1 (j 0)))) (ix2 p q) :=
  aggregate_scale_out hN wfS wfS' wfG wfG' wfg dS dS' hS hS' dG dG' hG hG' dg hg H s hs z z' hz hz' src dcol dwrap hwrap p q

end Cert.LibHostAggregate

end
-- ==== Proof.GcnLayer.lean ====
/-
  ONE GRAPH-CONVOLUTION LAYER, TWO WAYS, AND THE LAW THAT JOINS THEM.

  Over a graph with N nodes and E edges, a layer takes node features h : [N, C] (a feature matrix times a weight
  matrix), a per-node factor s : [N] (the inverse square root of the node's degree, self-loop counted), a bias
  b : [C], and sends every edge's source row to its destination node, where the rows that arrive are added up; the
  node's own row joins the sum (the self-loop). With  A p q = Σ_{e : dst e = p} _ , the two ways are

    scaled   :  s p · ( Σ_{e : dst e = p} (h · s)[src e, q]  +  h[p, q] · s p )  +  b q
    weighted :  Σ_{e : dst e = p} h[src e, q] · (s[src e] · s[dst e])  +  h[p, q] · (s p · s p)  +  b q,

  each optionally followed by  max _ 0.  They agree as soon as every  s i  is a nonnegative real: such a factor
  distributes over a sum of two extended reals whatever their values, and moves through the aggregation (the
  aggregation law for a scatter-add over edges); multiplication is commutative and associative. Nothing is assumed
  finite of  h  or  b.
-/
import proofs.«119174_j20590073217487_2_alg».proof.Proof.LibHostAggregate

noncomputable section

namespace Cert.GcnLayer

open Idealize.ShloMosaic Idealize.ShloMosaic.ValueIdx Cert.LibEdgeReads
open scoped BigOperators

variable {N E K C w : ℕ}

/-- Node features: entry (p, q) of a feature matrix times a weight matrix is  Σ_k x[p, k] · W[k, q]. -/
def feat (x : FVec Ideal ⟨2, ![N, K]⟩ .f32) (W : FVec Ideal ⟨2, ![K, C]⟩ .f32) : FVec Ideal ⟨2, ![N, C]⟩ .f32 :=
  fun i => ∑ k : Fin K, x (ix2 (i 0) k) * W (ix2 k (i 1))

/-- The layer's last step: the positive part, or nothing. -/
def act (relu : Bool) (v : EReal) : EReal := if relu = true then max v 0 else v

/-- The layer with the factor applied per node: rows scaled at the source before they travel, the sum (with the
    node's own scaled row) scaled at the destination after it. -/
def scaledLayer (dS : ScatterDims ⟨2, ![N, C]⟩ ⟨2, ![E, 1]⟩ ⟨2, ![E, C]⟩)
    (dG : GatherDims ⟨2, ![N, C]⟩ ⟨2, ![E, 1]⟩ ⟨2, ![E, C]⟩) (relu : Bool)
    (h : FVec Ideal ⟨2, ![N, C]⟩ .f32) (s : FVec Ideal ⟨1, ![N]⟩ .f32) (b : FVec Ideal ⟨1, ![C]⟩ .f32)
    (z : FVec Ideal ⟨2, ![N, C]⟩ .f32) (src dcol : IVec ⟨2, ![E, 1]⟩ w) : FVec Ideal ⟨2, ![N, C]⟩ .f32 :=
  fun i => act relu (s (ix1 (i 0)) * (Host.scatterAdd (F := Ideal) dS z dcol
      (Host.gather dG (fun j => h j * s (ix1 (j 0))) src) i + h i * s (ix1 (i 0))) + b (ix1 (i 1)))

/-- The layer with the factor applied per edge: every travelling row times its edge's weight  s[src] · s[dst],
    the node's own row times  s · s. -/
def weightedLayer (dS : ScatterDims ⟨2, ![N, C]⟩ ⟨2, ![E, 1]⟩ ⟨2, ![E, C]⟩)
    (dG : GatherDims ⟨2, ![N, C]⟩ ⟨2, ![E, 1]⟩ ⟨2, ![E, C]⟩)
    (dg : GatherDims ⟨1, ![N]⟩ ⟨2, ![E, 1]⟩ ⟨1, ![E]⟩) (relu : Bool)
    (h : FVec Ideal ⟨2, ![N, C]⟩ .f32) (s : FVec Ideal ⟨1, ![N]⟩ .f32) (b : FVec Ideal ⟨1, ![C]⟩ .f32)
    (z : FVec Ideal ⟨2, ![N, C]⟩ .f32) (src dcol dwrap : IVec ⟨2, ![E, 1]⟩ w) : FVec Ideal ⟨2, ![N, C]⟩ .f32 :=
  fun i => act relu (Host.scatterAdd (F := Ideal) dS z dcol (fun j => Host.gather dG h src j
      * (Host.gather dg s src (ix1 (j 0)) * Host.gather dg s dwrap (ix1 (j 0)))) i
      + h i * (s (ix1 (i 0)) * s (ix1 (i 0))) + b (ix1 (i 1)))

/-- THE TWO LAYERS AGREE for a nonnegative real per-node factor, zero accumulators, and a destination column for the
    factor's gather that agrees with the scatter's column wherever that one is in range. -/
theorem scaledLayer_eq_weightedLayer (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (relu : Bool) (h : FVec Ideal ⟨2, ![N, C]⟩ .f32) (s : FVec Ideal ⟨1, ![N]⟩ .f32)
    (hs : ∀ i, 0 ≤ s i ∧ s i ≠ ⊤) (b : FVec Ideal ⟨1, ![C]⟩ .f32)
    (z z' : FVec Ideal ⟨2, ![N, C]⟩ .f32) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1))) :
    scaledLayer dS dG relu h s b z src dcol = weightedLayer dS' dG' dg relu h s b z' src dcol dwrap := by
  funext i
  obtain ⟨p, q, rfl⟩ : ∃ (p : Fin N) (q : Fin C), i = ix2 p q := ⟨i 0, i 1, eq_ix2 i⟩
  have law := Cert.LibHostAggregate.layer_law hN wfS wfS' wfG wfG' wfg dS dS' hS hS' dG dG' hG hG' dg hg h s hs
    z z' hz hz' src dcol dwrap hwrap p q
  show act relu (s (ix1 p) * (_ + h (ix2 p q) * s (ix1 p)) + b (ix1 q))
    = act relu (_ + h (ix2 p q) * (s (ix1 p) * s (ix1 p)) + b (ix1 q))
  rw [EReal.left_distrib_of_nonneg_of_ne_top (hs _).1 (hs _).2, law, mul_comm (s (ix1 p)) (h (ix2 p q) * s (ix1 p)),
    mul_assoc]

end Cert.GcnLayer

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.ScaleCall0.lean ====
/-
  The array a matrix-product-and-scale call leaves (call 0): the grid's ten points each write rows 5000·t … 5000·t+4999 of the
  [50000, 128] output, and those blocks tile it; row p of the output is row p of the feature matrix times the whole weight
  matrix, every entry then multiplied by the per-node factor of row p. So entry (p, q) of the array after the call is
  (Σ_k x[p, k] · W[k, q]) · d[p, 0]  of the arrays the call finds (changes of float format are the identity on the
  extended reals; the accumulator starts at zero).
-/
import proofs.«119174_j20590073217487_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«119174_j20590073217487_2_alg».proof.Proof.LibPlainMatmul
set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The block offsets of a whole-block access are all zero. -/
theorem zero_offsets0 : (![0, 0] : Fin 2 → Nat) = fun _ => 0 := funext fun a => by fin_cases a <;> rfl

/-- A [5000, 1] column laid along the columns of a [5000, 128] matrix reads, at (r, e), the column's entry of row r. -/
theorem column_broadcast0 (d : FVec Ideal S5000x1 .f32) (h : S5000x1.Broadcasts S5000x128) (r : Fin 5000) (e : Fin 128) :
    broadcastTo S5000x128 d h (ix2 r e) = d (ix2 r (0 : Fin 1)) := by
  refine broadcastTo_apply d h (ix2 r e) (ix2 r (0 : Fin 1)) fun ax => ?_
  match ax with
  | ⟨0, _⟩ => rfl
  | ⟨1, _⟩ => rfl

/-- The body's arithmetic at an entry: the row of the left block times the column of the right block (the changes of
    float format are the identity, the accumulator is zero), times the row's factor. -/
theorem payload0_at (x : FVec Ideal S5000x256 .f32) (w : FVec Ideal S256x128 .f32) (d : FVec Ideal S5000x1 .f32) (r : Fin 5000) (e : Fin 128) :
    k0_pay1 (F := Ideal) x w d (ix2 r e) = (∑ k : Fin 256, x (ix2 r k) * w (ix2 k e)) * d (ix2 r (0 : Fin 1)) := by
  unfold k0_pay1
  rw [mulf_apply, shapeCast_self, column_broadcast0]
  simp only [matmul]
  rw [matmul_plain_zero_apply dot_S5000x256_S256x128_S5000x128_1_0_0_1_n_n rfl]
  rfl

/-- The whole output as one function of the three arrays: entry (p, q) is (Σ_k X[p, k] · W[k, q]) · D[p, 0]. -/
def scaledProduct0 (X : FVec Ideal S50000x256 .f32) (W : FVec Ideal S256x128 .f32) (D : FVec Ideal S50000x1 .f32) : FVec Ideal S50000x128 .f32 :=
  fun i => (∑ k : Fin 256, X (ix2 (i 0) k) * W (ix2 k (i 1))) * D (ix2 (i 0) (0 : Fin 1))

/-- Over variables: when the left block holds rows 5000·b … of X, the right block all of W and the factor block rows
    5000·b … of D, the body's arithmetic at (r, e) is the whole-array function at (5000·b + r, e). -/
theorem block_value0 (X : FVec Ideal S50000x256 .f32) (W : FVec Ideal S256x128 .f32) (D : FVec Ideal S50000x1 .f32)
    (x : FVec Ideal S5000x256 .f32) (w : FVec Ideal S256x128 .f32) (d : FVec Ideal S5000x1 .f32) (b : Nat) (r : Fin 5000) (e : Fin 128)
    (h : b * 5000 + r.val < 50000)
    (hx : ∀ k : Fin 256, x (ix2 r k) = X (ix2 ⟨b * 5000 + r.val, h⟩ k))
    (hw : ∀ k : Fin 256, w (ix2 k e) = W (ix2 k e))
    (hd : d (ix2 r (0 : Fin 1)) = D (ix2 ⟨b * 5000 + r.val, h⟩ (0 : Fin 1))) :
    k0_pay1 (F := Ideal) x w d (ix2 r e) = scaledProduct0 X W D (ix2 ⟨b * 5000 + r.val, h⟩ e) := by
  rw [payload0_at, hd]
  show _ = (∑ k : Fin 256, X (ix2 ⟨b * 5000 + r.val, h⟩ k) * W (ix2 k e)) * D (ix2 ⟨b * 5000 + r.val, h⟩ (0 : Fin 1))
  congr 1
  exact Finset.sum_congr rfl fun k _ => by rw [hx k, hw k]

/-- The printed index maps, decided over the grid: at point t the row-tiled windows sit at block row t, block column 0,
    and the weight window at block (0, 0). -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The left window's block at point t is rows 5000·t … of its array. -/
theorem left_block0 (c : Dev nD) (t : Fin cfg0.N) (r : Fin 5000) (k : Fin 256) (h : t.val * 5000 + r.val < 50000) :
    (iblk0 (F := Ideal) V c 0 t : FVec Ideal S5000x256 .f32) (ix2 r k)
      = (V c main_arg0 : FVec Ideal S50000x256 .f32) (ix2 ⟨t.val * 5000 + r.val, h⟩ k) := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 5000 + 1 * r.val = t.val * 5000 + r.val; rw [e0]; omega
  | ⟨1, _⟩ => show win0_0.index t (1 : Fin 2) * 256 + 1 * k.val = k.val; rw [e1]; omega

/-- The weight window's block is the whole weight matrix at every point. -/
theorem right_block0 (c : Dev nD) (t : Fin cfg0.N) (k : Fin 256) (e : Fin 128) :
    (iblk0 (F := Ideal) V c 1 t : FVec Ideal S256x128 .f32) (ix2 k e) = (V c main_arg4 : FVec Ideal S256x128 .f32) (ix2 k e) := by
  obtain ⟨-, -, e2, e3, -⟩ := index_facts0 t
  unfold iblk0
  rw [View.read_apply]
  show V c main_arg4 _ = V c main_arg4 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * e.val = e.val; rw [e3]; omega

/-- The factor window's block at point t is rows 5000·t … of the factor column. -/
theorem factor_block0 (c : Dev nD) (t : Fin cfg0.N) (r : Fin 5000) (h : t.val * 5000 + r.val < 50000) :
    (iblk0 (F := Ideal) V c 2 t : FVec Ideal S5000x1 .f32) (ix2 r (0 : Fin 1))
      = (V c main_v12 : FVec Ideal S50000x1 .f32) (ix2 ⟨t.val * 5000 + r.val, h⟩ (0 : Fin 1)) := by
  obtain ⟨-, -, -, -, e4, e5, -⟩ := index_facts0 t
  unfold iblk0
  rw [View.read_apply]
  show V c main_v12 _ = V c main_v12 _
  congr 1
  funext a
  apply Fin.ext
  match a with
  | ⟨0, _⟩ => show win0_2.index t (0 : Fin 2) * 5000 + 1 * r.val = t.val * 5000 + r.val; rw [e4]; omega
  | ⟨1, _⟩ => show win0_2.index t (1 : Fin 2) * 1 + 1 * (0 : Fin 1).val = (0 : Fin 1).val; rw [e5]; rfl

/-- What point t writes back is block t of the whole-array function of the arrays the call finds. -/
theorem written_back0 (c : Dev nD) (t : Fin cfg0.N) :
    (dat0 (F := Ideal) V c).flushed 3 t
      = ((cfg0.win 3).blk t).view.read (Elt Ideal) (scaledProduct0 (V c main_arg0) (V c main_arg4) (V c main_v12)) := by
  show (cfg0.win 3).cut (grid0.coords t) ((dat0 V c).after 3 t) = _
  rw [after0_3]
  unfold out0_3
  rw [View.canon_unit_zero zero_offsets0]
  simp only [View.ld_unit_zero (S := S5000x256) zero_offsets0, View.ld_unit_zero (S := S256x128) zero_offsets0,
    View.ld_unit_zero (S := S5000x1) zero_offsets0]
  funext j
  have hN : t.val < 10 := by have h1 := t.isLt; have h2 : cfg0.N = 10 := N_0; omega
  have hr : (j 0).val < 5000 := (j 0).isLt
  have he : (j 1).val < 128 := (j 1).isLt
  obtain ⟨-, -, -, -, -, -, e6, e7⟩ := index_facts0 t
  have hj : (cfg0.win 3).xinj (grid0.coords t) j = ix2 (⟨(j 0).val, hr⟩ : Fin 5000) (⟨(j 1).val, he⟩ : Fin 128) :=
    funext fun a => by
      match a with
      | ⟨0, _⟩ => rfl
      | ⟨1, _⟩ => rfl
  show k0_pay1 (iblk0 V c 0 t) (iblk0 V c 1 t) (iblk0 V c 2 t) ((cfg0.win 3).xinj (grid0.coords t) j) = _
  rw [hj]
  refine (block_value0 (V c main_arg0) (V c main_arg4) (V c main_v12) (iblk0 V c 0 t) (iblk0 V c 1 t) (iblk0 V c 2 t)
    t.val ⟨(j 0).val, hr⟩ ⟨(j 1).val, he⟩ (by show t.val * 5000 + (j 0).val < 50000; omega)
    (fun k => left_block0 V c t _ k _) (fun k => right_block0 V c t k _) (factor_block0 V c t _ _)).trans ?_
  rw [View.read_apply]
  show scaledProduct0 _ _ _ _ = scaledProduct0 _ _ _ _
  congr 1
  funext a
  apply Fin.ext
  match a with
  | ⟨0, _⟩ => show t.val * 5000 + (j 0).val = win0_3.index t (0 : Fin 2) * 5000 + 1 * (j 0).val; rw [e6]; omega
  | ⟨1, _⟩ => show (j 1).val = win0_3.index t (1 : Fin 2) * 128 + 1 * (j 1).val; rw [e7]; omega

/-- An index of the output array is in point t's block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- The blocks tile the output array: row p lies in the block of point p / 5000. -/
theorem blocks_cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := index_facts0 t
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- Call 0's output array after the call is the whole-array function of the arrays the call finds: every point writes
    back its block of that function, and the blocks cover the array. -/
theorem scale0_array (c : Dev nD) :
    (dat0 (F := Ideal) V c).arrAt 3 cfg0.N = scaledProduct0 (V c main_arg0) (V c main_arg4) (V c main_v12) :=
  (dat0 (F := Ideal) V c).arrAt_eq_of_cover 3 (scaledProduct0 (V c main_arg0) (V c main_arg4) (V c main_v12))
    (fun t _ => written_back0 V c t) (fun i => blocks_cover0 i)

/-- Entry (p, q) of call 0's output array after the call, from the arrays the call finds. -/
theorem scale0_at (c : Dev nD) (p : Fin 50000) (q : Fin 128)
    (x : FVec Ideal S50000x256 .f32) (W : FVec Ideal S256x128 .f32) (d : FVec Ideal S50000x1 .f32)
    (hx : x = V c main_arg0) (hW : W = V c main_arg4) (hd : d = V c main_v12) :
    ((dat0 (F := Ideal) V c).arrAt 3 cfg0.N (ix2 p q) : EReal)
      = (∑ k : Fin 256, x (ix2 p k) * W (ix2 k q)) * d (ix2 p (0 : Fin 1)) := by
  subst hx hW hd
  exact congrFun (scale0_array V c) (ix2 p q)

end Cert.KernelIdeal.RegionValue

end
-- ==== Proof.CombineCall1.lean ====
/-
  The array a combine call leaves (call 1): the grid's ten points each write rows 5000·t … 5000·t+4999 of the [50000, 128]
  output, and those blocks tile it; the body is pointwise in the row and column, reading the per-node factor from a
  [50000, 1] column and the bias from a [1, 128] row. So entry (p, q) of the array after the call is
  max (d[p, 0] · (a[p, q] + h[p, q]) + b[0, q]) 0  of the arrays the call finds.
-/
import proofs.«119174_j20590073217487_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## The body's arithmetic at one entry of a tile -/

/-- A [a, 1] column broadcast to [a, b] reads, at (p, c), the column's entry p. -/
theorem colBroadcast1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (r, e) of what the body stores, from the four tiles it loads: the factor's entry of row r times the sum of the
    two feature tiles' entries, plus the bias row's entry e, clamped below at zero. -/
theorem tile1_at (d : Vec Ideal S5000x1 .f32) (a h : Vec Ideal S5000x128 .f32) (b : Vec Ideal S1x128 .f32) (r : Fin 5000) (e : Fin 128) :
    k1_pay1 (F := Ideal) d a h b (ix2 r e) = max (d (ix2 r (0 : Fin 1)) * (a (ix2 r e) + h (ix2 r e)) + b (ix2 (0 : Fin 1) e)) 0 := by
  unfold k1_pay1
  simp only [shapeCast_self]
  rw [maximumf_apply, addf_apply, mulf_apply, addf_apply, broadcast_apply, broadcastTo_1b_ab_apply, colBroadcast1_apply]
  rw [show Scalar.ofBits (F := Ideal) .f32 0x00000000#32 = 0 from Ideal.ofBits_zero_f32]

/-! ## The whole array the call computes -/

/-- Entry i of the combined array, from the four arrays: row i₀ of the factor column, entry i of the two feature arrays,
    column i₁ of the bias row. -/
def combined1 (A H : S50000x128.Idx → Elt Ideal .f32) (D : S50000x1.Idx → Elt Ideal .f32) (B : S1x128.Idx → Elt Ideal .f32) :
    S50000x128.Idx → Elt Ideal .f32 :=
  fun i => max (D (ix2 (⟨(i 0).val, idx2_lt0 i⟩ : Fin 50000) (0 : Fin 1)) * (A i + H i) + B (ix2 (0 : Fin 1) (⟨(i 1).val, idx2_lt1 i⟩ : Fin 128))) 0

theorem combined1_ix2 (A H : S50000x128.Idx → Elt Ideal .f32) (D : S50000x1.Idx → Elt Ideal .f32) (B : S1x128.Idx → Elt Ideal .f32)
    (p : Fin 50000) (q : Fin 128) :
    combined1 A H D B (ix2 p q) = max (D (ix2 p (0 : Fin 1)) * (A (ix2 p q) + H (ix2 p q)) + B (ix2 (0 : Fin 1) q)) 0 := rfl

/-- Entry y of the stored tile is entry i of the combined array, once each loaded tile's entry is the corresponding
    array's entry. -/
theorem tile1_eq_combined (d : Vec Ideal S5000x1 .f32) (a h : Vec Ideal S5000x128 .f32) (b : Vec Ideal S1x128 .f32)
    (A H : S50000x128.Idx → Elt Ideal .f32) (D : S50000x1.Idx → Elt Ideal .f32) (B : S1x128.Idx → Elt Ideal .f32)
    (y : S5000x128.Idx) (i : S50000x128.Idx)
    (hd : d (ix2 (⟨(y 0).val, idx2_lt0 y⟩ : Fin 5000) (0 : Fin 1)) = D (ix2 (⟨(i 0).val, idx2_lt0 i⟩ : Fin 50000) (0 : Fin 1)))
    (ha : a y = A i) (hh : h y = H i)
    (hb : b (ix2 (0 : Fin 1) (⟨(y 1).val, idx2_lt1 y⟩ : Fin 128)) = B (ix2 (0 : Fin 1) (⟨(i 1).val, idx2_lt1 i⟩ : Fin 128))) :
    k1_pay1 (F := Ideal) d a h b y = combined1 A H D B i := by
  obtain ⟨r, e, rfl⟩ : ∃ (r : Fin 5000) (e : Fin 128), y = ix2 r e := ⟨y 0, y 1, eq_ix2 y⟩
  rw [tile1_at]
  unfold combined1
  rw [← hd, ← ha, ← hh, ← hb]

/-! ## Where each window's block sits in its array -/

theorem zeroOffsets1 : (![0, 0] : Fin 2 → Nat) = fun _ => 0 := funext fun a => by fin_cases a <;> rfl

/-- The printed index maps, decided over the ten grid points: the three row-tiled inputs and the output take row block t,
    column block 0; the bias row's block is block (0, 0) at every point. -/
theorem blockIndices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry x of the aggregate window's block at point t is entry (5000 t + x₀, x₁) of its array. -/
theorem aggBlock1_apply (c : Dev nD) (t : Fin cfg1.N) (x : S5000x128.Idx) (i : S50000x128.Idx)
    (h0 : (i 0).val = 5000 * t.val + (x 0).val) (h1 : (i 1).val = (x 1).val) :
    (iblk1 (F := Ideal) V c 0 t : Vec Ideal S5000x128 .f32) x = (V c main_v23 : S50000x128.Idx → Elt Ideal .f32) i := by
  obtain ⟨f00, f01, -, -, -, -, -, -, -, -⟩ := blockIndices1 t
  unfold iblk1
  rw [View.read_apply]
  show V c main_v23 _ = V c main_v23 _
  congr 1
  funext a
  apply Fin.ext
  match a with
  | ⟨0, _⟩ => show win1_0.index t (0 : Fin 2) * 5000 + 1 * (x 0).val = (i 0).val; rw [f00, h0]; omega
  | ⟨1, _⟩ => show win1_0.index t (1 : Fin 2) * 128 + 1 * (x 1).val = (i 1).val; rw [f01, h1]; omega

/-- Entry x of the feature window's block at point t is entry (5000 t + x₀, x₁) of its array. -/
theorem featBlock1_apply (c : Dev nD) (t : Fin cfg1.N) (x : S5000x128.Idx) (i : S50000x128.Idx)
    (h0 : (i 0).val = 5000 * t.val + (x 0).val) (h1 : (i 1).val = (x 1).val) :
    (iblk1 (F := Ideal) V c 1 t : Vec Ideal S5000x128 .f32) x = (V c main_v13 : S50000x128.Idx → Elt Ideal .f32) i := by
  obtain ⟨-, -, f10, f11, -, -, -, -, -, -⟩ := blockIndices1 t
  unfold iblk1
  rw [View.read_apply]
  show V c main_v13 _ = V c main_v13 _
  congr 1
  funext a
  apply Fin.ext
  match a with
  | ⟨0, _⟩ => show win1_1.index t (0 : Fin 2) * 5000 + 1 * (x 0).val = (i 0).val; rw [f10, h0]; omega
  | ⟨1, _⟩ => show win1_1.index t (1 : Fin 2) * 128 + 1 * (x 1).val = (i 1).val; rw [f11, h1]; omega

/-- Entry x of the factor window's block at point t is entry (5000 t + x₀, x₁) of the factor column. -/
theorem factorBlock1_apply (c : Dev nD) (t : Fin cfg1.N) (x : S5000x1.Idx) (i : S50000x1.Idx)
    (h0 : (i 0).val = 5000 * t.val + (x 0).val) (h1 : (i 1).val = (x 1).val) :
    (iblk1 (F := Ideal) V c 2 t : Vec Ideal S5000x1 .f32) x = (V c main_v24 : S50000x1.Idx → Elt Ideal .f32) i := by
  obtain ⟨-, -, -, -, f20, f21, -, -, -, -⟩ := blockIndices1 t
  unfold iblk1
  rw [View.read_apply]
  show V c main_v24 _ = V c main_v24 _
  congr 1
  funext a
  apply Fin.ext
  match a with
  | ⟨0, _⟩ => show win1_2.index t (0 : Fin 2) * 5000 + 1 * (x 0).val = (i 0).val; rw [f20, h0]; omega
  | ⟨1, _⟩ => show win1_2.index t (1 : Fin 2) * 1 + 1 * (x 1).val = (i 1).val; rw [f21, h1]; omega

/-- The bias window's block at every point is the whole bias row. -/
theorem biasBlock1_apply (c : Dev nD) (t : Fin cfg1.N) (x : S1x128.Idx) (i : S1x128.Idx)
    (h0 : (i 0).val = (x 0).val) (h1 : (i 1).val = (x 1).val) :
    (iblk1 (F := Ideal) V c 3 t : Vec Ideal S1x128 .f32) x = (V c main_v25 : S1x128.Idx → Elt Ideal .f32) i := by
  obtain ⟨-, -, -, -, -, -, f30, f31, -, -⟩ := blockIndices1 t
  unfold iblk1
  rw [View.read_apply]
  show V c main_v25 _ = V c main_v25 _
  congr 1
  funext a
  apply Fin.ext
  match a with
  | ⟨0, _⟩ => show win1_3.index t (0 : Fin 2) * 1 + 1 * (x 0).val = (i 0).val; rw [f30, h0]; omega
  | ⟨1, _⟩ => show win1_3.index t (1 : Fin 2) * 128 + 1 * (x 1).val = (i 1).val; rw [f31, h1]; omega

/-! ## What a point writes back, and the array the ten blocks make -/

/-- What point t writes back is block t of the combined array of the arrays the call finds. -/
theorem written1_eq (c : Dev nD) (t : Fin cfg1.N) :
    (dat1 (F := Ideal) V c).flushed 4 t
      = ((cfg1.win 4).blk t).view.read (Elt Ideal) (combined1 (V c main_v23) (V c main_v13) (V c main_v24) (V c main_v25)) := by
  show (cfg1.win 4).cut (grid1.coords t) ((dat1 V c).after 4 t) = _
  rw [after1_4]
  unfold out1_4
  rw [View.canon_unit_zero zeroOffsets1]
  simp only [View.ld_unit_zero (S := S5000x128) zeroOffsets1, View.ld_unit_zero (S := S5000x1) zeroOffsets1,
    View.ld_unit_zero (S := S1x128) zeroOffsets1]
  obtain ⟨-, -, -, -, -, -, -, -, f40, f41⟩ := blockIndices1 t
  funext j
  have e0 : ((((cfg1.win 4).blk t).view.emb j) 0).val = 5000 * t.val + (j 0).val := by
    show win1_4.index t (0 : Fin 2) * 5000 + 1 * (j 0).val = _; rw [f40]; omega
  have e1 : ((((cfg1.win 4).blk t).view.emb j) 1).val = (j 1).val := by
    show win1_4.index t (1 : Fin 2) * 128 + 1 * (j 1).val = _; rw [f41]; omega
  refine tile1_eq_combined (iblk1 V c 2 t) (iblk1 V c 0 t) (iblk1 V c 1 t) (iblk1 V c 3 t)
    (V c main_v23) (V c main_v13) (V c main_v24) (V c main_v25) j (((cfg1.win 4).blk t).view.emb j) ?_ ?_ ?_ ?_
  · exact factorBlock1_apply V c t _ _ e0 rfl
  · exact aggBlock1_apply V c t j _ e0 e1
  · exact featBlock1_apply V c t j _ e0 e1
  · exact biasBlock1_apply V c t _ _ rfl e1

/-- An index of the output array is in point t's block iff each coordinate is in the block's range on its axis. -/
theorem mem_block1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v26).slice (win1_4.rect t)).set ↔ _
  rw [View.set_slice_whole, Rect.mem_set_unit]
  exact Iff.rfl

/-- Every entry of the output array is in some point's block: row p is in the block of point p / 5000. -/
theorem blocks1_cover (i : S50000x128.Idx) :
    ∃ t : Fin cfg1.N, (cfg1.win 4).flush t = true ∧ i ∈ ((cfg1.win 4).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, by show (i 0).val / 5000 < 10; omega⟩, rfl⟩
  obtain ⟨-, -, -, -, -, -, -, -, f40, f41⟩ := blockIndices1 t
  refine ⟨t, flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    rw [f40, ht]; omega
  | ⟨1, _⟩ =>
    show win1_4.index t (1 : Fin 2) * 128 ≤ (i 1).val ∧ (i 1).val < win1_4.index t (1 : Fin 2) * 128 + 128
    rw [f41]; omega

/-- The output array after the call is the combined array of the arrays the call finds. -/
theorem array1_eq (c : Dev nD) :
    (dat1 (F := Ideal) V c).arrAt 4 cfg1.N = combined1 (V c main_v23) (V c main_v13) (V c main_v24) (V c main_v25) :=
  (dat1 (F := Ideal) V c).arrAt_eq_of_cover 4 (combined1 (V c main_v23) (V c main_v13) (V c main_v24) (V c main_v25))
    (fun t _ => written1_eq V c t) blocks1_cover

/-- Entry (p, q) of call 1's output array after the call, from the arrays the call finds. -/
theorem combine1_at (c : Dev nD) (p : Fin 50000) (q : Fin 128)
    (a h : FVec Ideal S50000x128 .f32) (d : FVec Ideal S50000x1 .f32) (b : FVec Ideal S1x128 .f32)
    (ha : a = V c main_v23) (hh : h = V c main_v13) (hd : d = V c main_v24) (hb : b = V c main_v25) :
    ((dat1 (F := Ideal) V c).arrAt 4 cfg1.N (ix2 p q) : EReal)
      = max (d (ix2 p (0 : Fin 1)) * (a (ix2 p q) + h (ix2 p q)) + b (ix2 (0 : Fin 1) q)) 0 := by
  subst ha hh hd hb
  exact (congrFun (array1_eq V c) (ix2 p q)).trans (combined1_ix2 _ _ _ _ p q)

end Cert.KernelIdeal.RegionValue

end
-- ==== Proof.FoldHiddenA.lean ====
/-
  The first graph's hidden layer, read off the fold through @main.

  A stretch of host operations computes the sources, the destinations and the per-node factor from the graph's edge
  array; a product-and-scale call leaves the scaled features (x · W) · factor, row by row; the next stretch gathers
  their rows at the wrapped sources and adds them up at the destinations; a combine call finishes the layer. Entry by
  entry the array after the combine call is the layer with the factor applied per node. Buffers no operation in
  between writes are carried from boundary to boundary unchanged.
-/
import proofs.«119174_j20590073217487_2_alg».proof.Proof.Gen.KernelIdeal.Frame
import proofs.«119174_j20590073217487_2_alg».proof.Proof.KernelParts
import proofs.«119174_j20590073217487_2_alg».proof.Proof.GcnLayer
import proofs.«119174_j20590073217487_2_alg».proof.Proof.ScaleCall0
import proofs.«119174_j20590073217487_2_alg».proof.Proof.CombineCall1
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen Cert.KernelIdeal.Parts Cert.KernelIdeal.RegionValue Cert.GcnLayer
open scoped BigOperators

variable (m : (ℓ : Loc nD τ sig) → Buf (Elt Ideal) ℓ) (ρ : Dev nD → PrngReg) (c : Dev nD)

/-- A stretch of host operations leaves a buffer none of them writes as it was. -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments as launched, up to where this layer reads them -/

theorem W0_arg1 : W0 (F := Ideal) m ρ c (Proc.devRef .tc main_arg1) = m ((c : Thread nD τ).loc main_arg1) := rfl
theorem W0_arg0 : W0 (F := Ideal) m ρ c (Proc.devRef .tc main_arg0) = m ((c : Thread nD τ).loc main_arg0) := rfl
theorem W1_arg0 : W1 (F := Ideal) m ρ c (Proc.devRef .tc main_arg0) = m ((c : Thread nD τ).loc main_arg0) :=
  Eq.trans (by host_keeps hostOps0) (W0_arg0 m ρ c)
theorem W0_arg4 : W0 (F := Ideal) m ρ c (Proc.devRef .tc main_arg4) = m ((c : Thread nD τ).loc main_arg4) := rfl
theorem W1_arg4 : W1 (F := Ideal) m ρ c (Proc.devRef .tc main_arg4) = m ((c : Thread nD τ).loc main_arg4) :=
  Eq.trans (by host_keeps hostOps0) (W0_arg4 m ρ c)
theorem W0_arg5 : W0 (F := Ideal) m ρ c (Proc.devRef .tc main_arg5) = m ((c : Thread nD τ).loc main_arg5) := rfl
theorem W1_arg5 : W1 (F := Ideal) m ρ c (Proc.devRef .tc main_arg5) = m ((c : Thread nD τ).loc main_arg5) :=
  Eq.trans (by host_keeps hostOps0) (W0_arg5 m ρ c)
theorem W2_arg5 : W2 (F := Ideal) m ρ c (Proc.devRef .tc main_arg5) = m ((c : Thread nD τ).loc main_arg5) :=
  Eq.trans (W2_of_ne m ρ c main_arg5 (by decide)) (W1_arg5 m ρ c)

/-! ## After the stretch that computes the graph's columns and factor -/

theorem W1_v1 : W1 (F := Ideal) m ρ c (Proc.devRef .tc main_v1) = srcOf (m ((c : Thread nD τ).loc main_arg1)) := by
  dsimp only [W1, hostOps0]; after_results; rw [W0_arg1 m ρ c]; rfl
theorem W1_v3 : W1 (F := Ideal) m ρ c (Proc.devRef .tc main_v3) = dstOf (m ((c : Thread nD τ).loc main_arg1)) := by
  dsimp only [W1, hostOps0]; after_results; rw [W0_arg1 m ρ c]; rfl
theorem W1_v11 : W1 (F := Ideal) m ρ c (Proc.devRef .tc main_v11) = factorOf (m ((c : Thread nD τ).loc main_arg1)) := by
  dsimp only [W1, hostOps0]; after_results; rw [W0_arg1 m ρ c]; rfl
theorem W1_v12 : W1 (F := Ideal) m ρ c (Proc.devRef .tc main_v12) = shapeCast S50000x1 (factorOf (m ((c : Thread nD τ).loc main_arg1))) Facts₀.shapeCasts_S50000_S50000x1 := by
  dsimp only [W1, hostOps0]; after_results; rw [W0_arg1 m ρ c]; rfl

/-! ## After the product-and-scale call -/

theorem W2_v1 : W2 (F := Ideal) m ρ c (Proc.devRef .tc main_v1) = srcOf (m ((c : Thread nD τ).loc main_arg1)) :=
  Eq.trans (W2_of_ne m ρ c main_v1 (by decide)) (W1_v1 m ρ c)
theorem W2_v3 : W2 (F := Ideal) m ρ c (Proc.devRef .tc main_v3) = dstOf (m ((c : Thread nD τ).loc main_arg1)) :=
  Eq.trans (W2_of_ne m ρ c main_v3 (by decide)) (W1_v3 m ρ c)
theorem W2_v11 : W2 (F := Ideal) m ρ c (Proc.devRef .tc main_v11) = factorOf (m ((c : Thread nD τ).loc main_arg1)) :=
  Eq.trans (W2_of_ne m ρ c main_v11 (by decide)) (W1_v11 m ρ c)

/-- The call's output: the scaled features. -/
theorem W2_v13 : (W2 (F := Ideal) m ρ c (Proc.devRef .tc main_v13) : FVec Ideal S50000x128 .f32)
    = fun i => feat (m ((c : Thread nD τ).loc main_arg0)) (m ((c : Thread nD τ).loc main_arg4)) i * factorOf (m ((c : Thread nD τ).loc main_arg1)) (ix1 (i 0)) := by
  funext i
  obtain ⟨p, q, rfl⟩ : ∃ (p : Fin 50000) (q : Fin 128), i = ix2 p q := ⟨i 0, i 1, eq_ix2 i⟩
  refine (congrFun (W2_arr m ρ c 3) (ix2 p q)).trans ?_
  refine (scale0_at (V1 m ρ) c p q _ _ _ (W1_arg0 m ρ c).symm (W1_arg4 m ρ c).symm (W1_v12 m ρ c).symm).trans ?_
  rw [shapeCast_a_a1_apply]
  rfl

/-! ## After the stretch that gathers and adds up -/

set_option maxHeartbeats 2000000 in
theorem W3_v23 : W3 (F := Ideal) m ρ c (Proc.devRef .tc main_v23)
    = Host.scatterAdd (F := Ideal) scatter_S50000x128_S600000x1_S600000x128_1_0_0_1 zeros128 (colOf (dstOf (m ((c : Thread nD τ).loc main_arg1))))
        (Host.gather gather_S50000x128_S600000x1_S600000x128_1_0_n_n_0_1_1128 (W2 (F := Ideal) m ρ c (Proc.devRef .tc main_v13)) (wrapColOf (srcOf (m ((c : Thread nD τ).loc main_arg1))))) := by
  dsimp only [W3, hostOps1]; after_results; rw [W2_v1 m ρ c, W2_v3 m ρ c]; rfl
theorem W3_v24 : W3 (F := Ideal) m ρ c (Proc.devRef .tc main_v24) = shapeCast S50000x1 (factorOf (m ((c : Thread nD τ).loc main_arg1))) Facts₀.shapeCasts_S50000_S50000x1 := by
  dsimp only [W3, hostOps1]; after_results; rw [W2_v11 m ρ c]; rfl
theorem W3_v25 : W3 (F := Ideal) m ρ c (Proc.devRef .tc main_v25)
    = shapeCast S1x128 (m ((c : Thread nD τ).loc main_arg5)) Facts₀.shapeCasts_S128_S1x128 := by
  dsimp only [W3, hostOps1]; after_results; rw [W2_arg5 m ρ c]; rfl
theorem W3_v13 : W3 (F := Ideal) m ρ c (Proc.devRef .tc main_v13) = W2 (F := Ideal) m ρ c (Proc.devRef .tc main_v13) := by
  host_keeps hostOps1

/-! ## After the combine call -/

/-- THE HIDDEN LAYER of the first graph, as the kernel's program leaves it: the layer with the factor applied per node. -/
theorem hidden_a : (W4 (F := Ideal) m ρ c (Proc.devRef .tc main_v26) : FVec Ideal S50000x128 .f32)
    = scaledLayer scatter_S50000x128_S600000x1_S600000x128_1_0_0_1 gather_S50000x128_S600000x1_S600000x128_1_0_n_n_0_1_1128 true
        (feat (m ((c : Thread nD τ).loc main_arg0)) (m ((c : Thread nD τ).loc main_arg4))) (factorOf (m ((c : Thread nD τ).loc main_arg1))) (m ((c : Thread nD τ).loc main_arg5)) zeros128 (wrapColOf (srcOf (m ((c : Thread nD τ).loc main_arg1)))) (colOf (dstOf (m ((c : Thread nD τ).loc main_arg1)))) := by
  funext i
  obtain ⟨p, q, rfl⟩ : ∃ (p : Fin 50000) (q : Fin 128), i = ix2 p q := ⟨i 0, i 1, eq_ix2 i⟩
  refine (congrFun (W4_arr m ρ c 4) (ix2 p q)).trans ?_
  refine (combine1_at (V3 m ρ) c p q _ _ _ _ (W3_v23 m ρ c).symm ((W3_v13 m ρ c).trans (W2_v13 m ρ c)).symm
    (W3_v24 m ρ c).symm (W3_v25 m ρ c).symm).trans ?_
  rw [shapeCast_a_a1_apply, shapeCast_a_1a_apply, W2_v13 m ρ c]
  rfl

end Cert.KernelIdeal.Fold

end
-- ==== Proof.ScaleCall2.lean ====
/-
  The array a matrix-product-and-scale call leaves (call 2): the grid's ten points each write rows 5000·t … 5000·t+4999 of the
  [50000, 64] output, and those blocks tile it; row p of the output is row p of the feature matrix times the whole weight
  matrix, every entry then multiplied by the per-node factor of row p. So entry (p, q) of the array after the call is
  (Σ_k x[p, k] · W[k, q]) · d[p, 0]  of the arrays the call finds (changes of float format are the identity on the
  extended reals; the accumulator starts at zero).
-/
import proofs.«119174_j20590073217487_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«119174_j20590073217487_2_alg».proof.Proof.LibPlainMatmul
set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The block offsets of a whole-block access are all zero. -/
theorem zero_offsets2 : (![0, 0] : Fin 2 → Nat) = fun _ => 0 := funext fun a => by fin_cases a <;> rfl

/-- A [5000, 1] column laid along the columns of a [5000, 64] matrix reads, at (r, e), the column's entry of row r. -/
theorem column_broadcast2 (d : FVec Ideal S5000x1 .f32) (h : S5000x1.Broadcasts S5000x64) (r : Fin 5000) (e : Fin 64) :
    broadcastTo S5000x64 d h (ix2 r e) = d (ix2 r (0 : Fin 1)) := by
  refine broadcastTo_apply d h (ix2 r e) (ix2 r (0 : Fin 1)) fun ax => ?_
  match ax with
  | ⟨0, _⟩ => rfl
  | ⟨1, _⟩ => rfl

/-- The body's arithmetic at an entry: the row of the left block times the column of the right block (the changes of
    float format are the identity, the accumulator is zero), times the row's factor. -/
theorem payload2_at (x : FVec Ideal S5000x128 .f32) (w : FVec Ideal S128x64 .f32) (d : FVec Ideal S5000x1 .f32) (r : Fin 5000) (e : Fin 64) :
    k2_pay1 (F := Ideal) x w d (ix2 r e) = (∑ k : Fin 128, x (ix2 r k) * w (ix2 k e)) * d (ix2 r (0 : Fin 1)) := by
  unfold k2_pay1
  rw [mulf_apply]
  simp only [shapeCast_self, matmul]
  rw [column_broadcast2]
  rw [matmul_plain_zero_apply dot_S5000x128_S128x64_S5000x64_1_0_0_1_n_n rfl]
  rfl

/-- The whole output as one function of the three arrays: entry (p, q) is (Σ_k X[p, k] · W[k, q]) · D[p, 0]. -/
def scaledProduct2 (X : FVec Ideal S50000x128 .f32) (W : FVec Ideal S128x64 .f32) (D : FVec Ideal S50000x1 .f32) : FVec Ideal S50000x64 .f32 :=
  fun i => (∑ k : Fin 128, X (ix2 (i 0) k) * W (ix2 k (i 1))) * D (ix2 (i 0) (0 : Fin 1))

/-- Over variables: when the left block holds rows 5000·b … of X, the right block all of W and the factor block rows
    5000·b … of D, the body's arithmetic at (r, e) is the whole-array function at (5000·b + r, e). -/
theorem block_value2 (X : FVec Ideal S50000x128 .f32) (W : FVec Ideal S128x64 .f32) (D : FVec Ideal S50000x1 .f32)
    (x : FVec Ideal S5000x128 .f32) (w : FVec Ideal S128x64 .f32) (d : FVec Ideal S5000x1 .f32) (b : Nat) (r : Fin 5000) (e : Fin 64)
    (h : b * 5000 + r.val < 50000)
    (hx : ∀ k : Fin 128, x (ix2 r k) = X (ix2 ⟨b * 5000 + r.val, h⟩ k))
    (hw : ∀ k : Fin 128, w (ix2 k e) = W (ix2 k e))
    (hd : d (ix2 r (0 : Fin 1)) = D (ix2 ⟨b * 5000 + r.val, h⟩ (0 : Fin 1))) :
    k2_pay1 (F := Ideal) x w d (ix2 r e) = scaledProduct2 X W D (ix2 ⟨b * 5000 + r.val, h⟩ e) := by
  rw [payload2_at, hd]
  show _ = (∑ k : Fin 128, X (ix2 ⟨b * 5000 + r.val, h⟩ k) * W (ix2 k e)) * D (ix2 ⟨b * 5000 + r.val, h⟩ (0 : Fin 1))
  congr 1
  exact Finset.sum_congr rfl fun k _ => by rw [hx k, hw k]

/-- The printed index maps, decided over the grid: at point t the row-tiled windows sit at block row t, block column 0,
    and the weight window at block (0, 0). -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The left window's block at point t is rows 5000·t … of its array. -/
theorem left_block2 (c : Dev nD) (t : Fin cfg2.N) (r : Fin 5000) (k : Fin 128) (h : t.val * 5000 + r.val < 50000) :
    (iblk2 (F := Ideal) V c 0 t : FVec Ideal S5000x128 .f32) (ix2 r k)
      = (V c main_v26 : FVec Ideal S50000x128 .f32) (ix2 ⟨t.val * 5000 + r.val, h⟩ k) := by
  obtain ⟨e0, e1, -⟩ := index_facts2 t
  unfold iblk2
  rw [View.read_apply]
  show V c main_v26 _ = V c main_v26 _
  congr 1
  funext a
  apply Fin.ext
  match a with
  | ⟨0, _⟩ => show win2_0.index t (0 : Fin 2) * 5000 + 1 * r.val = t.val * 5000 + r.val; rw [e0]; omega
  | ⟨1, _⟩ => show win2_0.index t (1 : Fin 2) * 128 + 1 * k.val = k.val; rw [e1]; omega

/-- The weight window's block is the whole weight matrix at every point. -/
theorem right_block2 (c : Dev nD) (t : Fin cfg2.N) (k : Fin 128) (e : Fin 64) :
    (iblk2 (F := Ideal) V c 1 t : FVec Ideal S128x64 .f32) (ix2 k e) = (V c main_arg6 : FVec Ideal S128x64 .f32) (ix2 k e) := by
  obtain ⟨-, -, e2, e3, -⟩ := index_facts2 t
  unfold iblk2
  rw [View.read_apply]
  show V c main_arg6 _ = V c main_arg6 _
  congr 1
  funext a
  apply Fin.ext
  match a with
  | ⟨0, _⟩ => show win2_1.index t (0 : Fin 2) * 128 + 1 * k.val = k.val; rw [e2]; omega
  | ⟨1, _⟩ => show win2_1.index t (1 : Fin 2) * 64 + 1 * e.val = e.val; rw [e3]; omega

/-- The factor window's block at point t is rows 5000·t … of the factor column. -/
theorem factor_block2 (c : Dev nD) (t : Fin cfg2.N) (r : Fin 5000) (h : t.val * 5000 + r.val < 50000) :
    (iblk2 (F := Ideal) V c 2 t : FVec Ideal S5000x1 .f32) (ix2 r (0 : Fin 1))
      = (V c main_v27 : FVec Ideal S50000x1 .f32) (ix2 ⟨t.val * 5000 + r.val, h⟩ (0 : Fin 1)) := by
  obtain ⟨-, -, -, -, e4, e5, -⟩ := index_facts2 t
  unfold iblk2
  rw [View.read_apply]
  show V c main_v27 _ = V c main_v27 _
  congr 1
  funext a
  apply Fin.ext
  match a with
  | ⟨0, _⟩ => show win2_2.index t (0 : Fin 2) * 5000 + 1 * r.val = t.val * 5000 + r.val; rw [e4]; omega
  | ⟨1, _⟩ => show win2_2.index t (1 : Fin 2) * 1 + 1 * (0 : Fin 1).val = (0 : Fin 1).val; rw [e5]; rfl

/-- What point t writes back is block t of the whole-array function of the arrays the call finds. -/
theorem written_back2 (c : Dev nD) (t : Fin cfg2.N) :
    (dat2 (F := Ideal) V c).flushed 3 t
      = ((cfg2.win 3).blk t).view.read (Elt Ideal) (scaledProduct2 (V c main_v26) (V c main_arg6) (V c main_v27)) := by
  show (cfg2.win 3).cut (grid2.coords t) ((dat2 V c).after 3 t) = _
  rw [after2_3]
  unfold out2_3
  rw [View.canon_unit_zero zero_offsets2]
  simp only [View.ld_unit_zero (S := S5000x128) zero_offsets2, View.ld_unit_zero (S := S128x64) zero_offsets2,
    View.ld_unit_zero (S := S5000x1) zero_offsets2]
  funext j
  have hN : t.val < 10 := by have h1 := t.isLt; have h2 : cfg2.N = 10 := N_2; omega
  have hr : (j 0).val < 5000 := (j 0).isLt
  have he : (j 1).val < 64 := (j 1).isLt
  obtain ⟨-, -, -, -, -, -, e6, e7⟩ := index_facts2 t
  have hj : (cfg2.win 3).xinj (grid2.coords t) j = ix2 (⟨(j 0).val, hr⟩ : Fin 5000) (⟨(j 1).val, he⟩ : Fin 64) :=
    funext fun a => by
      match a with
      | ⟨0, _⟩ => rfl
      | ⟨1, _⟩ => rfl
  show k2_pay1 (iblk2 V c 0 t) (iblk2 V c 1 t) (iblk2 V c 2 t) ((cfg2.win 3).xinj (grid2.coords t) j) = _
  rw [hj]
  refine (block_value2 (V c main_v26) (V c main_arg6) (V c main_v27) (iblk2 V c 0 t) (iblk2 V c 1 t) (iblk2 V c 2 t)
    t.val ⟨(j 0).val, hr⟩ ⟨(j 1).val, he⟩ (by show t.val * 5000 + (j 0).val < 50000; omega)
    (fun k => left_block2 V c t _ k _) (fun k => right_block2 V c t k _) (factor_block2 V c t _ _)).trans ?_
  rw [View.read_apply]
  show scaledProduct2 _ _ _ _ = scaledProduct2 _ _ _ _
  congr 1
  funext a
  apply Fin.ext
  match a with
  | ⟨0, _⟩ => show t.val * 5000 + (j 0).val = win2_3.index t (0 : Fin 2) * 5000 + 1 * (j 0).val; rw [e6]; omega
  | ⟨1, _⟩ => show (j 1).val = win2_3.index t (1 : Fin 2) * 64 + 1 * (j 1).val; rw [e7]; omega

/-- An index of the output array is in point t's block iff each coordinate is in the block's range on its axis. -/
theorem mem_block2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v28).slice (win2_3.rect t)).set ↔ _
  rw [View.set_slice_whole, Rect.mem_set_unit]
  exact Iff.rfl

/-- The blocks tile the output array: row p lies in the block of point p / 5000. -/
theorem blocks_cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e6, e7⟩ := index_facts2 t
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 64 ≤ (i 1).val ∧ (i 1).val < win2_3.index t (1 : Fin 2) * 64 + 64; rw [e7]; omega

/-- Call 2's output array after the call is the whole-array function of the arrays the call finds: every point writes
    back its block of that function, and the blocks cover the array. -/
theorem scale2_array (c : Dev nD) :
    (dat2 (F := Ideal) V c).arrAt 3 cfg2.N = scaledProduct2 (V c main_v26) (V c main_arg6) (V c main_v27) :=
  (dat2 (F := Ideal) V c).arrAt_eq_of_cover 3 (scaledProduct2 (V c main_v26) (V c main_arg6) (V c main_v27))
    (fun t _ => written_back2 V c t) (fun i => blocks_cover2 i)

/-- Entry (p, q) of call 2's output array after the call, from the arrays the call finds. -/
theorem scale2_at (c : Dev nD) (p : Fin 50000) (q : Fin 64)
    (x : FVec Ideal S50000x128 .f32) (W : FVec Ideal S128x64 .f32) (d : FVec Ideal S50000x1 .f32)
    (hx : x = V c main_v26) (hW : W = V c main_arg6) (hd : d = V c main_v27) :
    ((dat2 (F := Ideal) V c).arrAt 3 cfg2.N (ix2 p q) : EReal)
      = (∑ k : Fin 128, x (ix2 p k) * W (ix2 k q)) * d (ix2 p (0 : Fin 1)) := by
  subst hx hW hd
  exact congrFun (scale2_array V c) (ix2 p q)

end Cert.KernelIdeal.RegionValue

end
-- ==== Proof.CombineCall3.lean ====
/-
  The array a combine call leaves (call 3): the grid's ten points each write rows 5000·t … 5000·t+4999 of the [50000, 64]
  output, and those blocks tile it; the body is pointwise in the row and column, reading the per-node factor from a
  [50000, 1] column and the bias from a [1, 64] row. So entry (p, q) of the array after the call is
  d[p, 0] · (a[p, q] + h[p, q]) + b[0, q]  of the arrays the call finds.
-/
import proofs.«119174_j20590073217487_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## The body's arithmetic at one entry of a tile -/

/-- A [a, 1] column broadcast to [a, b] reads, at (p, c), the column's entry p. -/
theorem colBroadcast3_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (r, e) of what the body stores, from the four tiles it loads: the factor's entry of row r times the sum of the
    two feature tiles' entries, plus the bias row's entry e. -/
theorem tile3_at (d : Vec Ideal S5000x1 .f32) (a h : Vec Ideal S5000x64 .f32) (b : Vec Ideal S1x64 .f32) (r : Fin 5000) (e : Fin 64) :
    k3_pay1 (F := Ideal) d a h b (ix2 r e) = d (ix2 r (0 : Fin 1)) * (a (ix2 r e) + h (ix2 r e)) + b (ix2 (0 : Fin 1) e) := by
  unfold k3_pay1
  simp only [shapeCast_self]
  rw [addf_apply, mulf_apply, addf_apply, broadcastTo_1b_ab_apply, colBroadcast3_apply]

/-! ## The whole array the call computes -/

/-- Entry i of the combined array, from the four arrays: row i₀ of the factor column, entry i of the two feature arrays,
    column i₁ of the bias row. -/
def combined3 (A H : S50000x64.Idx → Elt Ideal .f32) (D : S50000x1.Idx → Elt Ideal .f32) (B : S1x64.Idx → Elt Ideal .f32) :
    S50000x64.Idx → Elt Ideal .f32 :=
  fun i => D (ix2 (⟨(i 0).val, idx2_lt0 i⟩ : Fin 50000) (0 : Fin 1)) * (A i + H i) + B (ix2 (0 : Fin 1) (⟨(i 1).val, idx2_lt1 i⟩ : Fin 64))

theorem combined3_ix2 (A H : S50000x64.Idx → Elt Ideal .f32) (D : S50000x1.Idx → Elt Ideal .f32) (B : S1x64.Idx → Elt Ideal .f32)
    (p : Fin 50000) (q : Fin 64) :
    combined3 A H D B (ix2 p q) = D (ix2 p (0 : Fin 1)) * (A (ix2 p q) + H (ix2 p q)) + B (ix2 (0 : Fin 1) q) := rfl

/-- Entry y of the stored tile is entry i of the combined array, once each loaded tile's entry is the corresponding
    array's entry. -/
theorem tile3_eq_combined (d : Vec Ideal S5000x1 .f32) (a h : Vec Ideal S5000x64 .f32) (b : Vec Ideal S1x64 .f32)
    (A H : S50000x64.Idx → Elt Ideal .f32) (D : S50000x1.Idx → Elt Ideal .f32) (B : S1x64.Idx → Elt Ideal .f32)
    (y : S5000x64.Idx) (i : S50000x64.Idx)
    (hd : d (ix2 (⟨(y 0).val, idx2_lt0 y⟩ : Fin 5000) (0 : Fin 1)) = D (ix2 (⟨(i 0).val, idx2_lt0 i⟩ : Fin 50000) (0 : Fin 1)))
    (ha : a y = A i) (hh : h y = H i)
    (hb : b (ix2 (0 : Fin 1) (⟨(y 1).val, idx2_lt1 y⟩ : Fin 64)) = B (ix2 (0 : Fin 1) (⟨(i 1).val, idx2_lt1 i⟩ : Fin 64))) :
    k3_pay1 (F := Ideal) d a h b y = combined3 A H D B i := by
  obtain ⟨r, e, rfl⟩ : ∃ (r : Fin 5000) (e : Fin 64), y = ix2 r e := ⟨y 0, y 1, eq_ix2 y⟩
  rw [tile3_at]
  unfold combined3
  rw [← hd, ← ha, ← hh, ← hb]

/-! ## Where each window's block sits in its array -/

theorem zeroOffsets3 : (![0, 0] : Fin 2 → Nat) = fun _ => 0 := funext fun a => by fin_cases a <;> rfl

/-- The printed index maps, decided over the ten grid points: the three row-tiled inputs and the output take row block t,
    column block 0; the bias row's block is block (0, 0) at every point. -/
theorem blockIndices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry x of the aggregate window's block at point t is entry (5000 t + x₀, x₁) of its array. -/
theorem aggBlock3_apply (c : Dev nD) (t : Fin cfg3.N) (x : S5000x64.Idx) (i : S50000x64.Idx)
    (h0 : (i 0).val = 5000 * t.val + (x 0).val) (h1 : (i 1).val = (x 1).val) :
    (iblk3 (F := Ideal) V c 0 t : Vec Ideal S5000x64 .f32) x = (V c main_v38 : S50000x64.Idx → Elt Ideal .f32) i := by
  obtain ⟨f00, f01, -, -, -, -, -, -, -, -⟩ := blockIndices3 t
  unfold iblk3
  rw [View.read_apply]
  show V c main_v38 _ = V c main_v38 _
  congr 1
  funext a
  apply Fin.ext
  match a with
  | ⟨0, _⟩ => show win3_0.index t (0 : Fin 2) * 5000 + 1 * (x 0).val = (i 0).val; rw [f00, h0]; omega
  | ⟨1, _⟩ => show win3_0.index t (1 : Fin 2) * 64 + 1 * (x 1).val = (i 1).val; rw [f01, h1]; omega

/-- Entry x of the feature window's block at point t is entry (5000 t + x₀, x₁) of its array. -/
theorem featBlock3_apply (c : Dev nD) (t : Fin cfg3.N) (x : S5000x64.Idx) (i : S50000x64.Idx)
    (h0 : (i 0).val = 5000 * t.val + (x 0).val) (h1 : (i 1).val = (x 1).val) :
    (iblk3 (F := Ideal) V c 1 t : Vec Ideal S5000x64 .f32) x = (V c main_v28 : S50000x64.Idx → Elt Ideal .f32) i := by
  obtain ⟨-, -, f10, f11, -, -, -, -, -, -⟩ := blockIndices3 t
  unfold iblk3
  rw [View.read_apply]
  show V c main_v28 _ = V c main_v28 _
  congr 1
  funext a
  apply Fin.ext
  match a with
  | ⟨0, _⟩ => show win3_1.index t (0 : Fin 2) * 5000 + 1 * (x 0).val = (i 0).val; rw [f10, h0]; omega
  | ⟨1, _⟩ => show win3_1.index t (1 : Fin 2) * 64 + 1 * (x 1).val = (i 1).val; rw [f11, h1]; omega

/-- Entry x of the factor window's block at point t is entry (5000 t + x₀, x₁) of the factor column. -/
theorem factorBlock3_apply (c : Dev nD) (t : Fin cfg3.N) (x : S5000x1.Idx) (i : S50000x1.Idx)
    (h0 : (i 0).val = 5000 * t.val + (x 0).val) (h1 : (i 1).val = (x 1).val) :
    (iblk3 (F := Ideal) V c 2 t : Vec Ideal S5000x1 .f32) x = (V c main_v39 : S50000x1.Idx → Elt Ideal .f32) i := by
  obtain ⟨-, -, -, -, f20, f21, -, -, -, -⟩ := blockIndices3 t
  unfold iblk3
  rw [View.read_apply]
  show V c main_v39 _ = V c main_v39 _
  congr 1
  funext a
  apply Fin.ext
  match a with
  | ⟨0, _⟩ => show win3_2.index t (0 : Fin 2) * 5000 + 1 * (x 0).val = (i 0).val; rw [f20, h0]; omega
  | ⟨1, _⟩ => show win3_2.index t (1 : Fin 2) * 1 + 1 * (x 1).val = (i 1).val; rw [f21, h1]; omega

/-- The bias window's block at every point is the whole bias row. -/
theorem biasBlock3_apply (c : Dev nD) (t : Fin cfg3.N) (x : S1x64.Idx) (i : S1x64.Idx)
    (h0 : (i 0).val = (x 0).val) (h1 : (i 1).val = (x 1).val) :
    (iblk3 (F := Ideal) V c 3 t : Vec Ideal S1x64 .f32) x = (V c main_v40 : S1x64.Idx → Elt Ideal .f32) i := by
  obtain ⟨-, -, -, -, -, -, f30, f31, -, -⟩ := blockIndices3 t
  unfold iblk3
  rw [View.read_apply]
  show V c main_v40 _ = V c main_v40 _
  congr 1
  funext a
  apply Fin.ext
  match a with
  | ⟨0, _⟩ => show win3_3.index t (0 : Fin 2) * 1 + 1 * (x 0).val = (i 0).val; rw [f30, h0]; omega
  | ⟨1, _⟩ => show win3_3.index t (1 : Fin 2) * 64 + 1 * (x 1).val = (i 1).val; rw [f31, h1]; omega

/-! ## What a point writes back, and the array the ten blocks make -/

/-- What point t writes back is block t of the combined array of the arrays the call finds. -/
theorem written3_eq (c : Dev nD) (t : Fin cfg3.N) :
    (dat3 (F := Ideal) V c).flushed 4 t
      = ((cfg3.win 4).blk t).view.read (Elt Ideal) (combined3 (V c main_v38) (V c main_v28) (V c main_v39) (V c main_v40)) := by
  show (cfg3.win 4).cut (grid3.coords t) ((dat3 V c).after 4 t) = _
  rw [after3_4]
  unfold out3_4
  rw [View.canon_unit_zero zeroOffsets3]
  simp only [View.ld_unit_zero (S := S5000x64) zeroOffsets3, View.ld_unit_zero (S := S5000x1) zeroOffsets3,
    View.ld_unit_zero (S := S1x64) zeroOffsets3]
  obtain ⟨-, -, -, -, -, -, -, -, f40, f41⟩ := blockIndices3 t
  funext j
  have e0 : ((((cfg3.win 4).blk t).view.emb j) 0).val = 5000 * t.val + (j 0).val := by
    show win3_4.index t (0 : Fin 2) * 5000 + 1 * (j 0).val = _; rw [f40]; omega
  have e1 : ((((cfg3.win 4).blk t).view.emb j) 1).val = (j 1).val := by
    show win3_4.index t (1 : Fin 2) * 64 + 1 * (j 1).val = _; rw [f41]; omega
  refine tile3_eq_combined (iblk3 V c 2 t) (iblk3 V c 0 t) (iblk3 V c 1 t) (iblk3 V c 3 t)
    (V c main_v38) (V c main_v28) (V c main_v39) (V c main_v40) j (((cfg3.win 4).blk t).view.emb j) ?_ ?_ ?_ ?_
  · exact factorBlock3_apply V c t _ _ e0 rfl
  · exact aggBlock3_apply V c t j _ e0 e1
  · exact featBlock3_apply V c t j _ e0 e1
  · exact biasBlock3_apply V c t _ _ rfl e1

/-- An index of the output array is in point t's block iff each coordinate is in the block's range on its axis. -/
theorem mem_block3 (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v41).slice (win3_4.rect t)).set ↔ _
  rw [View.set_slice_whole, Rect.mem_set_unit]
  exact Iff.rfl

/-- Every entry of the output array is in some point's block: row p is in the block of point p / 5000. -/
theorem blocks3_cover (i : S50000x64.Idx) :
    ∃ t : Fin cfg3.N, (cfg3.win 4).flush t = true ∧ i ∈ ((cfg3.win 4).blk t).view.set := by
  have hi0 : (i 0).val < 50000 := idx2_lt0 i
  have hi1 : (i 1).val < 64 := idx2_lt1 i
  obtain ⟨t, ht⟩ : ∃ t : Fin cfg3.N, t.val = (i 0).val / 5000 :=
    ⟨⟨(i 0).val / 5000, by show (i 0).val / 5000 < 10; omega⟩, rfl⟩
  obtain ⟨-, -, -, -, -, -, -, -, f40, f41⟩ := blockIndices3 t
  refine ⟨t, flush3_4 t, ?_⟩
  rw [mem_block3]
  intro a
  match a with
  | ⟨0, _⟩ =>
    show win3_4.index t (0 : Fin 2) * 5000 ≤ (i 0).val ∧ (i 0).val < win3_4.index t (0 : Fin 2) * 5000 + 5000
    rw [f40, ht]; omega
  | ⟨1, _⟩ =>
    show win3_4.index t (1 : Fin 2) * 64 ≤ (i 1).val ∧ (i 1).val < win3_4.index t (1 : Fin 2) * 64 + 64
    rw [f41]; omega

/-- The output array after the call is the combined array of the arrays the call finds. -/
theorem array3_eq (c : Dev nD) :
    (dat3 (F := Ideal) V c).arrAt 4 cfg3.N = combined3 (V c main_v38) (V c main_v28) (V c main_v39) (V c main_v40) :=
  (dat3 (F := Ideal) V c).arrAt_eq_of_cover 4 (combined3 (V c main_v38) (V c main_v28) (V c main_v39) (V c main_v40))
    (fun t _ => written3_eq V c t) blocks3_cover

/-- Entry (p, q) of call 3's output array after the call, from the arrays the call finds. -/
theorem combine3_at (c : Dev nD) (p : Fin 50000) (q : Fin 64)
    (a h : FVec Ideal S50000x64 .f32) (d : FVec Ideal S50000x1 .f32) (b : FVec Ideal S1x64 .f32)
    (ha : a = V c main_v38) (hh : h = V c main_v28) (hd : d = V c main_v39) (hb : b = V c main_v40) :
    ((dat3 (F := Ideal) V c).arrAt 4 cfg3.N (ix2 p q) : EReal)
      = d (ix2 p (0 : Fin 1)) * (a (ix2 p q) + h (ix2 p q)) + b (ix2 (0 : Fin 1) q) := by
  subst ha hh hd hb
  exact (congrFun (array3_eq V c) (ix2 p q)).trans (combined3_ix2 _ _ _ _ p q)

end Cert.KernelIdeal.RegionValue

end
-- ==== Proof.FoldOutA.lean ====
/-
  The first graph's output layer, read off the fold through @main, and the graph's result.

  The hidden layer's array enters a second product-and-scale call with the second weight matrix; the next stretch
  gathers and adds up; the second combine call (no positive part) finishes the layer. The result buffer is not written
  afterwards, so the last boundary holds it: the output layer over the hidden layer, both with the factor applied per
  node.
-/
import proofs.«119174_j20590073217487_2_alg».proof.Proof.Gen.KernelIdeal.Frame
import proofs.«119174_j20590073217487_2_alg».proof.Proof.KernelParts
import proofs.«119174_j20590073217487_2_alg».proof.Proof.GcnLayer
import proofs.«119174_j20590073217487_2_alg».proof.Proof.FoldHiddenA
import proofs.«119174_j20590073217487_2_alg».proof.Proof.ScaleCall2
import proofs.«119174_j20590073217487_2_alg».proof.Proof.CombineCall3
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen Cert.KernelIdeal.Parts Cert.KernelIdeal.RegionValue Cert.GcnLayer
open scoped BigOperators

variable (m : (ℓ : Loc nD τ sig) → Buf (Elt Ideal) ℓ) (ρ : Dev nD → PrngReg) (c : Dev nD)

/-- A stretch of host operations leaves a buffer none of them writes as it was. -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments as launched, up to where this layer reads them -/

theorem W0_arg6 : W0 (F := Ideal) m ρ c (Proc.devRef .tc main_arg6) = m ((c : Thread nD τ).loc main_arg6) := rfl
theorem W1_arg6 : W1 (F := Ideal) m ρ c (Proc.devRef .tc main_arg6) = m ((c : Thread nD τ).loc main_arg6) :=
  Eq.trans (by host_keeps hostOps0) (W0_arg6 m ρ c)
theorem W2_arg6 : W2 (F := Ideal) m ρ c (Proc.devRef .tc main_arg6) = m ((c : Thread nD τ).loc main_arg6) :=
  Eq.trans (W2_of_ne m ρ c main_arg6 (by decide)) (W1_arg6 m ρ c)
theorem W3_arg6 : W3 (F := Ideal) m ρ c (Proc.devRef .tc main_arg6) = m ((c : Thread nD τ).loc main_arg6) :=
  Eq.trans (by host_keeps hostOps1) (W2_arg6 m ρ c)
theorem W4_arg6 : W4 (F := Ideal) m ρ c (Proc.devRef .tc main_arg6) = m ((c : Thread nD τ).loc main_arg6) :=
  Eq.trans (W4_of_ne m ρ c main_arg6 (by decide)) (W3_arg6 m ρ c)
theorem W5_arg6 : W5 (F := Ideal) m ρ c (Proc.devRef .tc main_arg6) = m ((c : Thread nD τ).loc main_arg6) :=
  Eq.trans (by host_keeps hostOps2) (W4_arg6 m ρ c)
theorem W0_arg7 : W0 (F := Ideal) m ρ c (Proc.devRef .tc main_arg7) = m ((c : Thread nD τ).loc main_arg7) := rfl
theorem W1_arg7 : W1 (F := Ideal) m ρ c (Proc.devRef .tc main_arg7) = m ((c : Thread nD τ).loc main_arg7) :=
  Eq.trans (by host_keeps hostOps0) (W0_arg7 m ρ c)
theorem W2_arg7 : W2 (F := Ideal) m ρ c (Proc.devRef .tc main_arg7) = m ((c : Thread nD τ).loc main_arg7) :=
  Eq.trans (W2_of_ne m ρ c main_arg7 (by decide)) (W1_arg7 m ρ c)
theorem W3_arg7 : W3 (F := Ideal) m ρ c (Proc.devRef .tc main_arg7) = m ((c : Thread nD τ).loc main_arg7) :=
  Eq.trans (by host_keeps hostOps1) (W2_arg7 m ρ c)
theorem W4_arg7 : W4 (F := Ideal) m ρ c (Proc.devRef .tc main_arg7) = m ((c : Thread nD τ).loc main_arg7) :=
  Eq.trans (W4_of_ne m ρ c main_arg7 (by decide)) (W3_arg7 m ρ c)
theorem W5_arg7 : W5 (F := Ideal) m ρ c (Proc.devRef .tc main_arg7) = m ((c : Thread nD τ).loc main_arg7) :=
  Eq.trans (by host_keeps hostOps2) (W4_arg7 m ρ c)
theorem W6_arg7 : W6 (F := Ideal) m ρ c (Proc.devRef .tc main_arg7) = m ((c : Thread nD τ).loc main_arg7) :=
  Eq.trans (W6_of_ne m ρ c main_arg7 (by decide)) (W5_arg7 m ρ c)

/-! ## The graph's columns and factor, carried to where this layer reads them -/

theorem W3_v1 : W3 (F := Ideal) m ρ c (Proc.devRef .tc main_v1) = srcOf (m ((c : Thread nD τ).loc main_arg1)) :=
  Eq.trans (by host_keeps hostOps1) (W2_v1 m ρ c)
theorem W4_v1 : W4 (F := Ideal) m ρ c (Proc.devRef .tc main_v1) = srcOf (m ((c : Thread nD τ).loc main_arg1)) :=
  Eq.trans (W4_of_ne m ρ c main_v1 (by decide)) (W3_v1 m ρ c)
theorem W5_v1 : W5 (F := Ideal) m ρ c (Proc.devRef .tc main_v1) = srcOf (m ((c : Thread nD τ).loc main_arg1)) :=
  Eq.trans (by host_keeps hostOps2) (W4_v1 m ρ c)
theorem W6_v1 : W6 (F := Ideal) m ρ c (Proc.devRef .tc main_v1) = srcOf (m ((c : Thread nD τ).loc main_arg1)) :=
  Eq.trans (W6_of_ne m ρ c main_v1 (by decide)) (W5_v1 m ρ c)
theorem W3_v3 : W3 (F := Ideal) m ρ c (Proc.devRef .tc main_v3) = dstOf (m ((c : Thread nD τ).loc main_arg1)) :=
  Eq.trans (by host_keeps hostOps1) (W2_v3 m ρ c)
theorem W4_v3 : W4 (F := Ideal) m ρ c (Proc.devRef .tc main_v3) = dstOf (m ((c : Thread nD τ).loc main_arg1)) :=
  Eq.trans (W4_of_ne m ρ c main_v3 (by decide)) (W3_v3 m ρ c)
theorem W5_v3 : W5 (F := Ideal) m ρ c (Proc.devRef .tc main_v3) = dstOf (m ((c : Thread nD τ).loc main_arg1)) :=
  Eq.trans (by host_keeps hostOps2) (W4_v3 m ρ c)
theorem W6_v3 : W6 (F := Ideal) m ρ c (Proc.devRef .tc main_v3) = dstOf (m ((c : Thread nD τ).loc main_arg1)) :=
  Eq.trans (W6_of_ne m ρ c main_v3 (by decide)) (W5_v3 m ρ c)
theorem W3_v11 : W3 (F := Ideal) m ρ c (Proc.devRef .tc main_v11) = factorOf (m ((c : Thread nD τ).loc main_arg1)) :=
  Eq.trans (by host_keeps hostOps1) (W2_v11 m ρ c)
theorem W4_v11 : W4 (F := Ideal) m ρ c (Proc.devRef .tc main_v11) = factorOf (m ((c : Thread nD τ).loc main_arg1)) :=
  Eq.trans (W4_of_ne m ρ c main_v11 (by decide)) (W3_v11 m ρ c)
theorem W5_v11 : W5 (F := Ideal) m ρ c (Proc.devRef .tc main_v11) = factorOf (m ((c : Thread nD τ).loc main_arg1)) :=
  Eq.trans (by host_keeps hostOps2) (W4_v11 m ρ c)
theorem W6_v11 : W6 (F := Ideal) m ρ c (Proc.devRef .tc main_v11) = factorOf (m ((c : Thread nD τ).loc main_arg1)) :=
  Eq.trans (W6_of_ne m ρ c main_v11 (by decide)) (W5_v11 m ρ c)

/-! ## After the one-operation stretch and the second product-and-scale call -/

theorem W5_v27 : W5 (F := Ideal) m ρ c (Proc.devRef .tc main_v27) = shapeCast S50000x1 (factorOf (m ((c : Thread nD τ).loc main_arg1))) Facts₀.shapeCasts_S50000_S50000x1 := by
  dsimp only [W5, hostOps2]; after_results; rw [W4_v11 m ρ c]; rfl
theorem W5_v26 : W5 (F := Ideal) m ρ c (Proc.devRef .tc main_v26) = W4 (F := Ideal) m ρ c (Proc.devRef .tc main_v26) := by
  host_keeps hostOps2

/-- The call's output: the hidden layer's result times the second weight matrix, scaled. -/
theorem W6_v28 : (W6 (F := Ideal) m ρ c (Proc.devRef .tc main_v28) : FVec Ideal S50000x64 .f32)
    = fun i => feat (W4 (F := Ideal) m ρ c (Proc.devRef .tc main_v26) : FVec Ideal S50000x128 .f32) (m ((c : Thread nD τ).loc main_arg6)) i * factorOf (m ((c : Thread nD τ).loc main_arg1)) (ix1 (i 0)) := by
  funext i
  obtain ⟨p, q, rfl⟩ : ∃ (p : Fin 50000) (q : Fin 64), i = ix2 p q := ⟨i 0, i 1, eq_ix2 i⟩
  refine (congrFun (W6_arr m ρ c 3) (ix2 p q)).trans ?_
  refine (scale2_at (V5 m ρ) c p q _ _ _ (W5_v26 m ρ c).symm (W5_arg6 m ρ c).symm (W5_v27 m ρ c).symm).trans ?_
  rw [shapeCast_a_a1_apply]
  rfl

/-! ## After the stretch that gathers and adds up -/

set_option maxHeartbeats 2000000 in
theorem W7_v38 : W7 (F := Ideal) m ρ c (Proc.devRef .tc main_v38)
    = Host.scatterAdd (F := Ideal) scatter_S50000x64_S600000x1_S600000x64_1_0_0_1 zeros64 (colOf (dstOf (m ((c : Thread nD τ).loc main_arg1))))
        (Host.gather gather_S50000x64_S600000x1_S600000x64_1_0_n_n_0_1_164 (W6 (F := Ideal) m ρ c (Proc.devRef .tc main_v28)) (wrapColOf (srcOf (m ((c : Thread nD τ).loc main_arg1))))) := by
  dsimp only [W7, hostOps3]; after_results; rw [W6_v1 m ρ c, W6_v3 m ρ c]; rfl
theorem W7_v39 : W7 (F := Ideal) m ρ c (Proc.devRef .tc main_v39) = shapeCast S50000x1 (factorOf (m ((c : Thread nD τ).loc main_arg1))) Facts₀.shapeCasts_S50000_S50000x1 := by
  dsimp only [W7, hostOps3]; after_results; rw [W6_v11 m ρ c]; rfl
theorem W7_v40 : W7 (F := Ideal) m ρ c (Proc.devRef .tc main_v40)
    = shapeCast S1x64 (m ((c : Thread nD τ).loc main_arg7)) Facts₀.shapeCasts_S64_S1x64 := by
  dsimp only [W7, hostOps3]; after_results; rw [W6_arg7 m ρ c]; rfl
theorem W7_v28 : W7 (F := Ideal) m ρ c (Proc.devRef .tc main_v28) = W6 (F := Ideal) m ρ c (Proc.devRef .tc main_v28) := by
  host_keeps hostOps3

/-! ## After the second combine call -/

/-- The output layer over the hidden layer's array, as the kernel's program leaves it. -/
theorem out_a_over : (W8 (F := Ideal) m ρ c (Proc.devRef .tc main_v41) : FVec Ideal S50000x64 .f32)
    = scaledLayer scatter_S50000x64_S600000x1_S600000x64_1_0_0_1 gather_S50000x64_S600000x1_S600000x64_1_0_n_n_0_1_164 false
        (feat (W4 (F := Ideal) m ρ c (Proc.devRef .tc main_v26) : FVec Ideal S50000x128 .f32) (m ((c : Thread nD τ).loc main_arg6))) (factorOf (m ((c : Thread nD τ).loc main_arg1))) (m ((c : Thread nD τ).loc main_arg7)) zeros64 (wrapColOf (srcOf (m ((c : Thread nD τ).loc main_arg1)))) (colOf (dstOf (m ((c : Thread nD τ).loc main_arg1)))) := by
  funext i
  obtain ⟨p, q, rfl⟩ : ∃ (p : Fin 50000) (q : Fin 64), i = ix2 p q := ⟨i 0, i 1, eq_ix2 i⟩
  refine (congrFun (W8_arr m ρ c 4) (ix2 p q)).trans ?_
  refine (combine3_at (V7 m ρ) c p q _ _ _ _ (W7_v38 m ρ c).symm ((W7_v28 m ρ c).trans (W6_v28 m ρ c)).symm
    (W7_v39 m ρ c).symm (W7_v40 m ρ c).symm).trans ?_
  rw [shapeCast_a_a1_apply, shapeCast_a_1a_apply, W6_v28 m ρ c]
  rfl

/-! ## The result buffer is not written again: it ends as the second combine call left it -/

theorem W8_v41 : W8 (F := Ideal) m ρ c (Proc.devRef .tc main_v41) = W8 (F := Ideal) m ρ c (Proc.devRef .tc main_v41) := rfl
theorem W9_v41 : W9 (F := Ideal) m ρ c (Proc.devRef .tc main_v41) = W8 (F := Ideal) m ρ c (Proc.devRef .tc main_v41) :=
  Eq.trans (by host_keeps hostOps4) (W8_v41 m ρ c)
theorem W10_v41 : W10 (F := Ideal) m ρ c (Proc.devRef .tc main_v41) = W8 (F := Ideal) m ρ c (Proc.devRef .tc main_v41) :=
  Eq.trans (W10_of_ne m ρ c main_v41 (by decide)) (W9_v41 m ρ c)
theorem W11_v41 : W11 (F := Ideal) m ρ c (Proc.devRef .tc main_v41) = W8 (F := Ideal) m ρ c (Proc.devRef .tc main_v41) :=
  Eq.trans (by host_keeps hostOps5) (W10_v41 m ρ c)
theorem W12_v41 : W12 (F := Ideal) m ρ c (Proc.devRef .tc main_v41) = W8 (F := Ideal) m ρ c (Proc.devRef .tc main_v41) :=
  Eq.trans (W12_of_ne m ρ c main_v41 (by decide)) (W11_v41 m ρ c)
theorem W13_v41 : W13 (F := Ideal) m ρ c (Proc.devRef .tc main_v41) = W8 (F := Ideal) m ρ c (Proc.devRef .tc main_v41) :=
  Eq.trans (by host_keeps hostOps6) (W12_v41 m ρ c)
theorem W14_v41 : W14 (F := Ideal) m ρ c (Proc.devRef .tc main_v41) = W8 (F := Ideal) m ρ c (Proc.devRef .tc main_v41) :=
  Eq.trans (W14_of_ne m ρ c main_v41 (by decide)) (W13_v41 m ρ c)
theorem W15_v41 : W15 (F := Ideal) m ρ c (Proc.devRef .tc main_v41) = W8 (F := Ideal) m ρ c (Proc.devRef .tc main_v41) :=
  Eq.trans (by host_keeps hostOps7) (W14_v41 m ρ c)
theorem W16_v41 : W16 (F := Ideal) m ρ c (Proc.devRef .tc main_v41) = W8 (F := Ideal) m ρ c (Proc.devRef .tc main_v41) :=
  Eq.trans (W16_of_ne m ρ c main_v41 (by decide)) (W15_v41 m ρ c)

/-- THE FIRST GRAPH'S RESULT as the kernel's program leaves it: the output layer, factor applied per node, over the
    hidden layer, factor applied per node. -/
theorem result_a : (W16 (F := Ideal) m ρ c (Proc.devRef .tc main_v41) : FVec Ideal S50000x64 .f32)
    = scaledLayer scatter_S50000x64_S600000x1_S600000x64_1_0_0_1 gather_S50000x64_S600000x1_S600000x64_1_0_n_n_0_1_164 false
        (feat (scaledLayer scatter_S50000x128_S600000x1_S600000x128_1_0_0_1 gather_S50000x128_S600000x1_S600000x128_1_0_n_n_0_1_1128 true
            (feat (m ((c : Thread nD τ).loc main_arg0)) (m ((c : Thread nD τ).loc main_arg4))) (factorOf (m ((c : Thread nD τ).loc main_arg1))) (m ((c : Thread nD τ).loc main_arg5)) zeros128 (wrapColOf (srcOf (m ((c : Thread nD τ).loc main_arg1)))) (colOf (dstOf (m ((c : Thread nD τ).loc main_arg1))))) (m ((c : Thread nD τ).loc main_arg6)))
        (factorOf (m ((c : Thread nD τ).loc main_arg1))) (m ((c : Thread nD τ).loc main_arg7)) zeros64 (wrapColOf (srcOf (m ((c : Thread nD τ).loc main_arg1)))) (colOf (dstOf (m ((c : Thread nD τ).loc main_arg1)))) := by
  rw [← hidden_a m ρ c]
  exact (W16_v41 m ρ c).trans (out_a_over m ρ c)

end Cert.KernelIdeal.Fold

end
-- ==== Proof.ScaleCall4.lean ====
/-
  The array a matrix-product-and-scale call leaves (call 4): the grid's ten points each write rows 5000·t … 5000·t+4999 of the
  [50000, 128] output, and those blocks tile it; row p of the output is row p of the feature matrix times the whole weight
  matrix, every entry then multiplied by the per-node factor of row p. So entry (p, q) of the array after the call is
  (Σ_k x[p, k] · W[k, q]) · d[p, 0]  of the arrays the call finds (changes of float format are the identity on the
  extended reals; the accumulator starts at zero).
-/
import proofs.«119174_j20590073217487_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«119174_j20590073217487_2_alg».proof.Proof.LibPlainMatmul
set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The block offsets of a whole-block access are all zero. -/
theorem zero_offsets4 : (![0, 0] : Fin 2 → Nat) = fun _ => 0 := funext fun a => by fin_cases a <;> rfl

/-- A [5000, 1] column laid along the columns of a [5000, 128] matrix reads, at (r, e), the column's entry of row r. -/
theorem column_broadcast4 (d : FVec Ideal S5000x1 .f32) (h : S5000x1.Broadcasts S5000x128) (r : Fin 5000) (e : Fin 128) :
    broadcastTo S5000x128 d h (ix2 r e) = d (ix2 r (0 : Fin 1)) := by
  refine broadcastTo_apply d h (ix2 r e) (ix2 r (0 : Fin 1)) fun ax => ?_
  match ax with
  | ⟨0, _⟩ => rfl
  | ⟨1, _⟩ => rfl

/-- The body's arithmetic at an entry: the row of the left block times the column of the right block (the changes of
    float format are the identity, the accumulator is zero), times the row's factor. -/
theorem payload4_at (x : FVec Ideal S5000x128 .f32) (w : FVec Ideal S128x128 .f32) (d : FVec Ideal S5000x1 .f32) (r : Fin 5000) (e : Fin 128) :
    k4_pay1 (F := Ideal) x w d (ix2 r e) = (∑ k : Fin 128, x (ix2 r k) * w (ix2 k e)) * d (ix2 r (0 : Fin 1)) := by
  unfold k4_pay1
  rw [mulf_apply]
  simp only [shapeCast_self, matmul]
  rw [column_broadcast4]
  rw [matmul_plain_zero_apply dot_S5000x128_S128x128_S5000x128_1_0_0_1_n_n rfl]
  rfl

/-- The whole output as one function of the three arrays: entry (p, q) is (Σ_k X[p, k] · W[k, q]) · D[p, 0]. -/
def scaledProduct4 (X : FVec Ideal S50000x128 .f32) (W : FVec Ideal S128x128 .f32) (D : FVec Ideal S50000x1 .f32) : FVec Ideal S50000x128 .f32 :=
  fun i => (∑ k : Fin 128, X (ix2 (i 0) k) * W (ix2 k (i 1))) * D (ix2 (i 0) (0 : Fin 1))

/-- Over variables: when the left block holds rows 5000·b … of X, the right block all of W and the factor block rows
    5000·b … of D, the body's arithmetic at (r, e) is the whole-array function at (5000·b + r, e). -/
theorem block_value4 (X : FVec Ideal S50000x128 .f32) (W : FVec Ideal S128x128 .f32) (D : FVec Ideal S50000x1 .f32)
    (x : FVec Ideal S5000x128 .f32) (w : FVec Ideal S128x128 .f32) (d : FVec Ideal S5000x1 .f32) (b : Nat) (r : Fin 5000) (e : Fin 128)
    (h : b * 5000 + r.val < 50000)
    (hx : ∀ k : Fin 128, x (ix2 r k) = X (ix2 ⟨b * 5000 + r.val, h⟩ k))
    (hw : ∀ k : Fin 128, w (ix2 k e) = W (ix2 k e))
    (hd : d (ix2 r (0 : Fin 1)) = D (ix2 ⟨b * 5000 + r.val, h⟩ (0 : Fin 1))) :
    k4_pay1 (F := Ideal) x w d (ix2 r e) = scaledProduct4 X W D (ix2 ⟨b * 5000 + r.val, h⟩ e) := by
  rw [payload4_at, hd]
  show _ = (∑ k : Fin 128, X (ix2 ⟨b * 5000 + r.val, h⟩ k) * W (ix2 k e)) * D (ix2 ⟨b * 5000 + r.val, h⟩ (0 : Fin 1))
  congr 1
  exact Finset.sum_congr rfl fun k _ => by rw [hx k, hw k]

/-- The printed index maps, decided over the grid: at point t the row-tiled windows sit at block row t, block column 0,
    and the weight window at block (0, 0). -/
theorem index_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The left window's block at point t is rows 5000·t … of its array. -/
theorem left_block4 (c : Dev nD) (t : Fin cfg4.N) (r : Fin 5000) (k : Fin 128) (h : t.val * 5000 + r.val < 50000) :
    (iblk4 (F := Ideal) V c 0 t : FVec Ideal S5000x128 .f32) (ix2 r k)
      = (V c main_arg2 : FVec Ideal S50000x128 .f32) (ix2 ⟨t.val * 5000 + r.val, h⟩ k) := by
  obtain ⟨e0, e1, -⟩ := index_facts4 t
  unfold iblk4
  rw [View.read_apply]
  show V c main_arg2 _ = V c main_arg2 _
  congr 1
  funext a
  apply Fin.ext
  match a with
  | ⟨0, _⟩ => show win4_0.index t (0 : Fin 2) * 5000 + 1 * r.val = t.val * 5000 + r.val; rw [e0]; omega
  | ⟨1, _⟩ => show win4_0.index t (1 : Fin 2) * 128 + 1 * k.val = k.val; rw [e1]; omega

/-- The weight window's block is the whole weight matrix at every point. -/
theorem right_block4 (c : Dev nD) (t : Fin cfg4.N) (k : Fin 128) (e : Fin 128) :
    (iblk4 (F := Ideal) V c 1 t : FVec Ideal S128x128 .f32) (ix2 k e) = (V c main_arg8 : FVec Ideal S128x128 .f32) (ix2 k e) := by
  obtain ⟨-, -, e2, e3, -⟩ := index_facts4 t
  unfold iblk4
  rw [View.read_apply]
  show V c main_arg8 _ = V c main_arg8 _
  congr 1
  funext a
  apply Fin.ext
  match a with
  | ⟨0, _⟩ => show win4_1.index t (0 : Fin 2) * 128 + 1 * k.val = k.val; rw [e2]; omega
  | ⟨1, _⟩ => show win4_1.index t (1 : Fin 2) * 128 + 1 * e.val = e.val; rw [e3]; omega

/-- The factor window's block at point t is rows 5000·t … of the factor column. -/
theorem factor_block4 (c : Dev nD) (t : Fin cfg4.N) (r : Fin 5000) (h : t.val * 5000 + r.val < 50000) :
    (iblk4 (F := Ideal) V c 2 t : FVec Ideal S5000x1 .f32) (ix2 r (0 : Fin 1))
      = (V c main_v54 : FVec Ideal S50000x1 .f32) (ix2 ⟨t.val * 5000 + r.val, h⟩ (0 : Fin 1)) := by
  obtain ⟨-, -, -, -, e4, e5, -⟩ := index_facts4 t
  unfold iblk4
  rw [View.read_apply]
  show V c main_v54 _ = V c main_v54 _
  congr 1
  funext a
  apply Fin.ext
  match a with
  | ⟨0, _⟩ => show win4_2.index t (0 : Fin 2) * 5000 + 1 * r.val = t.val * 5000 + r.val; rw [e4]; omega
  | ⟨1, _⟩ => show win4_2.index t (1 : Fin 2) * 1 + 1 * (0 : Fin 1).val = (0 : Fin 1).val; rw [e5]; rfl

/-- What point t writes back is block t of the whole-array function of the arrays the call finds. -/
theorem written_back4 (c : Dev nD) (t : Fin cfg4.N) :
    (dat4 (F := Ideal) V c).flushed 3 t
      = ((cfg4.win 3).blk t).view.read (Elt Ideal) (scaledProduct4 (V c main_arg2) (V c main_arg8) (V c main_v54)) := by
  show (cfg4.win 3).cut (grid4.coords t) ((dat4 V c).after 3 t) = _
  rw [after4_3]
  unfold out4_3
  rw [View.canon_unit_zero zero_offsets4]
  simp only [View.ld_unit_zero (S := S5000x128) zero_offsets4, View.ld_unit_zero (S := S128x128) zero_offsets4,
    View.ld_unit_zero (S := S5000x1) zero_offsets4]
  funext j
  have hN : t.val < 10 := by have h1 := t.isLt; have h2 : cfg4.N = 10 := N_4; omega
  have hr : (j 0).val < 5000 := (j 0).isLt
  have he : (j 1).val < 128 := (j 1).isLt
  obtain ⟨-, -, -, -, -, -, e6, e7⟩ := index_facts4 t
  have hj : (cfg4.win 3).xinj (grid4.coords t) j = ix2 (⟨(j 0).val, hr⟩ : Fin 5000) (⟨(j 1).val, he⟩ : Fin 128) :=
    funext fun a => by
      match a with
      | ⟨0, _⟩ => rfl
      | ⟨1, _⟩ => rfl
  show k4_pay1 (iblk4 V c 0 t) (iblk4 V c 1 t) (iblk4 V c 2 t) ((cfg4.win 3).xinj (grid4.coords t) j) = _
  rw [hj]
  refine (block_value4 (V c main_arg2) (V c main_arg8) (V c main_v54) (iblk4 V c 0 t) (iblk4 V c 1 t) (iblk4 V c 2 t)
    t.val ⟨(j 0).val, hr⟩ ⟨(j 1).val, he⟩ (by show t.val * 5000 + (j 0).val < 50000; omega)
    (fun k => left_block4 V c t _ k _) (fun k => right_block4 V c t k _) (factor_block4 V c t _ _)).trans ?_
  rw [View.read_apply]
  show scaledProduct4 _ _ _ _ = scaledProduct4 _ _ _ _
  congr 1
  funext a
  apply Fin.ext
  match a with
  | ⟨0, _⟩ => show t.val * 5000 + (j 0).val = win4_3.index t (0 : Fin 2) * 5000 + 1 * (j 0).val; rw [e6]; omega
  | ⟨1, _⟩ => show (j 1).val = win4_3.index t (1 : Fin 2) * 128 + 1 * (j 1).val; rw [e7]; omega

/-- An index of the output array is in point t's block iff each coordinate is in the block's range on its axis. -/
theorem mem_block4 (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v55).slice (win4_3.rect t)).set ↔ _
  rw [View.set_slice_whole, Rect.mem_set_unit]
  exact Iff.rfl

/-- The blocks tile the output array: row p lies in the block of point p / 5000. -/
theorem blocks_cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, e6, e7⟩ := index_facts4 t
  refine ⟨t, flush4_3 t, ?_⟩
  rw [mem_block4]
  intro a
  match a with
  | ⟨0, _⟩ => show win4_3.index t (0 : Fin 2) * 5000 ≤ (i 0).val ∧ (i 0).val < win4_3.index t (0 : Fin 2) * 5000 + 5000; rw [e6, ht]; omega
  | ⟨1, _⟩ => show win4_3.index t (1 : Fin 2) * 128 ≤ (i 1).val ∧ (i 1).val < win4_3.index t (1 : Fin 2) * 128 + 128; rw [e7]; omega

/-- Call 4's output array after the call is the whole-array function of the arrays the call finds: every point writes
    back its block of that function, and the blocks cover the array. -/
theorem scale4_array (c : Dev nD) :
    (dat4 (F := Ideal) V c).arrAt 3 cfg4.N = scaledProduct4 (V c main_arg2) (V c main_arg8) (V c main_v54) :=
  (dat4 (F := Ideal) V c).arrAt_eq_of_cover 3 (scaledProduct4 (V c main_arg2) (V c main_arg8) (V c main_v54))
    (fun t _ => written_back4 V c t) (fun i => blocks_cover4 i)

/-- Entry (p, q) of call 4's output array after the call, from the arrays the call finds. -/
theorem scale4_at (c : Dev nD) (p : Fin 50000) (q : Fin 128)
    (x : FVec Ideal S50000x128 .f32) (W : FVec Ideal S128x128 .f32) (d : FVec Ideal S50000x1 .f32)
    (hx : x = V c main_arg2) (hW : W = V c main_arg8) (hd : d = V c main_v54) :
    ((dat4 (F := Ideal) V c).arrAt 3 cfg4.N (ix2 p q) : EReal)
      = (∑ k : Fin 128, x (ix2 p k) * W (ix2 k q)) * d (ix2 p (0 : Fin 1)) := by
  subst hx hW hd
  exact congrFun (scale4_array V c) (ix2 p q)

end Cert.KernelIdeal.RegionValue

end
-- ==== Proof.CombineCall5.lean ====
/-
  The array a combine call leaves (call 5): the grid's ten points each write rows 5000·t … 5000·t+4999 of the [50000, 128]
  output, and those blocks tile it; the body is pointwise in the row and column, reading the per-node factor from a
  [50000, 1] column and the bias from a [1, 128] row. So entry (p, q) of the array after the call is
  max (d[p, 0] · (a[p, q] + h[p, q]) + b[0, q]) 0  of the arrays the call finds.
-/
import proofs.«119174_j20590073217487_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## The body's arithmetic at one entry of a tile -/

/-- A [a, 1] column broadcast to [a, b] reads, at (p, c), the column's entry p. -/
theorem colBroadcast5_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (r, e) of what the body stores, from the four tiles it loads: the factor's entry of row r times the sum of the
    two feature tiles' entries, plus the bias row's entry e, clamped below at zero. -/
theorem tile5_at (d : Vec Ideal S5000x1 .f32) (a h : Vec Ideal S5000x128 .f32) (b : Vec Ideal S1x128 .f32) (r : Fin 5000) (e : Fin 128) :
    k5_pay1 (F := Ideal) d a h b (ix2 r e) = max (d (ix2 r (0 : Fin 1)) * (a (ix2 r e) + h (ix2 r e)) + b (ix2 (0 : Fin 1) e)) 0 := by
  unfold k5_pay1
  simp only [shapeCast_self]
  rw [maximumf_apply, addf_apply, mulf_apply, addf_apply, broadcast_apply, broadcastTo_1b_ab_apply, colBroadcast5_apply]
  rw [show Scalar.ofBits (F := Ideal) .f32 0x00000000#32 = 0 from Ideal.ofBits_zero_f32]

/-! ## The whole array the call computes -/

/-- Entry i of the combined array, from the four arrays: row i₀ of the factor column, entry i of the two feature arrays,
    column i₁ of the bias row. -/
def combined5 (A H : S50000x128.Idx → Elt Ideal .f32) (D : S50000x1.Idx → Elt Ideal .f32) (B : S1x128.Idx → Elt Ideal .f32) :
    S50000x128.Idx → Elt Ideal .f32 :=
  fun i => max (D (ix2 (⟨(i 0).val, idx2_lt0 i⟩ : Fin 50000) (0 : Fin 1)) * (A i + H i) + B (ix2 (0 : Fin 1) (⟨(i 1).val, idx2_lt1 i⟩ : Fin 128))) 0

theorem combined5_ix2 (A H : S50000x128.Idx → Elt Ideal .f32) (D : S50000x1.Idx → Elt Ideal .f32) (B : S1x128.Idx → Elt Ideal .f32)
    (p : Fin 50000) (q : Fin 128) :
    combined5 A H D B (ix2 p q) = max (D (ix2 p (0 : Fin 1)) * (A (ix2 p q) + H (ix2 p q)) + B (ix2 (0 : Fin 1) q)) 0 := rfl

/-- Entry y of the stored tile is entry i of the combined array, once each loaded tile's entry is the corresponding
    array's entry. -/
theorem tile5_eq_combined (d : Vec Ideal S5000x1 .f32) (a h : Vec Ideal S5000x128 .f32) (b : Vec Ideal S1x128 .f32)
    (A H : S50000x128.Idx → Elt Ideal .f32) (D : S50000x1.Idx → Elt Ideal .f32) (B : S1x128.Idx → Elt Ideal .f32)
    (y : S5000x128.Idx) (i : S50000x128.Idx)
    (hd : d (ix2 (⟨(y 0).val, idx2_lt0 y⟩ : Fin 5000) (0 : Fin 1)) = D (ix2 (⟨(i 0).val, idx2_lt0 i⟩ : Fin 50000) (0 : Fin 1)))
    (ha : a y = A i) (hh : h y = H i)
    (hb : b (ix2 (0 : Fin 1) (⟨(y 1).val, idx2_lt1 y⟩ : Fin 128)) = B (ix2 (0 : Fin 1) (⟨(i 1).val, idx2_lt1 i⟩ : Fin 128))) :
    k5_pay1 (F := Ideal) d a h b y = combined5 A H D B i := by
  obtain ⟨r, e, rfl⟩ : ∃ (r : Fin 5000) (e : Fin 128), y = ix2 r e := ⟨y 0, y 1, eq_ix2 y⟩
  rw [tile5_at]
  unfold combined5
  rw [← hd, ← ha, ← hh, ← hb]

/-! ## Where each window's block sits in its array -/

theorem zeroOffsets5 : (![0, 0] : Fin 2 → Nat) = fun _ => 0 := funext fun a => by fin_cases a <;> rfl

/-- The printed index maps, decided over the ten grid points: the three row-tiled inputs and the output take row block t,
    column block 0; the bias row's block is block (0, 0) at every point. -/
theorem blockIndices5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Entry x of the aggregate window's block at point t is entry (5000 t + x₀, x₁) of its array. -/
theorem aggBlock5_apply (c : Dev nD) (t : Fin cfg5.N) (x : S5000x128.Idx) (i : S50000x128.Idx)
    (h0 : (i 0).val = 5000 * t.val + (x 0).val) (h1 : (i 1).val = (x 1).val) :
    (iblk5 (F := Ideal) V c 0 t : Vec Ideal S5000x128 .f32) x = (V c main_v65 : S50000x128.Idx → Elt Ideal .f32) i := by
  obtain ⟨f00, f01, -, -, -, -, -, -, -, -⟩ := blockIndices5 t
  unfold iblk5
  rw [View.read_apply]
  show V c main_v65 _ = V c main_v65 _
  congr 1
  funext a
  apply Fin.ext
  match a with
  | ⟨0, _⟩ => show win5_0.index t (0 : Fin 2) * 5000 + 1 * (x 0).val = (i 0).val; rw [f00, h0]; omega
  | ⟨1, _⟩ => show win5_0.index t (1 : Fin 2) * 128 + 1 * (x 1).val = (i 1).val; rw [f01, h1]; omega

/-- Entry x of the feature window's block at point t is entry (5000 t + x₀, x₁) of its array. -/
theorem featBlock5_apply (c : Dev nD) (t : Fin cfg5.N) (x : S5000x128.Idx) (i : S50000x128.Idx)
    (h0 : (i 0).val = 5000 * t.val + (x 0).val) (h1 : (i 1).val = (x 1).val) :
    (iblk5 (F := Ideal) V c 1 t : Vec Ideal S5000x128 .f32) x = (V c main_v55 : S50000x128.Idx → Elt Ideal .f32) i := by
  obtain ⟨-, -, f10, f11, -, -, -, -, -, -⟩ := blockIndices5 t
  unfold iblk5
  rw [View.read_apply]
  show V c main_v55 _ = V c main_v55 _
  congr 1
  funext a
  apply Fin.ext
  match a with
  | ⟨0, _⟩ => show win5_1.index t (0 : Fin 2) * 5000 + 1 * (x 0).val = (i 0).val; rw [f10, h0]; omega
  | ⟨1, _⟩ => show win5_1.index t (1 : Fin 2) * 128 + 1 * (x 1).val = (i 1).val; rw [f11, h1]; omega

/-- Entry x of the factor window's block at point t is entry (5000 t + x₀, x₁) of the factor column. -/
theorem factorBlock5_apply (c : Dev nD) (t : Fin cfg5.N) (x : S5000x1.Idx) (i : S50000x1.Idx)
    (h0 : (i 0).val = 5000 * t.val + (x 0).val) (h1 : (i 1).val = (x 1).val) :
    (iblk5 (F := Ideal) V c 2 t : Vec Ideal S5000x1 .f32) x = (V c main_v66 : S50000x1.Idx → Elt Ideal .f32) i := by
  obtain ⟨-, -, -, -, f20, f21, -, -, -, -⟩ := blockIndices5 t
  unfold iblk5
  rw [View.read_apply]
  show V c main_v66 _ = V c main_v66 _
  congr 1
  funext a
  apply Fin.ext
  match a with
  | ⟨0, _⟩ => show win5_2.index t (0 : Fin 2) * 5000 + 1 * (x 0).val = (i 0).val; rw [f20, h0]; omega
  | ⟨1, _⟩ => show win5_2.index t (1 : Fin 2) * 1 + 1 * (x 1).val = (i 1).val; rw [f21, h1]; omega

/-- The bias window's block at every point is the whole bias row. -/
theorem biasBlock5_apply (c : Dev nD) (t : Fin cfg5.N) (x : S1x128.Idx) (i : S1x128.Idx)
    (h0 : (i 0).val = (x 0).val) (h1 : (i 1).val = (x 1).val) :
    (iblk5 (F := Ideal) V c 3 t : Vec Ideal S1x128 .f32) x = (V c main_v67 : S1x128.Idx → Elt Ideal .f32) i := by
  obtain ⟨-, -, -, -, -, -, f30, f31, -, -⟩ := blockIndices5 t
  unfold iblk5
  rw [View.read_apply]
  show V c main_v67 _ = V c main_v67 _
  congr 1
  funext a
  apply Fin.ext
  match a with
  | ⟨0, _⟩ => show win5_3.index t (0 : Fin 2) * 1 + 1 * (x 0).val = (i 0).val; rw [f30, h0]; omega
  | ⟨1, _⟩ => show win5_3.index t (1 : Fin 2) * 128 + 1 * (x 1).val = (i 1).val; rw [f31, h1]; omega

/-! ## What a point writes back, and the array the ten blocks make -/

/-- What point t writes back is block t of the combined array of the arrays the call finds. -/
theorem written5_eq (c : Dev nD) (t : Fin cfg5.N) :
    (dat5 (F := Ideal) V c).flushed 4 t
      = ((cfg5.win 4).blk t).view.read (Elt Ideal) (combined5 (V c main_v65) (V c main_v55) (V c main_v66) (V c main_v67)) := by
  show (cfg5.win 4).cut (grid5.coords t) ((dat5 V c).after 4 t) = _
  rw [after5_4]
  unfold out5_4
  rw [View.canon_unit_zero zeroOffsets5]
  simp only [View.ld_unit_zero (S := S5000x128) zeroOffsets5, View.ld_unit_zero (S := S5000x1) zeroOffsets5,
    View.ld_unit_zero (S := S1x128) zeroOffsets5]
  obtain ⟨-, -, -, -, -, -, -, -, f40, f41⟩ := blockIndices5 t
  funext j
  have e0 : ((((cfg5.win 4).blk t).view.emb j) 0).val = 5000 * t.val + (j 0).val := by
    show win5_4.index t (0 : Fin 2) * 5000 + 1 * (j 0).val = _; rw [f40]; omega
  have e1 : ((((cfg5.win 4).blk t).view.emb j) 1).val = (j 1).val := by
    show win5_4.index t (1 : Fin 2) * 128 + 1 * (j 1).val = _; rw [f41]; omega
  refine tile5_eq_combined (iblk5 V c 2 t) (iblk5 V c 0 t) (iblk5 V c 1 t) (iblk5 V c 3 t)
    (V c main_v65) (V c main_v55) (V c main_v66) (V c main_v67) j (((cfg5.win 4).blk t).view.emb j) ?_ ?_ ?_ ?_
  · exact factorBlock5_apply V c t _ _ e0 rfl
  · exact aggBlock5_apply V c t j _ e0 e1
  · exact featBlock5_apply V c t j _ e0 e1
  · exact biasBlock5_apply V c t _ _ rfl e1

/-- An index of the output array is in point t's block iff each coordinate is in the block's range on its axis. -/
theorem mem_block5 (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v68).slice (win5_4.rect t)).set ↔ _
  rw [View.set_slice_whole, Rect.mem_set_unit]
  exact Iff.rfl

/-- Every entry of the output array is in some point's block: row p is in the block of point p / 5000. -/
theorem blocks5_cover (i : S50000x128.Idx) :
    ∃ t : Fin cfg5.N, (cfg5.win 4).flush t = true ∧ i ∈ ((cfg5.win 4).blk t).view.set := by
  have hi0 : (i 0).val < 50000 := idx2_lt0 i
  have hi1 : (i 1).val < 128 := idx2_lt1 i
  obtain ⟨t, ht⟩ : ∃ t : Fin cfg5.N, t.val = (i 0).val / 5000 :=
    ⟨⟨(i 0).val / 5000, by show (i 0).val / 5000 < 10; omega⟩, rfl⟩
  obtain ⟨-, -, -, -, -, -, -, -, f40, f41⟩ := blockIndices5 t
  refine ⟨t, flush5_4 t, ?_⟩
  rw [mem_block5]
  intro a
  match a with
  | ⟨0, _⟩ =>
    show win5_4.index t (0 : Fin 2) * 5000 ≤ (i 0).val ∧ (i 0).val < win5_4.index t (0 : Fin 2) * 5000 + 5000
    rw [f40, ht]; omega
  | ⟨1, _⟩ =>
    show win5_4.index t (1 : Fin 2) * 128 ≤ (i 1).val ∧ (i 1).val < win5_4.index t (1 : Fin 2) * 128 + 128
    rw [f41]; omega

/-- The output array after the call is the combined array of the arrays the call finds. -/
theorem array5_eq (c : Dev nD) :
    (dat5 (F := Ideal) V c).arrAt 4 cfg5.N = combined5 (V c main_v65) (V c main_v55) (V c main_v66) (V c main_v67) :=
  (dat5 (F := Ideal) V c).arrAt_eq_of_cover 4 (combined5 (V c main_v65) (V c main_v55) (V c main_v66) (V c main_v67))
    (fun t _ => written5_eq V c t) blocks5_cover

/-- Entry (p, q) of call 5's output array after the call, from the arrays the call finds. -/
theorem combine5_at (c : Dev nD) (p : Fin 50000) (q : Fin 128)
    (a h : FVec Ideal S50000x128 .f32) (d : FVec Ideal S50000x1 .f32) (b : FVec Ideal S1x128 .f32)
    (ha : a = V c main_v65) (hh : h = V c main_v55) (hd : d = V c main_v66) (hb : b = V c main_v67) :
    ((dat5 (F := Ideal) V c).arrAt 4 cfg5.N (ix2 p q) : EReal)
      = max (d (ix2 p (0 : Fin 1)) * (a (ix2 p q) + h (ix2 p q)) + b (ix2 (0 : Fin 1) q)) 0 := by
  subst ha hh hd hb
  exact (congrFun (array5_eq V c) (ix2 p q)).trans (combined5_ix2 _ _ _ _ p q)

end Cert.KernelIdeal.RegionValue

end
-- ==== Proof.FoldHiddenB.lean ====
/-
  The second graph's hidden layer, read off the fold through @main.

  A stretch of host operations computes the sources, the destinations and the per-node factor from the graph's edge
  array; a product-and-scale call leaves the scaled features (x · W) · factor, row by row; the next stretch gathers
  their rows at the wrapped sources and adds them up at the destinations; a combine call finishes the layer. Entry by
  entry the array after the combine call is the layer with the factor applied per node. Buffers no operation in
  between writes are carried from boundary to boundary unchanged.
-/
import proofs.«119174_j20590073217487_2_alg».proof.Proof.Gen.KernelIdeal.Frame
import proofs.«119174_j20590073217487_2_alg».proof.Proof.KernelParts
import proofs.«119174_j20590073217487_2_alg».proof.Proof.GcnLayer
import proofs.«119174_j20590073217487_2_alg».proof.Proof.ScaleCall4
import proofs.«119174_j20590073217487_2_alg».proof.Proof.CombineCall5
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen Cert.KernelIdeal.Parts Cert.KernelIdeal.RegionValue Cert.GcnLayer
open scoped BigOperators

variable (m : (ℓ : Loc nD τ sig) → Buf (Elt Ideal) ℓ) (ρ : Dev nD → PrngReg) (c : Dev nD)

/-- A stretch of host operations leaves a buffer none of them writes as it was. -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments as launched, up to where this layer reads them -/

theorem W0_arg3 : W0 (F := Ideal) m ρ c (Proc.devRef .tc main_arg3) = m ((c : Thread nD τ).loc main_arg3) := rfl
theorem W1_arg3 : W1 (F := Ideal) m ρ c (Proc.devRef .tc main_arg3) = m ((c : Thread nD τ).loc main_arg3) :=
  Eq.trans (by host_keeps hostOps0) (W0_arg3 m ρ c)
theorem W2_arg3 : W2 (F := Ideal) m ρ c (Proc.devRef .tc main_arg3) = m ((c : Thread nD τ).loc main_arg3) :=
  Eq.trans (W2_of_ne m ρ c main_arg3 (by decide)) (W1_arg3 m ρ c)
theorem W3_arg3 : W3 (F := Ideal) m ρ c (Proc.devRef .tc main_arg3) = m ((c : Thread nD τ).loc main_arg3) :=
  Eq.trans (by host_keeps hostOps1) (W2_arg3 m ρ c)
theorem W4_arg3 : W4 (F := Ideal) m ρ c (Proc.devRef .tc main_arg3) = m ((c : Thread nD τ).loc main_arg3) :=
  Eq.trans (W4_of_ne m ρ c main_arg3 (by decide)) (W3_arg3 m ρ c)
theorem W5_arg3 : W5 (F := Ideal) m ρ c (Proc.devRef .tc main_arg3) = m ((c : Thread nD τ).loc main_arg3) :=
  Eq.trans (by host_keeps hostOps2) (W4_arg3 m ρ c)
theorem W6_arg3 : W6 (F := Ideal) m ρ c (Proc.devRef .tc main_arg3) = m ((c : Thread nD τ).loc main_arg3) :=
  Eq.trans (W6_of_ne m ρ c main_arg3 (by decide)) (W5_arg3 m ρ c)
theorem W7_arg3 : W7 (F := Ideal) m ρ c (Proc.devRef .tc main_arg3) = m ((c : Thread nD τ).loc main_arg3) :=
  Eq.trans (by host_keeps hostOps3) (W6_arg3 m ρ c)
theorem W8_arg3 : W8 (F := Ideal) m ρ c (Proc.devRef .tc main_arg3) = m ((c : Thread nD τ).loc main_arg3) :=
  Eq.trans (W8_of_ne m ρ c main_arg3 (by decide)) (W7_arg3 m ρ c)
theorem W0_arg2 : W0 (F := Ideal) m ρ c (Proc.devRef .tc main_arg2) = m ((c : Thread nD τ).loc main_arg2) := rfl
theorem W1_arg2 : W1 (F := Ideal) m ρ c (Proc.devRef .tc main_arg2) = m ((c : Thread nD τ).loc main_arg2) :=
  Eq.trans (by host_keeps hostOps0) (W0_arg2 m ρ c)
theorem W2_arg2 : W2 (F := Ideal) m ρ c (Proc.devRef .tc main_arg2) = m ((c : Thread nD τ).loc main_arg2) :=
  Eq.trans (W2_of_ne m ρ c main_arg2 (by decide)) (W1_arg2 m ρ c)
theorem W3_arg2 : W3 (F := Ideal) m ρ c (Proc.devRef .tc main_arg2) = m ((c : Thread nD τ).loc main_arg2) :=
  Eq.trans (by host_keeps hostOps1) (W2_arg2 m ρ c)
theorem W4_arg2 : W4 (F := Ideal) m ρ c (Proc.devRef .tc main_arg2) = m ((c : Thread nD τ).loc main_arg2) :=
  Eq.trans (W4_of_ne m ρ c main_arg2 (by decide)) (W3_arg2 m ρ c)
theorem W5_arg2 : W5 (F := Ideal) m ρ c (Proc.devRef .tc main_arg2) = m ((c : Thread nD τ).loc main_arg2) :=
  Eq.trans (by host_keeps hostOps2) (W4_arg2 m ρ c)
theorem W6_arg2 : W6 (F := Ideal) m ρ c (Proc.devRef .tc main_arg2) = m ((c : Thread nD τ).loc main_arg2) :=
  Eq.trans (W6_of_ne m ρ c main_arg2 (by decide)) (W5_arg2 m ρ c)
theorem W7_arg2 : W7 (F := Ideal) m ρ c (Proc.devRef .tc main_arg2) = m ((c : Thread nD τ).loc main_arg2) :=
  Eq.trans (by host_keeps hostOps3) (W6_arg2 m ρ c)
theorem W8_arg2 : W8 (F := Ideal) m ρ c (Proc.devRef .tc main_arg2) = m ((c : Thread nD τ).loc main_arg2) :=
  Eq.trans (W8_of_ne m ρ c main_arg2 (by decide)) (W7_arg2 m ρ c)
theorem W9_arg2 : W9 (F := Ideal) m ρ c (Proc.devRef .tc main_arg2) = m ((c : Thread nD τ).loc main_arg2) :=
  Eq.trans (by host_keeps hostOps4) (W8_arg2 m ρ c)
theorem W0_arg8 : W0 (F := Ideal) m ρ c (Proc.devRef .tc main_arg8) = m ((c : Thread nD τ).loc main_arg8) := rfl
theorem W1_arg8 : W1 (F := Ideal) m ρ c (Proc.devRef .tc main_arg8) = m ((c : Thread nD τ).loc main_arg8) :=
  Eq.trans (by host_keeps hostOps0) (W0_arg8 m ρ c)
theorem W2_arg8 : W2 (F := Ideal) m ρ c (Proc.devRef .tc main_arg8) = m ((c : Thread nD τ).loc main_arg8) :=
  Eq.trans (W2_of_ne m ρ c main_arg8 (by decide)) (W1_arg8 m ρ c)
theorem W3_arg8 : W3 (F := Ideal) m ρ c (Proc.devRef .tc main_arg8) = m ((c : Thread nD τ).loc main_arg8) :=
  Eq.trans (by host_keeps hostOps1) (W2_arg8 m ρ c)
theorem W4_arg8 : W4 (F := Ideal) m ρ c (Proc.devRef .tc main_arg8) = m ((c : Thread nD τ).loc main_arg8) :=
  Eq.trans (W4_of_ne m ρ c main_arg8 (by decide)) (W3_arg8 m ρ c)
theorem W5_arg8 : W5 (F := Ideal) m ρ c (Proc.devRef .tc main_arg8) = m ((c : Thread nD τ).loc main_arg8) :=
  Eq.trans (by host_keeps hostOps2) (W4_arg8 m ρ c)
theorem W6_arg8 : W6 (F := Ideal) m ρ c (Proc.devRef .tc main_arg8) = m ((c : Thread nD τ).loc main_arg8) :=
  Eq.trans (W6_of_ne m ρ c main_arg8 (by decide)) (W5_arg8 m ρ c)
theorem W7_arg8 : W7 (F := Ideal) m ρ c (Proc.devRef .tc main_arg8) = m ((c : Thread nD τ).loc main_arg8) :=
  Eq.trans (by host_keeps hostOps3) (W6_arg8 m ρ c)
theorem W8_arg8 : W8 (F := Ideal) m ρ c (Proc.devRef .tc main_arg8) = m ((c : Thread nD τ).loc main_arg8) :=
  Eq.trans (W8_of_ne m ρ c main_arg8 (by decide)) (W7_arg8 m ρ c)
theorem W9_arg8 : W9 (F := Ideal) m ρ c (Proc.devRef .tc main_arg8) = m ((c : Thread nD τ).loc main_arg8) :=
  Eq.trans (by host_keeps hostOps4) (W8_arg8 m ρ c)
theorem W0_arg9 : W0 (F := Ideal) m ρ c (Proc.devRef .tc main_arg9) = m ((c : Thread nD τ).loc main_arg9) := rfl
theorem W1_arg9 : W1 (F := Ideal) m ρ c (Proc.devRef .tc main_arg9) = m ((c : Thread nD τ).loc main_arg9) :=
  Eq.trans (by host_keeps hostOps0) (W0_arg9 m ρ c)
theorem W2_arg9 : W2 (F := Ideal) m ρ c (Proc.devRef .tc main_arg9) = m ((c : Thread nD τ).loc main_arg9) :=
  Eq.trans (W2_of_ne m ρ c main_arg9 (by decide)) (W1_arg9 m ρ c)
theorem W3_arg9 : W3 (F := Ideal) m ρ c (Proc.devRef .tc main_arg9) = m ((c : Thread nD τ).loc main_arg9) :=
  Eq.trans (by host_keeps hostOps1) (W2_arg9 m ρ c)
theorem W4_arg9 : W4 (F := Ideal) m ρ c (Proc.devRef .tc main_arg9) = m ((c : Thread nD τ).loc main_arg9) :=
  Eq.trans (W4_of_ne m ρ c main_arg9 (by decide)) (W3_arg9 m ρ c)
theorem W5_arg9 : W5 (F := Ideal) m ρ c (Proc.devRef .tc main_arg9) = m ((c : Thread nD τ).loc main_arg9) :=
  Eq.trans (by host_keeps hostOps2) (W4_arg9 m ρ c)
theorem W6_arg9 : W6 (F := Ideal) m ρ c (Proc.devRef .tc main_arg9) = m ((c : Thread nD τ).loc main_arg9) :=
  Eq.trans (W6_of_ne m ρ c main_arg9 (by decide)) (W5_arg9 m ρ c)
theorem W7_arg9 : W7 (F := Ideal) m ρ c (Proc.devRef .tc main_arg9) = m ((c : Thread nD τ).loc main_arg9) :=
  Eq.trans (by host_keeps hostOps3) (W6_arg9 m ρ c)
theorem W8_arg9 : W8 (F := Ideal) m ρ c (Proc.devRef .tc main_arg9) = m ((c : Thread nD τ).loc main_arg9) :=
  Eq.trans (W8_of_ne m ρ c main_arg9 (by decide)) (W7_arg9 m ρ c)
theorem W9_arg9 : W9 (F := Ideal) m ρ c (Proc.devRef .tc main_arg9) = m ((c : Thread nD τ).loc main_arg9) :=
  Eq.trans (by host_keeps hostOps4) (W8_arg9 m ρ c)
theorem W10_arg9 : W10 (F := Ideal) m ρ c (Proc.devRef .tc main_arg9) = m ((c : Thread nD τ).loc main_arg9) :=
  Eq.trans (W10_of_ne m ρ c main_arg9 (by decide)) (W9_arg9 m ρ c)

/-! ## After the stretch that computes the graph's columns and factor -/

theorem W9_v43 : W9 (F := Ideal) m ρ c (Proc.devRef .tc main_v43) = srcOf (m ((c : Thread nD τ).loc main_arg3)) := by
  dsimp only [W9, hostOps4]; after_results; rw [W8_arg3 m ρ c]; rfl
theorem W9_v45 : W9 (F := Ideal) m ρ c (Proc.devRef .tc main_v45) = dstOf (m ((c : Thread nD τ).loc main_arg3)) := by
  dsimp only [W9, hostOps4]; after_results; rw [W8_arg3 m ρ c]; rfl
theorem W9_v53 : W9 (F := Ideal) m ρ c (Proc.devRef .tc main_v53) = factorOf (m ((c : Thread nD τ).loc main_arg3)) := by
  dsimp only [W9, hostOps4]; after_results; rw [W8_arg3 m ρ c]; rfl
theorem W9_v54 : W9 (F := Ideal) m ρ c (Proc.devRef .tc main_v54) = shapeCast S50000x1 (factorOf (m ((c : Thread nD τ).loc main_arg3))) Facts₀.shapeCasts_S50000_S50000x1 := by
  dsimp only [W9, hostOps4]; after_results; rw [W8_arg3 m ρ c]; rfl

/-! ## After the product-and-scale call -/

theorem W10_v43 : W10 (F := Ideal) m ρ c (Proc.devRef .tc main_v43) = srcOf (m ((c : Thread nD τ).loc main_arg3)) :=
  Eq.trans (W10_of_ne m ρ c main_v43 (by decide)) (W9_v43 m ρ c)
theorem W10_v45 : W10 (F := Ideal) m ρ c (Proc.devRef .tc main_v45) = dstOf (m ((c : Thread nD τ).loc main_arg3)) :=
  Eq.trans (W10_of_ne m ρ c main_v45 (by decide)) (W9_v45 m ρ c)
theorem W10_v53 : W10 (F := Ideal) m ρ c (Proc.devRef .tc main_v53) = factorOf (m ((c : Thread nD τ).loc main_arg3)) :=
  Eq.trans (W10_of_ne m ρ c main_v53 (by decide)) (W9_v53 m ρ c)

/-- The call's output: the scaled features. -/
theorem W10_v55 : (W10 (F := Ideal) m ρ c (Proc.devRef .tc main_v55) : FVec Ideal S50000x128 .f32)
    = fun i => feat (m ((c : Thread nD τ).loc main_arg2)) (m ((c : Thread nD τ).loc main_arg8)) i * factorOf (m ((c : Thread nD τ).loc main_arg3)) (ix1 (i 0)) := by
  funext i
  obtain ⟨p, q, rfl⟩ : ∃ (p : Fin 50000) (q : Fin 128), i = ix2 p q := ⟨i 0, i 1, eq_ix2 i⟩
  refine (congrFun (W10_arr m ρ c 3) (ix2 p q)).trans ?_
  refine (scale4_at (V9 m ρ) c p q _ _ _ (W9_arg2 m ρ c).symm (W9_arg8 m ρ c).symm (W9_v54 m ρ c).symm).trans ?_
  rw [shapeCast_a_a1_apply]
  rfl

/-! ## After the stretch that gathers and adds up -/

set_option maxHeartbeats 2000000 in
theorem W11_v65 : W11 (F := Ideal) m ρ c (Proc.devRef .tc main_v65)
    = Host.scatterAdd (F := Ideal) scatter_S50000x128_S600000x1_S600000x128_1_0_0_1 zeros128 (colOf (dstOf (m ((c : Thread nD τ).loc main_arg3))))
        (Host.gather gather_S50000x128_S600000x1_S600000x128_1_0_n_n_0_1_1128 (W10 (F := Ideal) m ρ c (Proc.devRef .tc main_v55)) (wrapColOf (srcOf (m ((c : Thread nD τ).loc main_arg3))))) := by
  dsimp only [W11, hostOps5]; after_results; rw [W10_v43 m ρ c, W10_v45 m ρ c]; rfl
theorem W11_v66 : W11 (F := Ideal) m ρ c (Proc.devRef .tc main_v66) = shapeCast S50000x1 (factorOf (m ((c : Thread nD τ).loc main_arg3))) Facts₀.shapeCasts_S50000_S50000x1 := by
  dsimp only [W11, hostOps5]; after_results; rw [W10_v53 m ρ c]; rfl
theorem W11_v67 : W11 (F := Ideal) m ρ c (Proc.devRef .tc main_v67)
    = shapeCast S1x128 (m ((c : Thread nD τ).loc main_arg9)) Facts₀.shapeCasts_S128_S1x128 := by
  dsimp only [W11, hostOps5]; after_results; rw [W10_arg9 m ρ c]; rfl
theorem W11_v55 : W11 (F := Ideal) m ρ c (Proc.devRef .tc main_v55) = W10 (F := Ideal) m ρ c (Proc.devRef .tc main_v55) := by
  host_keeps hostOps5

/-! ## After the combine call -/

/-- THE HIDDEN LAYER of the second graph, as the kernel's program leaves it: the layer with the factor applied per node. -/
theorem hidden_b : (W12 (F := Ideal) m ρ c (Proc.devRef .tc main_v68) : FVec Ideal S50000x128 .f32)
    = scaledLayer scatter_S50000x128_S600000x1_S600000x128_1_0_0_1 gather_S50000x128_S600000x1_S600000x128_1_0_n_n_0_1_1128 true
        (feat (m ((c : Thread nD τ).loc main_arg2)) (m ((c : Thread nD τ).loc main_arg8))) (factorOf (m ((c : Thread nD τ).loc main_arg3))) (m ((c : Thread nD τ).loc main_arg9)) zeros128 (wrapColOf (srcOf (m ((c : Thread nD τ).loc main_arg3)))) (colOf (dstOf (m ((c : Thread nD τ).loc main_arg3)))) := by
  funext i
  obtain ⟨p, q, rfl⟩ : ∃ (p : Fin 50000) (q : Fin 128), i = ix2 p q := ⟨i 0, i 1, eq_ix2 i⟩
  refine (congrFun (W12_arr m ρ c 4) (ix2 p q)).trans ?_
  refine (combine5_at (V11 m ρ) c p q _ _ _ _ (W11_v65 m ρ c).symm ((W11_v55 m ρ c).trans (W10_v55 m ρ c)).symm
    (W11_v66 m ρ c).symm (W11_v67 m ρ c).symm).trans ?_
  rw [shapeCast_a_a1_apply, shapeCast_a_1a_apply, W10_v55 m ρ c]
  rfl

end Cert.KernelIdeal.Fold

end
-- ==== Proof.ScaleCall6.lean ====
/-
  The array a matrix-product-and-scale call leaves (call 6): the grid's ten points each write rows 5000·t … 5000·t+4999 of the
  [50000, 64] output, and those blocks tile it; row p of the output is row p of the feature matrix times the whole weight
  matrix, every entry then multiplied by the per-node factor of row p. So entry (p, q) of the array after the call is
  (Σ_k x[p, k] · W[k, q]) · d[p, 0]  of the arrays the call finds (changes of float format are the identity on the
  extended reals; the accumulator starts at zero).
-/
import proofs.«119174_j20590073217487_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«119174_j20590073217487_2_alg».proof.Proof.LibPlainMatmul
set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The block offsets of a whole-block access are all zero. -/
theorem zero_offsets6 : (![0, 0] : Fin 2 → Nat) = fun _ => 0 := funext fun a => by fin_cases a <;> rfl

/-- A [5000, 1] column laid along the columns of a [5000, 64] matrix reads, at (r, e), the column's entry of row r. -/
theorem column_broadcast6 (d : FVec Ideal S5000x1 .f32) (h : S5000x1.Broadcasts S5000x64) (r : Fin 5000) (e : Fin 64) :
    broadcastTo S5000x64 d h (ix2 r e) = d (ix2 r (0 : Fin 1)) := by
  refine broadcastTo_apply d h (ix2 r e) (ix2 r (0 : Fin 1)) fun ax => ?_
  match ax with
  | ⟨0, _⟩ => rfl
  | ⟨1, _⟩ => rfl

/-- The body's arithmetic at an entry: the row of the left block times the column of the right block (the changes of
    float format are the identity, the accumulator is zero), times the row's factor. -/
theorem payload6_at (x : FVec Ideal S5000x128 .f32) (w : FVec Ideal S128x64 .f32) (d : FVec Ideal S5000x1 .f32) (r : Fin 5000) (e : Fin 64) :
    k6_pay1 (F := Ideal) x w d (ix2 r e) = (∑ k : Fin 128, x (ix2 r k) * w (ix2 k e)) * d (ix2 r (0 : Fin 1)) := by
  unfold k6_pay1
  rw [mulf_apply]
  simp only [shapeCast_self, matmul]
  rw [column_broadcast6]
  rw [matmul_plain_zero_apply dot_S5000x128_S128x64_S5000x64_1_0_0_1_n_n rfl]
  rfl

/-- The whole output as one function of the three arrays: entry (p, q) is (Σ_k X[p, k] · W[k, q]) · D[p, 0]. -/
def scaledProduct6 (X : FVec Ideal S50000x128 .f32) (W : FVec Ideal S128x64 .f32) (D : FVec Ideal S50000x1 .f32) : FVec Ideal S50000x64 .f32 :=
  fun i => (∑ k : Fin 128, X (ix2 (i 0) k) * W (ix2 k (i 1))) * D (ix2 (i 0) (0 : Fin 1))

/-- Over variables: when the left block holds rows 5000·b … of X, the right block all of W and the factor block rows
    5000·b … of D, the body's arithmetic at (r, e) is the whole-array function at (5000·b + r, e). -/
theorem block_value6 (X : FVec Ideal S50000x128 .f32) (W : FVec Ideal S128x64 .f32) (D : FVec Ideal S50000x1 .f32)
    (x : FVec Ideal S5000x128 .f32) (w : FVec Ideal S128x64 .f32) (d : FVec Ideal S5000x1 .f32) (b : Nat) (r : Fin 5000) (e : Fin 64)
    (h : b * 5000 + r.val < 50000)
    (hx : ∀ k : Fin 128, x (ix2 r k) = X (ix2 ⟨b * 5000 + r.val, h⟩ k))
    (hw : ∀ k : Fin 128, w (ix2 k e) = W (ix2 k e))
    (hd : d (ix2 r (0 : Fin 1)) = D (ix2 ⟨b * 5000 + r.val, h⟩ (0 : Fin 1))) :
    k6_pay1 (F := Ideal) x w d (ix2 r e) = scaledProduct6 X W D (ix2 ⟨b * 5000 + r.val, h⟩ e) := by
  rw [payload6_at, hd]
  show _ = (∑ k : Fin 128, X (ix2 ⟨b * 5000 + r.val, h⟩ k) * W (ix2 k e)) * D (ix2 ⟨b * 5000 + r.val, h⟩ (0 : Fin 1))
  congr 1
  exact Finset.sum_congr rfl fun k _ => by rw [hx k, hw k]

/-- The printed index maps, decided over the grid: at point t the row-tiled windows sit at block row t, block column 0,
    and the weight window at block (0, 0). -/
theorem index_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The left window's block at point t is rows 5000·t … of its array. -/
theorem left_block6 (c : Dev nD) (t : Fin cfg6.N) (r : Fin 5000) (k : Fin 128) (h : t.val * 5000 + r.val < 50000) :
    (iblk6 (F := Ideal) V c 0 t : FVec Ideal S5000x128 .f32) (ix2 r k)
      = (V c main_v68 : FVec Ideal S50000x128 .f32) (ix2 ⟨t.val * 5000 + r.val, h⟩ k) := by
  obtain ⟨e0, e1, -⟩ := index_facts6 t
  unfold iblk6
  rw [View.read_apply]
  show V c main_v68 _ = V c main_v68 _
  congr 1
  funext a
  apply Fin.ext
  match a with
  | ⟨0, _⟩ => show win6_0.index t (0 : Fin 2) * 5000 + 1 * r.val = t.val * 5000 + r.val; rw [e0]; omega
  | ⟨1, _⟩ => show win6_0.index t (1 : Fin 2) * 128 + 1 * k.val = k.val; rw [e1]; omega

/-- The weight window's block is the whole weight matrix at every point. -/
theorem right_block6 (c : Dev nD) (t : Fin cfg6.N) (k : Fin 128) (e : Fin 64) :
    (iblk6 (F := Ideal) V c 1 t : FVec Ideal S128x64 .f32) (ix2 k e) = (V c main_arg10 : FVec Ideal S128x64 .f32) (ix2 k e) := by
  obtain ⟨-, -, e2, e3, -⟩ := index_facts6 t
  unfold iblk6
  rw [View.read_apply]
  show V c main_arg10 _ = V c main_arg10 _
  congr 1
  funext a
  apply Fin.ext
  match a with
  | ⟨0, _⟩ => show win6_1.index t (0 : Fin 2) * 128 + 1 * k.val = k.val; rw [e2]; omega
  | ⟨1, _⟩ => show win6_1.index t (1 : Fin 2) * 64 + 1 * e.val = e.val; rw [e3]; omega

/-- The factor window's block at point t is rows 5000·t … of the factor column. -/
theorem factor_block6 (c : Dev nD) (t : Fin cfg6.N) (r : Fin 5000) (h : t.val * 5000 + r.val < 50000) :
    (iblk6 (F := Ideal) V c 2 t : FVec Ideal S5000x1 .f32) (ix2 r (0 : Fin 1))
      = (V c main_v69 : FVec Ideal S50000x1 .f32) (ix2 ⟨t.val * 5000 + r.val, h⟩ (0 : Fin 1)) := by
  obtain ⟨-, -, -, -, e4, e5, -⟩ := index_facts6 t
  unfold iblk6
  rw [View.read_apply]
  show V c main_v69 _ = V c main_v69 _
  congr 1
  funext a
  apply Fin.ext
  match a with
  | ⟨0, _⟩ => show win6_2.index t (0 : Fin 2) * 5000 + 1 * r.val = t.val * 5000 + r.val; rw [e4]; omega
  | ⟨1, _⟩ => show win6_2.index t (1 : Fin 2) * 1 + 1 * (0 : Fin 1).val = (0 : Fin 1).val; rw [e5]; rfl

/-- What point t writes back is block t of the whole-array function of the arrays the call finds. -/
theorem written_back6 (c : Dev nD) (t : Fin cfg6.N) :
    (dat6 (F := Ideal) V c).flushed 3 t
      = ((cfg6.win 3).blk t).view.read (Elt Ideal) (scaledProduct6 (V c main_v68) (V c main_arg10) (V c main_v69)) := by
  show (cfg6.win 3).cut (grid6.coords t) ((dat6 V c).after 3 t) = _
  rw [after6_3]
  unfold out6_3
  rw [View.canon_unit_zero zero_offsets6]
  simp only [View.ld_unit_zero (S := S5000x128) zero_offsets6, View.ld_unit_zero (S := S128x64) zero_offsets6,
    View.ld_unit_zero (S := S5000x1) zero_offsets6]
  funext j
  have hN : t.val < 10 := by have h1 := t.isLt; have h2 : cfg6.N = 10 := N_6; omega
  have hr : (j 0).val < 5000 := (j 0).isLt
  have he : (j 1).val < 64 := (j 1).isLt
  obtain ⟨-, -, -, -, -, -, e6, e7⟩ := index_facts6 t
  have hj : (cfg6.win 3).xinj (grid6.coords t) j = ix2 (⟨(j 0).val, hr⟩ : Fin 5000) (⟨(j 1).val, he⟩ : Fin 64) :=
    funext fun a => by
      match a with
      | ⟨0, _⟩ => rfl
      | ⟨1, _⟩ => rfl
  show k6_pay1 (iblk6 V c 0 t) (iblk6 V c 1 t) (iblk6 V c 2 t) ((cfg6.win 3).xinj (grid6.coords t) j) = _
  rw [hj]
  refine (block_value6 (V c main_v68) (V c main_arg10) (V c main_v69) (iblk6 V c 0 t) (iblk6 V c 1 t) (iblk6 V c 2 t)
    t.val ⟨(j 0).val, hr⟩ ⟨(j 1).val, he⟩ (by show t.val * 5000 + (j 0).val < 50000; omega)
    (fun k => left_block6 V c t _ k _) (fun k => right_block6 V c t k _) (factor_block6 V c t _ _)).trans ?_
  rw [View.read_apply]
  show scaledProduct6 _ _ _ _ = scaledProduct6 _ _ _ _
  congr 1
  funext a
  apply Fin.ext
  match a with
  | ⟨0, _⟩ => show t.val * 5000 + (j 0).val = win6_3.index t (0 : Fin 2) * 5000 + 1 * (j 0).val; rw [e6]; omega
  | ⟨1, _⟩ => show (j 1).val = win6_3.index t (1 : Fin 2) * 64 + 1 * (j 1).val; rw [e7]; omega

/-- An index of the output array is in point t's block iff each coordinate is in the block's range on its axis. -/
theorem mem_block6 (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v70).slice (win6_3.rect t)).set ↔ _
  rw [View.set_slice_whole, Rect.mem_set_unit]
  exact Iff.rfl

/-- The blocks tile the output array: row p lies in the block of point p / 5000. -/
theorem blocks_cover6 (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, -, -, e6, e7⟩ := index_facts6 t
  refine ⟨t, flush6_3 t, ?_⟩
  rw [mem_block6]
  intro a
  match a with
  | ⟨0, _⟩ => show win6_3.index t (0 : Fin 2) * 5000 ≤ (i 0).val ∧ (i 0).val < win6_3.index t (0 : Fin 2) * 5000 + 5000; rw [e6, ht]; omega
  | ⟨1, _⟩ => show win6_3.index t (1 : Fin 2) * 64 ≤ (i 1).val ∧ (i 1).val < win6_3.index t (1 : Fin 2) * 64 + 64; rw [e7]; omega

/-- Call 6's output array after the call is the whole-array function of the arrays the call finds: every point writes
    back its block of that function, and the blocks cover the array. -/
theorem scale6_array (c : Dev nD) :
    (dat6 (F := Ideal) V c).arrAt 3 cfg6.N = scaledProduct6 (V c main_v68) (V c main_arg10) (V c main_v69) :=
  (dat6 (F := Ideal) V c).arrAt_eq_of_cover 3 (scaledProduct6 (V c main_v68) (V c main_arg10) (V c main_v69))
    (fun t _ => written_back6 V c t) (fun i => blocks_cover6 i)

/-- Entry (p, q) of call 6's output array after the call, from the arrays the call finds. -/
theorem scale6_at (c : Dev nD) (p : Fin 50000) (q : Fin 64)
    (x : FVec Ideal S50000x128 .f32) (W : FVec Ideal S128x64 .f32) (d : FVec Ideal S50000x1 .f32)
    (hx : x = V c main_v68) (hW : W = V c main_arg10) (hd : d = V c main_v69) :
    ((dat6 (F := Ideal) V c).arrAt 3 cfg6.N (ix2 p q) : EReal)
      = (∑ k : Fin 128, x (ix2 p k) * W (ix2 k q)) * d (ix2 p (0 : Fin 1)) := by
  subst hx hW hd
  exact congrFun (scale6_array V c) (ix2 p q)

end Cert.KernelIdeal.RegionValue

end
-- ==== Proof.CombineCall7.lean ====
/-
  The array a combine call leaves (call 7): the grid's ten points each write rows 5000·t … 5000·t+4999 of the [50000, 64]
  output, and those blocks tile it; the body is pointwise in the row and column, reading the per-node factor from a
  [50000, 1] column and the bias from a [1, 64] row. So entry (p, q) of the array after the call is
  d[p, 0] · (a[p, q] + h[p, q]) + b[0, q]  of the arrays the call finds.
-/
import proofs.«119174_j20590073217487_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## The body's arithmetic at one entry of a tile -/

/-- A [a, 1] column broadcast to [a, b] reads, at (p, c), the column's entry p. -/
theorem colBroadcast7_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (r, e) of what the body stores, from the four tiles it loads: the factor's entry of row r times the sum of the
    two feature tiles' entries, plus the bias row's entry e. -/
theorem tile7_at (d : Vec Ideal S5000x1 .f32) (a h : Vec Ideal S5000x64 .f32) (b : Vec Ideal S1x64 .f32) (r : Fin 5000) (e : Fin 64) :
    k7_pay1 (F := Ideal) d a h b (ix2 r e) = d (ix2 r (0 : Fin 1)) * (a (ix2 r e) + h (ix2 r e)) + b (ix2 (0 : Fin 1) e) := by
  unfold k7_pay1
  simp only [shapeCast_self]
  rw [addf_apply, mulf_apply, addf_apply, broadcastTo_1b_ab_apply, colBroadcast7_apply]

/-! ## The whole array the call computes -/

/-- Entry i of the combined array, from the four arrays: row i₀ of the factor column, entry i of the two feature arrays,
    column i₁ of the bias row. -/
def combined7 (A H : S50000x64.Idx → Elt Ideal .f32) (D : S50000x1.Idx → Elt Ideal .f32) (B : S1x64.Idx → Elt Ideal .f32) :
    S50000x64.Idx → Elt Ideal .f32 :=
  fun i => D (ix2 (⟨(i 0).val, idx2_lt0 i⟩ : Fin 50000) (0 : Fin 1)) * (A i + H i) + B (ix2 (0 : Fin 1) (⟨(i 1).val, idx2_lt1 i⟩ : Fin 64))

theorem combined7_ix2 (A H : S50000x64.Idx → Elt Ideal .f32) (D : S50000x1.Idx → Elt Ideal .f32) (B : S1x64.Idx → Elt Ideal .f32)
    (p : Fin 50000) (q : Fin 64) :
    combined7 A H D B (ix2 p q) = D (ix2 p (0 : Fin 1)) * (A (ix2 p q) + H (ix2 p q)) + B (ix2 (0 : Fin 1) q) := rfl

/-- Entry y of the stored tile is entry i of the combined array, once each loaded tile's entry is the corresponding
    array's entry. -/
theorem tile7_eq_combined (d : Vec Ideal S5000x1 .f32) (a h : Vec Ideal S5000x64 .f32) (b : Vec Ideal S1x64 .f32)
    (A H : S50000x64.Idx → Elt Ideal .f32) (D : S50000x1.Idx → Elt Ideal .f32) (B : S1x64.Idx → Elt Ideal .f32)
    (y : S5000x64.Idx) (i : S50000x64.Idx)
    (hd : d (ix2 (⟨(y 0).val, idx2_lt0 y⟩ : Fin 5000) (0 : Fin 1)) = D (ix2 (⟨(i 0).val, idx2_lt0 i⟩ : Fin 50000) (0 : Fin 1)))
    (ha : a y = A i) (hh : h y = H i)
    (hb : b (ix2 (0 : Fin 1) (⟨(y 1).val, idx2_lt1 y⟩ : Fin 64)) = B (ix2 (0 : Fin 1) (⟨(i 1).val, idx2_lt1 i⟩ : Fin 64))) :
    k7_pay1 (F := Ideal) d a h b y = combined7 A H D B i := by
  obtain ⟨r, e, rfl⟩ : ∃ (r : Fin 5000) (e : Fin 64), y = ix2 r e := ⟨y 0, y 1, eq_ix2 y⟩
  rw [tile7_at]
  unfold combined7
  rw [← hd, ← ha, ← hh, ← hb]

/-! ## Where each window's block sits in its array -/

theorem zeroOffsets7 : (![0, 0] : Fin 2 → Nat) = fun _ => 0 := funext fun a => by fin_cases a <;> rfl

/-- The printed index maps, decided over the ten grid points: the three row-tiled inputs and the output take row block t,
    column block 0; the bias row's block is block (0, 0) at every point. -/
theorem blockIndices7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Entry x of the aggregate window's block at point t is entry (5000 t + x₀, x₁) of its array. -/
theorem aggBlock7_apply (c : Dev nD) (t : Fin cfg7.N) (x : S5000x64.Idx) (i : S50000x64.Idx)
    (h0 : (i 0).val = 5000 * t.val + (x 0).val) (h1 : (i 1).val = (x 1).val) :
    (iblk7 (F := Ideal) V c 0 t : Vec Ideal S5000x64 .f32) x = (V c main_v80 : S50000x64.Idx → Elt Ideal .f32) i := by
  obtain ⟨f00, f01, -, -, -, -, -, -, -, -⟩ := blockIndices7 t
  unfold iblk7
  rw [View.read_apply]
  show V c main_v80 _ = V c main_v80 _
  congr 1
  funext a
  apply Fin.ext
  match a with
  | ⟨0, _⟩ => show win7_0.index t (0 : Fin 2) * 5000 + 1 * (x 0).val = (i 0).val; rw [f00, h0]; omega
  | ⟨1, _⟩ => show win7_0.index t (1 : Fin 2) * 64 + 1 * (x 1).val = (i 1).val; rw [f01, h1]; omega

/-- Entry x of the feature window's block at point t is entry (5000 t + x₀, x₁) of its array. -/
theorem featBlock7_apply (c : Dev nD) (t : Fin cfg7.N) (x : S5000x64.Idx) (i : S50000x64.Idx)
    (h0 : (i 0).val = 5000 * t.val + (x 0).val) (h1 : (i 1).val = (x 1).val) :
    (iblk7 (F := Ideal) V c 1 t : Vec Ideal S5000x64 .f32) x = (V c main_v70 : S50000x64.Idx → Elt Ideal .f32) i := by
  obtain ⟨-, -, f10, f11, -, -, -, -, -, -⟩ := blockIndices7 t
  unfold iblk7
  rw [View.read_apply]
  show V c main_v70 _ = V c main_v70 _
  congr 1
  funext a
  apply Fin.ext
  match a with
  | ⟨0, _⟩ => show win7_1.index t (0 : Fin 2) * 5000 + 1 * (x 0).val = (i 0).val; rw [f10, h0]; omega
  | ⟨1, _⟩ => show win7_1.index t (1 : Fin 2) * 64 + 1 * (x 1).val = (i 1).val; rw [f11, h1]; omega

/-- Entry x of the factor window's block at point t is entry (5000 t + x₀, x₁) of the factor column. -/
theorem factorBlock7_apply (c : Dev nD) (t : Fin cfg7.N) (x : S5000x1.Idx) (i : S50000x1.Idx)
    (h0 : (i 0).val = 5000 * t.val + (x 0).val) (h1 : (i 1).val = (x 1).val) :
    (iblk7 (F := Ideal) V c 2 t : Vec Ideal S5000x1 .f32) x = (V c main_v81 : S50000x1.Idx → Elt Ideal .f32) i := by
  obtain ⟨-, -, -, -, f20, f21, -, -, -, -⟩ := blockIndices7 t
  unfold iblk7
  rw [View.read_apply]
  show V c main_v81 _ = V c main_v81 _
  congr 1
  funext a
  apply Fin.ext
  match a with
  | ⟨0, _⟩ => show win7_2.index t (0 : Fin 2) * 5000 + 1 * (x 0).val = (i 0).val; rw [f20, h0]; omega
  | ⟨1, _⟩ => show win7_2.index t (1 : Fin 2) * 1 + 1 * (x 1).val = (i 1).val; rw [f21, h1]; omega

/-- The bias window's block at every point is the whole bias row. -/
theorem biasBlock7_apply (c : Dev nD) (t : Fin cfg7.N) (x : S1x64.Idx) (i : S1x64.Idx)
    (h0 : (i 0).val = (x 0).val) (h1 : (i 1).val = (x 1).val) :
    (iblk7 (F := Ideal) V c 3 t : Vec Ideal S1x64 .f32) x = (V c main_v82 : S1x64.Idx → Elt Ideal .f32) i := by
  obtain ⟨-, -, -, -, -, -, f30, f31, -, -⟩ := blockIndices7 t
  unfold iblk7
  rw [View.read_apply]
  show V c main_v82 _ = V c main_v82 _
  congr 1
  funext a
  apply Fin.ext
  match a with
  | ⟨0, _⟩ => show win7_3.index t (0 : Fin 2) * 1 + 1 * (x 0).val = (i 0).val; rw [f30, h0]; omega
  | ⟨1, _⟩ => show win7_3.index t (1 : Fin 2) * 64 + 1 * (x 1).val = (i 1).val; rw [f31, h1]; omega

/-! ## What a point writes back, and the array the ten blocks make -/

/-- What point t writes back is block t of the combined array of the arrays the call finds. -/
theorem written7_eq (c : Dev nD) (t : Fin cfg7.N) :
    (dat7 (F := Ideal) V c).flushed 4 t
      = ((cfg7.win 4).blk t).view.read (Elt Ideal) (combined7 (V c main_v80) (V c main_v70) (V c main_v81) (V c main_v82)) := by
  show (cfg7.win 4).cut (grid7.coords t) ((dat7 V c).after 4 t) = _
  rw [after7_4]
  unfold out7_4
  rw [View.canon_unit_zero zeroOffsets7]
  simp only [View.ld_unit_zero (S := S5000x64) zeroOffsets7, View.ld_unit_zero (S := S5000x1) zeroOffsets7,
    View.ld_unit_zero (S := S1x64) zeroOffsets7]
  obtain ⟨-, -, -, -, -, -, -, -, f40, f41⟩ := blockIndices7 t
  funext j
  have e0 : ((((cfg7.win 4).blk t).view.emb j) 0).val = 5000 * t.val + (j 0).val := by
    show win7_4.index t (0 : Fin 2) * 5000 + 1 * (j 0).val = _; rw [f40]; omega
  have e1 : ((((cfg7.win 4).blk t).view.emb j) 1).val = (j 1).val := by
    show win7_4.index t (1 : Fin 2) * 64 + 1 * (j 1).val = _; rw [f41]; omega
  refine tile7_eq_combined (iblk7 V c 2 t) (iblk7 V c 0 t) (iblk7 V c 1 t) (iblk7 V c 3 t)
    (V c main_v80) (V c main_v70) (V c main_v81) (V c main_v82) j (((cfg7.win 4).blk t).view.emb j) ?_ ?_ ?_ ?_
  · exact factorBlock7_apply V c t _ _ e0 rfl
  · exact aggBlock7_apply V c t j _ e0 e1
  · exact featBlock7_apply V c t j _ e0 e1
  · exact biasBlock7_apply V c t _ _ rfl e1

/-- An index of the output array is in point t's block iff each coordinate is in the block's range on its axis. -/
theorem mem_block7 (t : Fin cfg7.N) (i : S50000x64.Idx) :
    i ∈ ((cfg7.win 4).blk t).view.set ↔ ∀ a : Fin 2, win7_4.index t a * S5000x64.size a ≤ (i a).val
      ∧ (i a).val < win7_4.index t a * S5000x64.size a + S5000x64.size a := by
  show i ∈ ((View.whole main_v83).slice (win7_4.rect t)).set ↔ _
  rw [View.set_slice_whole, Rect.mem_set_unit]
  exact Iff.rfl

/-- Every entry of the output array is in some point's block: row p is in the block of point p / 5000. -/
theorem blocks7_cover (i : S50000x64.Idx) :
    ∃ t : Fin cfg7.N, (cfg7.win 4).flush t = true ∧ i ∈ ((cfg7.win 4).blk t).view.set := by
  have hi0 : (i 0).val < 50000 := idx2_lt0 i
  have hi1 : (i 1).val < 64 := idx2_lt1 i
  obtain ⟨t, ht⟩ : ∃ t : Fin cfg7.N, t.val = (i 0).val / 5000 :=
    ⟨⟨(i 0).val / 5000, by show (i 0).val / 5000 < 10; omega⟩, rfl⟩
  obtain ⟨-, -, -, -, -, -, -, -, f40, f41⟩ := blockIndices7 t
  refine ⟨t, flush7_4 t, ?_⟩
  rw [mem_block7]
  intro a
  match a with
  | ⟨0, _⟩ =>
    show win7_4.index t (0 : Fin 2) * 5000 ≤ (i 0).val ∧ (i 0).val < win7_4.index t (0 : Fin 2) * 5000 + 5000
    rw [f40, ht]; omega
  | ⟨1, _⟩ =>
    show win7_4.index t (1 : Fin 2) * 64 ≤ (i 1).val ∧ (i 1).val < win7_4.index t (1 : Fin 2) * 64 + 64
    rw [f41]; omega

/-- The output array after the call is the combined array of the arrays the call finds. -/
theorem array7_eq (c : Dev nD) :
    (dat7 (F := Ideal) V c).arrAt 4 cfg7.N = combined7 (V c main_v80) (V c main_v70) (V c main_v81) (V c main_v82) :=
  (dat7 (F := Ideal) V c).arrAt_eq_of_cover 4 (combined7 (V c main_v80) (V c main_v70) (V c main_v81) (V c main_v82))
    (fun t _ => written7_eq V c t) blocks7_cover

/-- Entry (p, q) of call 7's output array after the call, from the arrays the call finds. -/
theorem combine7_at (c : Dev nD) (p : Fin 50000) (q : Fin 64)
    (a h : FVec Ideal S50000x64 .f32) (d : FVec Ideal S50000x1 .f32) (b : FVec Ideal S1x64 .f32)
    (ha : a = V c main_v80) (hh : h = V c main_v70) (hd : d = V c main_v81) (hb : b = V c main_v82) :
    ((dat7 (F := Ideal) V c).arrAt 4 cfg7.N (ix2 p q) : EReal)
      = d (ix2 p (0 : Fin 1)) * (a (ix2 p q) + h (ix2 p q)) + b (ix2 (0 : Fin 1) q) := by
  subst ha hh hd hb
  exact (congrFun (array7_eq V c) (ix2 p q)).trans (combined7_ix2 _ _ _ _ p q)

end Cert.KernelIdeal.RegionValue

end
-- ==== Proof.FoldOutB.lean ====
/-
  The second graph's output layer, read off the fold through @main, and the graph's result.

  The hidden layer's array enters a second product-and-scale call with the second weight matrix; the next stretch
  gathers and adds up; the second combine call (no positive part) finishes the layer. The result buffer is not written
  afterwards, so the last boundary holds it: the output layer over the hidden layer, both with the factor applied per
  node.
-/
import proofs.«119174_j20590073217487_2_alg».proof.Proof.Gen.KernelIdeal.Frame
import proofs.«119174_j20590073217487_2_alg».proof.Proof.KernelParts
import proofs.«119174_j20590073217487_2_alg».proof.Proof.GcnLayer
import proofs.«119174_j20590073217487_2_alg».proof.Proof.FoldHiddenB
import proofs.«119174_j20590073217487_2_alg».proof.Proof.ScaleCall6
import proofs.«119174_j20590073217487_2_alg».proof.Proof.CombineCall7
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen Cert.KernelIdeal.Parts Cert.KernelIdeal.RegionValue Cert.GcnLayer
open scoped BigOperators

variable (m : (ℓ : Loc nD τ sig) → Buf (Elt Ideal) ℓ) (ρ : Dev nD → PrngReg) (c : Dev nD)

/-- A stretch of host operations leaves a buffer none of them writes as it was. -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments as launched, up to where this layer reads them -/

theorem W0_arg10 : W0 (F := Ideal) m ρ c (Proc.devRef .tc main_arg10) = m ((c : Thread nD τ).loc main_arg10) := rfl
theorem W1_arg10 : W1 (F := Ideal) m ρ c (Proc.devRef .tc main_arg10) = m ((c : Thread nD τ).loc main_arg10) :=
  Eq.trans (by host_keeps hostOps0) (W0_arg10 m ρ c)
theorem W2_arg10 : W2 (F := Ideal) m ρ c (Proc.devRef .tc main_arg10) = m ((c : Thread nD τ).loc main_arg10) :=
  Eq.trans (W2_of_ne m ρ c main_arg10 (by decide)) (W1_arg10 m ρ c)
theorem W3_arg10 : W3 (F := Ideal) m ρ c (Proc.devRef .tc main_arg10) = m ((c : Thread nD τ).loc main_arg10) :=
  Eq.trans (by host_keeps hostOps1) (W2_arg10 m ρ c)
theorem W4_arg10 : W4 (F := Ideal) m ρ c (Proc.devRef .tc main_arg10) = m ((c : Thread nD τ).loc main_arg10) :=
  Eq.trans (W4_of_ne m ρ c main_arg10 (by decide)) (W3_arg10 m ρ c)
theorem W5_arg10 : W5 (F := Ideal) m ρ c (Proc.devRef .tc main_arg10) = m ((c : Thread nD τ).loc main_arg10) :=
  Eq.trans (by host_keeps hostOps2) (W4_arg10 m ρ c)
theorem W6_arg10 : W6 (F := Ideal) m ρ c (Proc.devRef .tc main_arg10) = m ((c : Thread nD τ).loc main_arg10) :=
  Eq.trans (W6_of_ne m ρ c main_arg10 (by decide)) (W5_arg10 m ρ c)
theorem W7_arg10 : W7 (F := Ideal) m ρ c (Proc.devRef .tc main_arg10) = m ((c : Thread nD τ).loc main_arg10) :=
  Eq.trans (by host_keeps hostOps3) (W6_arg10 m ρ c)
theorem W8_arg10 : W8 (F := Ideal) m ρ c (Proc.devRef .tc main_arg10) = m ((c : Thread nD τ).loc main_arg10) :=
  Eq.trans (W8_of_ne m ρ c main_arg10 (by decide)) (W7_arg10 m ρ c)
theorem W9_arg10 : W9 (F := Ideal) m ρ c (Proc.devRef .tc main_arg10) = m ((c : Thread nD τ).loc main_arg10) :=
  Eq.trans (by host_keeps hostOps4) (W8_arg10 m ρ c)
theorem W10_arg10 : W10 (F := Ideal) m ρ c (Proc.devRef .tc main_arg10) = m ((c : Thread nD τ).loc main_arg10) :=
  Eq.trans (W10_of_ne m ρ c main_arg10 (by decide)) (W9_arg10 m ρ c)
theorem W11_arg10 : W11 (F := Ideal) m ρ c (Proc.devRef .tc main_arg10) = m ((c : Thread nD τ).loc main_arg10) :=
  Eq.trans (by host_keeps hostOps5) (W10_arg10 m ρ c)
theorem W12_arg10 : W12 (F := Ideal) m ρ c (Proc.devRef .tc main_arg10) = m ((c : Thread nD τ).loc main_arg10) :=
  Eq.trans (W12_of_ne m ρ c main_arg10 (by decide)) (W11_arg10 m ρ c)
theorem W13_arg10 : W13 (F := Ideal) m ρ c (Proc.devRef .tc main_arg10) = m ((c : Thread nD τ).loc main_arg10) :=
  Eq.trans (by host_keeps hostOps6) (W12_arg10 m ρ c)
theorem W0_arg11 : W0 (F := Ideal) m ρ c (Proc.devRef .tc main_arg11) = m ((c : Thread nD τ).loc main_arg11) := rfl
theorem W1_arg11 : W1 (F := Ideal) m ρ c (Proc.devRef .tc main_arg11) = m ((c : Thread nD τ).loc main_arg11) :=
  Eq.trans (by host_keeps hostOps0) (W0_arg11 m ρ c)
theorem W2_arg11 : W2 (F := Ideal) m ρ c (Proc.devRef .tc main_arg11) = m ((c : Thread nD τ).loc main_arg11) :=
  Eq.trans (W2_of_ne m ρ c main_arg11 (by decide)) (W1_arg11 m ρ c)
theorem W3_arg11 : W3 (F := Ideal) m ρ c (Proc.devRef .tc main_arg11) = m ((c : Thread nD τ).loc main_arg11) :=
  Eq.trans (by host_keeps hostOps1) (W2_arg11 m ρ c)
theorem W4_arg11 : W4 (F := Ideal) m ρ c (Proc.devRef .tc main_arg11) = m ((c : Thread nD τ).loc main_arg11) :=
  Eq.trans (W4_of_ne m ρ c main_arg11 (by decide)) (W3_arg11 m ρ c)
theorem W5_arg11 : W5 (F := Ideal) m ρ c (Proc.devRef .tc main_arg11) = m ((c : Thread nD τ).loc main_arg11) :=
  Eq.trans (by host_keeps hostOps2) (W4_arg11 m ρ c)
theorem W6_arg11 : W6 (F := Ideal) m ρ c (Proc.devRef .tc main_arg11) = m ((c : Thread nD τ).loc main_arg11) :=
  Eq.trans (W6_of_ne m ρ c main_arg11 (by decide)) (W5_arg11 m ρ c)
theorem W7_arg11 : W7 (F := Ideal) m ρ c (Proc.devRef .tc main_arg11) = m ((c : Thread nD τ).loc main_arg11) :=
  Eq.trans (by host_keeps hostOps3) (W6_arg11 m ρ c)
theorem W8_arg11 : W8 (F := Ideal) m ρ c (Proc.devRef .tc main_arg11) = m ((c : Thread nD τ).loc main_arg11) :=
  Eq.trans (W8_of_ne m ρ c main_arg11 (by decide)) (W7_arg11 m ρ c)
theorem W9_arg11 : W9 (F := Ideal) m ρ c (Proc.devRef .tc main_arg11) = m ((c : Thread nD τ).loc main_arg11) :=
  Eq.trans (by host_keeps hostOps4) (W8_arg11 m ρ c)
theorem W10_arg11 : W10 (F := Ideal) m ρ c (Proc.devRef .tc main_arg11) = m ((c : Thread nD τ).loc main_arg11) :=
  Eq.trans (W10_of_ne m ρ c main_arg11 (by decide)) (W9_arg11 m ρ c)
theorem W11_arg11 : W11 (F := Ideal) m ρ c (Proc.devRef .tc main_arg11) = m ((c : Thread nD τ).loc main_arg11) :=
  Eq.trans (by host_keeps hostOps5) (W10_arg11 m ρ c)
theorem W12_arg11 : W12 (F := Ideal) m ρ c (Proc.devRef .tc main_arg11) = m ((c : Thread nD τ).loc main_arg11) :=
  Eq.trans (W12_of_ne m ρ c main_arg11 (by decide)) (W11_arg11 m ρ c)
theorem W13_arg11 : W13 (F := Ideal) m ρ c (Proc.devRef .tc main_arg11) = m ((c : Thread nD τ).loc main_arg11) :=
  Eq.trans (by host_keeps hostOps6) (W12_arg11 m ρ c)
theorem W14_arg11 : W14 (F := Ideal) m ρ c (Proc.devRef .tc main_arg11) = m ((c : Thread nD τ).loc main_arg11) :=
  Eq.trans (W14_of_ne m ρ c main_arg11 (by decide)) (W13_arg11 m ρ c)

/-! ## The graph's columns and factor, carried to where this layer reads them -/

theorem W11_v43 : W11 (F := Ideal) m ρ c (Proc.devRef .tc main_v43) = srcOf (m ((c : Thread nD τ).loc main_arg3)) :=
  Eq.trans (by host_keeps hostOps5) (W10_v43 m ρ c)
theorem W12_v43 : W12 (F := Ideal) m ρ c (Proc.devRef .tc main_v43) = srcOf (m ((c : Thread nD τ).loc main_arg3)) :=
  Eq.trans (W12_of_ne m ρ c main_v43 (by decide)) (W11_v43 m ρ c)
theorem W13_v43 : W13 (F := Ideal) m ρ c (Proc.devRef .tc main_v43) = srcOf (m ((c : Thread nD τ).loc main_arg3)) :=
  Eq.trans (by host_keeps hostOps6) (W12_v43 m ρ c)
theorem W14_v43 : W14 (F := Ideal) m ρ c (Proc.devRef .tc main_v43) = srcOf (m ((c : Thread nD τ).loc main_arg3)) :=
  Eq.trans (W14_of_ne m ρ c main_v43 (by decide)) (W13_v43 m ρ c)
theorem W11_v45 : W11 (F := Ideal) m ρ c (Proc.devRef .tc main_v45) = dstOf (m ((c : Thread nD τ).loc main_arg3)) :=
  Eq.trans (by host_keeps hostOps5) (W10_v45 m ρ c)
theorem W12_v45 : W12 (F := Ideal) m ρ c (Proc.devRef .tc main_v45) = dstOf (m ((c : Thread nD τ).loc main_arg3)) :=
  Eq.trans (W12_of_ne m ρ c main_v45 (by decide)) (W11_v45 m ρ c)
theorem W13_v45 : W13 (F := Ideal) m ρ c (Proc.devRef .tc main_v45) = dstOf (m ((c : Thread nD τ).loc main_arg3)) :=
  Eq.trans (by host_keeps hostOps6) (W12_v45 m ρ c)
theorem W14_v45 : W14 (F := Ideal) m ρ c (Proc.devRef .tc main_v45) = dstOf (m ((c : Thread nD τ).loc main_arg3)) :=
  Eq.trans (W14_of_ne m ρ c main_v45 (by decide)) (W13_v45 m ρ c)
theorem W11_v53 : W11 (F := Ideal) m ρ c (Proc.devRef .tc main_v53) = factorOf (m ((c : Thread nD τ).loc main_arg3)) :=
  Eq.trans (by host_keeps hostOps5) (W10_v53 m ρ c)
theorem W12_v53 : W12 (F := Ideal) m ρ c (Proc.devRef .tc main_v53) = factorOf (m ((c : Thread nD τ).loc main_arg3)) :=
  Eq.trans (W12_of_ne m ρ c main_v53 (by decide)) (W11_v53 m ρ c)
theorem W13_v53 : W13 (F := Ideal) m ρ c (Proc.devRef .tc main_v53) = factorOf (m ((c : Thread nD τ).loc main_arg3)) :=
  Eq.trans (by host_keeps hostOps6) (W12_v53 m ρ c)
theorem W14_v53 : W14 (F := Ideal) m ρ c (Proc.devRef .tc main_v53) = factorOf (m ((c : Thread nD τ).loc main_arg3)) :=
  Eq.trans (W14_of_ne m ρ c main_v53 (by decide)) (W13_v53 m ρ c)

/-! ## After the one-operation stretch and the second product-and-scale call -/

theorem W13_v69 : W13 (F := Ideal) m ρ c (Proc.devRef .tc main_v69) = shapeCast S50000x1 (factorOf (m ((c : Thread nD τ).loc main_arg3))) Facts₀.shapeCasts_S50000_S50000x1 := by
  dsimp only [W13, hostOps6]; after_results; rw [W12_v53 m ρ c]; rfl
theorem W13_v68 : W13 (F := Ideal) m ρ c (Proc.devRef .tc main_v68) = W12 (F := Ideal) m ρ c (Proc.devRef .tc main_v68) := by
  host_keeps hostOps6

/-- The call's output: the hidden layer's result times the second weight matrix, scaled. -/
theorem W14_v70 : (W14 (F := Ideal) m ρ c (Proc.devRef .tc main_v70) : FVec Ideal S50000x64 .f32)
    = fun i => feat (W12 (F := Ideal) m ρ c (Proc.devRef .tc main_v68) : FVec Ideal S50000x128 .f32) (m ((c : Thread nD τ).loc main_arg10)) i * factorOf (m ((c : Thread nD τ).loc main_arg3)) (ix1 (i 0)) := by
  funext i
  obtain ⟨p, q, rfl⟩ : ∃ (p : Fin 50000) (q : Fin 64), i = ix2 p q := ⟨i 0, i 1, eq_ix2 i⟩
  refine (congrFun (W14_arr m ρ c 3) (ix2 p q)).trans ?_
  refine (scale6_at (V13 m ρ) c p q _ _ _ (W13_v68 m ρ c).symm (W13_arg10 m ρ c).symm (W13_v69 m ρ c).symm).trans ?_
  rw [shapeCast_a_a1_apply]
  rfl

/-! ## After the stretch that gathers and adds up -/

set_option maxHeartbeats 2000000 in
theorem W15_v80 : W15 (F := Ideal) m ρ c (Proc.devRef .tc main_v80)
    = Host.scatterAdd (F := Ideal) scatter_S50000x64_S600000x1_S600000x64_1_0_0_1 zeros64 (colOf (dstOf (m ((c : Thread nD τ).loc main_arg3))))
        (Host.gather gather_S50000x64_S600000x1_S600000x64_1_0_n_n_0_1_164 (W14 (F := Ideal) m ρ c (Proc.devRef .tc main_v70)) (wrapColOf (srcOf (m ((c : Thread nD τ).loc main_arg3))))) := by
  dsimp only [W15, hostOps7]; after_results; rw [W14_v43 m ρ c, W14_v45 m ρ c]; rfl
theorem W15_v81 : W15 (F := Ideal) m ρ c (Proc.devRef .tc main_v81) = shapeCast S50000x1 (factorOf (m ((c : Thread nD τ).loc main_arg3))) Facts₀.shapeCasts_S50000_S50000x1 := by
  dsimp only [W15, hostOps7]; after_results; rw [W14_v53 m ρ c]; rfl
theorem W15_v82 : W15 (F := Ideal) m ρ c (Proc.devRef .tc main_v82)
    = shapeCast S1x64 (m ((c : Thread nD τ).loc main_arg11)) Facts₀.shapeCasts_S64_S1x64 := by
  dsimp only [W15, hostOps7]; after_results; rw [W14_arg11 m ρ c]; rfl
theorem W15_v70 : W15 (F := Ideal) m ρ c (Proc.devRef .tc main_v70) = W14 (F := Ideal) m ρ c (Proc.devRef .tc main_v70) := by
  host_keeps hostOps7

/-! ## After the second combine call -/

/-- The output layer over the hidden layer's array, as the kernel's program leaves it. -/
theorem out_b_over : (W16 (F := Ideal) m ρ c (Proc.devRef .tc main_v83) : FVec Ideal S50000x64 .f32)
    = scaledLayer scatter_S50000x64_S600000x1_S600000x64_1_0_0_1 gather_S50000x64_S600000x1_S600000x64_1_0_n_n_0_1_164 false
        (feat (W12 (F := Ideal) m ρ c (Proc.devRef .tc main_v68) : FVec Ideal S50000x128 .f32) (m ((c : Thread nD τ).loc main_arg10))) (factorOf (m ((c : Thread nD τ).loc main_arg3))) (m ((c : Thread nD τ).loc main_arg11)) zeros64 (wrapColOf (srcOf (m ((c : Thread nD τ).loc main_arg3)))) (colOf (dstOf (m ((c : Thread nD τ).loc main_arg3)))) := by
  funext i
  obtain ⟨p, q, rfl⟩ : ∃ (p : Fin 50000) (q : Fin 64), i = ix2 p q := ⟨i 0, i 1, eq_ix2 i⟩
  refine (congrFun (W16_arr m ρ c 4) (ix2 p q)).trans ?_
  refine (combine7_at (V15 m ρ) c p q _ _ _ _ (W15_v80 m ρ c).symm ((W15_v70 m ρ c).trans (W14_v70 m ρ c)).symm
    (W15_v81 m ρ c).symm (W15_v82 m ρ c).symm).trans ?_
  rw [shapeCast_a_a1_apply, shapeCast_a_1a_apply, W14_v70 m ρ c]
  rfl

/-- THE SECOND GRAPH'S RESULT as the kernel's program leaves it: the output layer, factor applied per node, over the
    hidden layer, factor applied per node. -/
theorem result_b : (W16 (F := Ideal) m ρ c (Proc.devRef .tc main_v83) : FVec Ideal S50000x64 .f32)
    = scaledLayer scatter_S50000x64_S600000x1_S600000x64_1_0_0_1 gather_S50000x64_S600000x1_S600000x64_1_0_n_n_0_1_164 false
        (feat (scaledLayer scatter_S50000x128_S600000x1_S600000x128_1_0_0_1 gather_S50000x128_S600000x1_S600000x128_1_0_n_n_0_1_1128 true
            (feat (m ((c : Thread nD τ).loc main_arg2)) (m ((c : Thread nD τ).loc main_arg8))) (factorOf (m ((c : Thread nD τ).loc main_arg3))) (m ((c : Thread nD τ).loc main_arg9)) zeros128 (wrapColOf (srcOf (m ((c : Thread nD τ).loc main_arg3)))) (colOf (dstOf (m ((c : Thread nD τ).loc main_arg3))))) (m ((c : Thread nD τ).loc main_arg10)))
        (factorOf (m ((c : Thread nD τ).loc main_arg3))) (m ((c : Thread nD τ).loc main_arg11)) zeros64 (wrapColOf (srcOf (m ((c : Thread nD τ).loc main_arg3)))) (colOf (dstOf (m ((c : Thread nD τ).loc main_arg3)))) := by
  rw [← hidden_b m ρ c]
  exact out_b_over m ρ c

end Cert.KernelIdeal.Fold

end
-- ==== Proof.RefLayers.lean ====
/-
  The reference's four graph-convolution layers, each identified with the per-edge-weight form of the layer
  (Cert.GcnLayer.weightedLayer): node features  h = x · W  (a matrix product read entry by entry as a sum over the
  contracted axis), the per-node factor  s = (count of incoming edges + 1) ^ (−1/2), the source column wrapped
  (a negative node number has N added), the destination column as given for the scatter and wrapped for the gather of
  the factor, the edge weight  s[src] · s[dst]  broadcast along the feature axis, the self-loop term  h · (s · s),
  the bias broadcast along the node axis, and for the hidden layers the positive part.
  Also: the factor is a nonnegative real at every node (a count plus one is a nonnegative real, and a real power of a
  nonnegative real is a nonnegative real); the wrapped destination column agrees with the given one wherever that is
  in range; the accumulators are zero.
-/
import proofs.«119174_j20590073217487_2_alg».proof.Proof.Gen.ReferenceIdeal.Read
import proofs.«119174_j20590073217487_2_alg».proof.Proof.GcnLayer
import Idealize.ShloMosaic.Lib.ValueLayout
import Idealize.ShloMosaic.Lib.IdealHost

noncomputable section

namespace Cert.ReferenceIdeal.Layers

open Idealize.ShloMosaic Idealize.ShloMosaic.TcCoe Idealize.ShloMosaic.ValueIdx
open Cert.ReferenceIdeal Cert.ReferenceIdeal.Read Cert.GcnLayer
open scoped BigOperators

/-! ## Constants and counts as extended reals -/

/-- The pattern 0xBF000000 is the real −1/2. -/
theorem neg_half_f32 : Ideal.ofBits .f32 0xBF000000#32 = ((-(1 / 2) : ℝ) : EReal) := by
  simp [Ideal.ofBits, Ideal.ieee, -EReal.coe_mul, -EReal.coe_neg]; norm_num

/-- A real power of a nonnegative real is a nonnegative real. -/
theorem pow_real_nonneg {r y : ℝ} (hr : 0 ≤ r) :
    0 ≤ Ideal.pow (r : EReal) (y : EReal) ∧ Ideal.pow (r : EReal) (y : EReal) ≠ ⊤ := by
  rw [Ideal.pow_coe_coe]
  exact ⟨EReal.coe_nonneg.mpr (Real.rpow_nonneg hr y), EReal.coe_ne_top _⟩

/-- A sum of ones over a finite set is the set's size, a nonnegative real. -/
theorem sum_ones {ι : Type} (S : Finset ι) (u : ι → EReal) (hu : ∀ j, u j = 1) :
    ∑ j ∈ S, u j = ((S.card : ℝ) : EReal) := by
  rw [Finset.sum_congr rfl (fun j _ => hu j), Finset.sum_const, nsmul_one]
  norm_cast

/-- (zero + a count of ones + one) to a real power is a nonnegative real. -/
theorem factor_of_count {ι : Type} (S : Finset ι) (z one h : EReal) (u : ι → EReal) (y : ℝ) (hz : z = 0) (hone : one = 1)
    (hh : h = (y : EReal)) (hu : ∀ j, u j = 1) :
    0 ≤ Ideal.pow (z + ∑ j ∈ S, u j + one) h ∧ Ideal.pow (z + ∑ j ∈ S, u j + one) h ≠ ⊤ := by
  rw [hz, hone, hh, sum_ones S u hu, zero_add,
    show (((S.card : ℝ) : EReal) + 1) = (((S.card : ℝ) + 1 : ℝ) : EReal) by norm_cast]
  exact pow_real_nonneg (by positivity)

/-- Where a word read signed is not negative, the select on "is negative" takes the word itself. -/
theorem select_slt_zero {v a : BitVec 32} (h : 0 ≤ v.toInt) :
    Scalar.select (IntOp.cmpi .slt v 0#32) a v = v := by
  have hlt : v.slt 0#32 = false := by
    simp only [BitVec.slt, BitVec.toInt_zero, decide_eq_false_iff_not, Int.not_lt]
    exact h
  show Scalar.select (BitVec.ofBool (v.slt 0#32)) a v = v
  rw [hlt]
  exact select_zero _ _

/-! ## First graph (arguments 0, 1, 4, 5, 6, 7) -/

theorem lidx_v4 (p : Fin 50000) (q : Fin 128) (k : Fin 256) : lidx_main_v4 (ix2 p q) k = ix2 p k :=
  funext fun a => Fin.ext (by match a with | ⟨0, _⟩ => rfl | ⟨1, _⟩ => rfl)
theorem ridx_v4 (p : Fin 50000) (q : Fin 128) (k : Fin 256) : ridx_main_v4 (ix2 p q) k = ix2 k q :=
  funext fun a => Fin.ext (by match a with | ⟨0, _⟩ => rfl | ⟨1, _⟩ => rfl)

/-- The first product of the first graph, entry by entry. -/
theorem feat_v4 (x0 : FVec Ideal S50000x256 .f32) (x4 : FVec Ideal S256x128 .f32) :
    val_main_v4 (F := Ideal) x0 x4 = feat x0 x4 := by
  funext i
  obtain ⟨p, q, rfl⟩ : ∃ (p : Fin 50000) (q : Fin 128), i = ix2 p q := ⟨i 0, i 1, eq_ix2 i⟩
  rw [val_main_v4_apply]
  simp only [lidx_v4, ridx_v4]
  rfl

/-- The two wrapped source columns of the first layer are one function of the edge list. -/
theorem v18_eq_v33 (x1 : IVec S2x600000 32) : val_main_v18 (F := Ideal) x1 = val_main_v33 (F := Ideal) x1 := by
  unfold val_main_v18 val_main_v33 val_main_v17 val_main_v32 val_main_v14 val_main_v29 val_main_v16 val_main_v31
    val_main_v13 val_main_v28 val_main_v15 val_main_v30 val_main_c val_main_c_6 val_main_c_3 val_main_c_7
  rfl

theorem idx_v35_v36 (e : Fin 600000) (q : Fin 128) : idx_main_v35 (idx_main_v36 (ix2 e q)) = ix1 e :=
  funext fun a => Fin.ext (by match a with | ⟨0, _⟩ => rfl)
theorem idx_v42_v43 (p : Fin 50000) (q : Fin 128) : idx_main_v42 (idx_main_v43 (ix2 p q)) = ix1 p :=
  funext fun a => Fin.ext (by match a with | ⟨0, _⟩ => rfl)
theorem idx_v46_v47 (p : Fin 50000) (q : Fin 128) : idx_main_v46 (idx_main_v47 (ix2 p q)) = ix1 q :=
  funext fun a => Fin.ext (by match a with | ⟨0, _⟩ => rfl)

/-- What the first layer scatters: every edge's source row times the edge's weight. -/
theorem upd_v37 (x0 : FVec Ideal S50000x256 .f32) (x1 : IVec S2x600000 32) (x4 : FVec Ideal S256x128 .f32) :
    val_main_v37 (F := Ideal) x0 x1 x4
      = fun j => Host.gather gather_S50000x128_S600000x1_S600000x128_1_0_n_n_0_1_1128 (feat x0 x4) (val_main_v33 (F := Ideal) x1) j
          * (Host.gather gather_S50000_S600000x1_S600000_n_0_n_n_0_1_1 (val_main_v12 (F := Ideal) x1) (val_main_v33 (F := Ideal) x1) (ix1 (j 0))
            * Host.gather gather_S50000_S600000x1_S600000_n_0_n_n_0_1_1 (val_main_v12 (F := Ideal) x1) (val_main_v25 (F := Ideal) x1) (ix1 (j 0))) := by
  funext j
  obtain ⟨e, q, rfl⟩ : ∃ (e : Fin 600000) (q : Fin 128), j = ix2 e q := ⟨j 0, j 1, eq_ix2 j⟩
  rw [val_main_v37_apply, val_main_v36_apply, val_main_v35_apply, val_main_v27_apply, Ideal.mulf_def, Ideal.mulf_def,
    idx_v35_v36]
  unfold val_main_v34 val_main_v19 val_main_v26
  rw [feat_v4, v18_eq_v33]

theorem zero_call0 (i : S50000x128.Idx) : val_main_call0_v0 (F := Ideal) i = 0 := by
  rw [val_main_call0_v0_apply, val_main_call0_cst_apply, Ideal.ofBits_def, Ideal.ofBits_zero_f32]

/-- The hidden layer of the first graph's stack. -/
theorem hidden_a (x0 : FVec Ideal S50000x256 .f32) (x1 : IVec S2x600000 32) (x4 : FVec Ideal S256x128 .f32) (x5 : FVec Ideal S128 .f32) :
    val_main_v49 (F := Ideal) x0 x1 x4 x5
      = weightedLayer scatter_S50000x128_S600000x1_S600000x128_1_0_0_1 gather_S50000x128_S600000x1_S600000x128_1_0_n_n_0_1_1128
          gather_S50000_S600000x1_S600000_n_0_n_n_0_1_1 true (feat x0 x4) (val_main_v12 (F := Ideal) x1) x5
          (val_main_v38 (F := Ideal)) (val_main_v33 (F := Ideal) x1) (val_main_v39 (F := Ideal) x1) (val_main_v25 (F := Ideal) x1) := by
  funext i
  obtain ⟨p, q, rfl⟩ : ∃ (p : Fin 50000) (q : Fin 128), i = ix2 p q := ⟨i 0, i 1, eq_ix2 i⟩
  rw [val_main_v49_apply, val_main_v48_apply, val_main_v45_apply, val_main_v44_apply, val_main_v47_apply, val_main_v46_apply,
    val_main_v43_apply, val_main_v42_apply, val_main_v41_apply, idx_v42_v43, idx_v46_v47, zero_call0]
  simp only [Ideal.maximumf_def, Ideal.addf_def, Ideal.mulf_def]
  unfold val_main_v40
  rw [upd_v37, feat_v4]
  unfold weightedLayer act
  rw [if_pos rfl]

/-- The first graph's factor is a nonnegative real at every node. -/
theorem factor_a (x1 : IVec S2x600000 32) (i : S50000.Idx) :
    0 ≤ val_main_v12 (F := Ideal) x1 i ∧ val_main_v12 (F := Ideal) x1 i ≠ ⊤ := by
  have h6 : val_main_v6 (F := Ideal) i = 0 := by
    rw [val_main_v6_apply, val_main_cst_0_apply, Ideal.ofBits_def, Ideal.ofBits_zero_f32]
  have h5 : ∀ j, val_main_v5 (F := Ideal) j = 1 := fun j => by
    rw [val_main_v5_apply, val_main_cst_apply, Ideal.ofBits_def, Ideal.ofBits_one_f32]
  have h9 : val_main_v9 (F := Ideal) i = 1 := by
    rw [val_main_v9_apply, val_main_cst_1_apply, Ideal.ofBits_def, Ideal.ofBits_one_f32]
  have h11 : val_main_v11 (F := Ideal) i = ((-(1 / 2) : ℝ) : EReal) := by
    rw [val_main_v11_apply, val_main_cst_2_apply, Ideal.ofBits_def, neg_half_f32]
  rw [val_main_v12_apply, val_main_v10_apply, Ideal.hostPowf_def, Ideal.addf_def]
  unfold val_main_v8 Host.scatterAdd
  rw [Ideal.hostScatterAdd_def]
  unfold Ideal.hostScatterAdd
  exact factor_of_count _ _ _ _ _ _ h6 h9 h11 h5

/-- The first graph's wrapped destination column agrees with the given one wherever that is in range. -/
theorem wrap_a (x1 : IVec S2x600000 32) (e : Fin 600000) :
    0 ≤ (val_main_v39 (F := Ideal) x1 (ix2 e (0 : Fin 1))).toInt → (val_main_v39 (F := Ideal) x1 (ix2 e (0 : Fin 1))).toInt < ((50000 : ℕ) : ℤ) →
      val_main_v25 (F := Ideal) x1 (ix2 e (0 : Fin 1)) = val_main_v39 (F := Ideal) x1 (ix2 e (0 : Fin 1)) := by
  have e25 : idx_main_v25 (ix2 e (0 : Fin 1)) = ix1 e := funext fun a => Fin.ext (by match a with | ⟨0, _⟩ => rfl)
  have e39 : idx_main_v39 (ix2 e (0 : Fin 1)) = ix1 e := funext fun a => Fin.ext (by match a with | ⟨0, _⟩ => rfl)
  rw [val_main_v39_apply, val_main_v25_apply, e25, e39]
  intro h0 _
  rw [val_main_v24_apply, val_main_v21_apply, val_main_v20_apply, val_main_c_4_apply]
  exact select_slt_zero h0

theorem zero_v38 (i : S50000x128.Idx) : val_main_v38 (F := Ideal) i = 0 := by
  rw [val_main_v38_apply, val_main_cst_8_apply, Ideal.ofBits_def, Ideal.ofBits_zero_f32]

/-! ### The output layer of the first graph: the factor and the columns are recomputed, as the same functions -/

theorem lidx_v50 (p : Fin 50000) (q : Fin 64) (k : Fin 128) : lidx_main_v50 (ix2 p q) k = ix2 p k :=
  funext fun a => Fin.ext (by match a with | ⟨0, _⟩ => rfl | ⟨1, _⟩ => rfl)
theorem ridx_v50 (p : Fin 50000) (q : Fin 64) (k : Fin 128) : ridx_main_v50 (ix2 p q) k = ix2 k q :=
  funext fun a => Fin.ext (by match a with | ⟨0, _⟩ => rfl | ⟨1, _⟩ => rfl)

/-- The second product of the first graph, entry by entry, over the hidden layer's result. -/
theorem feat_v50 (x0 : FVec Ideal S50000x256 .f32) (x1 : IVec S2x600000 32) (x4 : FVec Ideal S256x128 .f32) (x5 : FVec Ideal S128 .f32)
    (x6 : FVec Ideal S128x64 .f32) :
    val_main_v50 (F := Ideal) x0 x1 x4 x5 x6 = feat (val_main_v49 (F := Ideal) x0 x1 x4 x5) x6 := by
  funext i
  obtain ⟨p, q, rfl⟩ : ∃ (p : Fin 50000) (q : Fin 64), i = ix2 p q := ⟨i 0, i 1, eq_ix2 i⟩
  rw [val_main_v50_apply]
  simp only [lidx_v50, ridx_v50]
  rfl

/-- The recomputed factor is the first layer's. -/
theorem v58_eq_v12 (x1 : IVec S2x600000 32) : val_main_v58 (F := Ideal) x1 = val_main_v12 (F := Ideal) x1 := by
  unfold val_main_v58 val_main_v12 val_main_v56 val_main_v10 val_main_v54 val_main_v8 val_main_v53 val_main_v7 val_main_v52 val_main_v6
    val_main_v51 val_main_v5 val_main_v55 val_main_v9 val_main_v57 val_main_v11 val_main_cst_9 val_main_cst val_main_cst_10
    val_main_cst_0 val_main_cst_11 val_main_cst_1 val_main_cst_12 val_main_cst_2
  rfl

/-- The recomputed wrapped source columns are the first layer's. -/
theorem v64_eq_v33 (x1 : IVec S2x600000 32) : val_main_v64 (F := Ideal) x1 = val_main_v33 (F := Ideal) x1 := by
  unfold val_main_v64 val_main_v33 val_main_v63 val_main_v32 val_main_v60 val_main_v29 val_main_v62 val_main_v31
    val_main_v59 val_main_v28 val_main_v61 val_main_v30 val_main_c_13 val_main_c_6 val_main_c_14 val_main_c_7
  rfl
theorem v79_eq_v33 (x1 : IVec S2x600000 32) : val_main_v79 (F := Ideal) x1 = val_main_v33 (F := Ideal) x1 := by
  unfold val_main_v79 val_main_v33 val_main_v78 val_main_v32 val_main_v75 val_main_v29 val_main_v77 val_main_v31
    val_main_v74 val_main_v28 val_main_v76 val_main_v30 val_main_c_17 val_main_c_6 val_main_c_18 val_main_c_7
  rfl

/-- The recomputed wrapped destination column is the first layer's. -/
theorem v71_eq_v25 (x1 : IVec S2x600000 32) : val_main_v71 (F := Ideal) x1 = val_main_v25 (F := Ideal) x1 := by
  unfold val_main_v71 val_main_v25 val_main_v70 val_main_v24 val_main_v67 val_main_v21 val_main_v69 val_main_v23
    val_main_v66 val_main_v20 val_main_v68 val_main_v22 val_main_c_15 val_main_c_4 val_main_c_16 val_main_c_5
  rfl

/-- The destination column as given, again. -/
theorem v85_eq_v39 (x1 : IVec S2x600000 32) : val_main_v85 (F := Ideal) x1 = val_main_v39 (F := Ideal) x1 := by
  unfold val_main_v85 val_main_v39
  rfl

theorem idx_v81_v82 (e : Fin 600000) (q : Fin 64) : idx_main_v81 (idx_main_v82 (ix2 e q)) = ix1 e :=
  funext fun a => Fin.ext (by match a with | ⟨0, _⟩ => rfl)
theorem idx_v88_v89 (p : Fin 50000) (q : Fin 64) : idx_main_v88 (idx_main_v89 (ix2 p q)) = ix1 p :=
  funext fun a => Fin.ext (by match a with | ⟨0, _⟩ => rfl)
theorem idx_v92_v93 (p : Fin 50000) (q : Fin 64) : idx_main_v92 (idx_main_v93 (ix2 p q)) = ix1 q :=
  funext fun a => Fin.ext (by match a with | ⟨0, _⟩ => rfl)

/-- What the output layer scatters: every edge's source row times the edge's weight. -/
theorem upd_v83 (x0 : FVec Ideal S50000x256 .f32) (x1 : IVec S2x600000 32) (x4 : FVec Ideal S256x128 .f32) (x5 : FVec Ideal S128 .f32)
    (x6 : FVec Ideal S128x64 .f32) :
    val_main_v83 (F := Ideal) x0 x1 x4 x5 x6
      = fun j => Host.gather gather_S50000x64_S600000x1_S600000x64_1_0_n_n_0_1_164 (feat (val_main_v49 (F := Ideal) x0 x1 x4 x5) x6) (val_main_v33 (F := Ideal) x1) j
          * (Host.gather gather_S50000_S600000x1_S600000_n_0_n_n_0_1_1 (val_main_v12 (F := Ideal) x1) (val_main_v33 (F := Ideal) x1) (ix1 (j 0))
            * Host.gather gather_S50000_S600000x1_S600000_n_0_n_n_0_1_1 (val_main_v12 (F := Ideal) x1) (val_main_v25 (F := Ideal) x1) (ix1 (j 0))) := by
  funext j
  obtain ⟨e, q, rfl⟩ : ∃ (e : Fin 600000) (q : Fin 64), j = ix2 e q := ⟨j 0, j 1, eq_ix2 j⟩
  rw [val_main_v83_apply, val_main_v82_apply, val_main_v81_apply, val_main_v73_apply, Ideal.mulf_def, Ideal.mulf_def,
    idx_v81_v82]
  unfold val_main_v80 val_main_v65 val_main_v72
  rw [feat_v50, v58_eq_v12, v64_eq_v33, v71_eq_v25, v79_eq_v33]

/-- The output layer of the first graph's stack, over the hidden layer's result. -/
theorem out_a (x0 : FVec Ideal S50000x256 .f32) (x1 : IVec S2x600000 32) (x4 : FVec Ideal S256x128 .f32) (x5 : FVec Ideal S128 .f32)
    (x6 : FVec Ideal S128x64 .f32) (x7 : FVec Ideal S64 .f32) :
    val_main_v94 (F := Ideal) x0 x1 x4 x5 x6 x7
      = weightedLayer scatter_S50000x64_S600000x1_S600000x64_1_0_0_1 gather_S50000x64_S600000x1_S600000x64_1_0_n_n_0_1_164
          gather_S50000_S600000x1_S600000_n_0_n_n_0_1_1 false (feat (val_main_v49 (F := Ideal) x0 x1 x4 x5) x6) (val_main_v12 (F := Ideal) x1) x7
          (val_main_v84 (F := Ideal)) (val_main_v33 (F := Ideal) x1) (val_main_v39 (F := Ideal) x1) (val_main_v25 (F := Ideal) x1) := by
  funext i
  obtain ⟨p, q, rfl⟩ : ∃ (p : Fin 50000) (q : Fin 64), i = ix2 p q := ⟨i 0, i 1, eq_ix2 i⟩
  rw [val_main_v94_apply, val_main_v91_apply, val_main_v90_apply, val_main_v93_apply, val_main_v92_apply,
    val_main_v89_apply, val_main_v88_apply, val_main_v87_apply, idx_v88_v89, idx_v92_v93]
  simp only [Ideal.addf_def, Ideal.mulf_def]
  unfold val_main_v86
  rw [upd_v83, feat_v50, v58_eq_v12, v85_eq_v39]
  unfold weightedLayer act
  rw [if_neg Bool.false_ne_true]

theorem zero_v84 (i : S50000x64.Idx) : val_main_v84 (F := Ideal) i = 0 := by
  rw [val_main_v84_apply, val_main_cst_19_apply, Ideal.ofBits_def, Ideal.ofBits_zero_f32]

/-! ## Second graph (arguments 2, 3, 8, 9, 10, 11) -/

theorem lidx_v99 (p : Fin 50000) (q : Fin 128) (k : Fin 128) : lidx_main_v99 (ix2 p q) k = ix2 p k :=
  funext fun a => Fin.ext (by match a with | ⟨0, _⟩ => rfl | ⟨1, _⟩ => rfl)
theorem ridx_v99 (p : Fin 50000) (q : Fin 128) (k : Fin 128) : ridx_main_v99 (ix2 p q) k = ix2 k q :=
  funext fun a => Fin.ext (by match a with | ⟨0, _⟩ => rfl | ⟨1, _⟩ => rfl)

/-- The first product of the second graph, entry by entry. -/
theorem feat_v99 (x2 : FVec Ideal S50000x128 .f32) (x8 : FVec Ideal S128x128 .f32) :
    val_main_v99 (F := Ideal) x2 x8 = feat x2 x8 := by
  funext i
  obtain ⟨p, q, rfl⟩ : ∃ (p : Fin 50000) (q : Fin 128), i = ix2 p q := ⟨i 0, i 1, eq_ix2 i⟩
  rw [val_main_v99_apply]
  simp only [lidx_v99, ridx_v99]
  rfl

/-- The two wrapped source columns of the second graph's first layer are one function of the edge list. -/
theorem v113_eq_v128 (x3 : IVec S2x600000 32) : val_main_v113 (F := Ideal) x3 = val_main_v128 (F := Ideal) x3 := by
  unfold val_main_v113 val_main_v128 val_main_v112 val_main_v127 val_main_v109 val_main_v124 val_main_v111 val_main_v126
    val_main_v108 val_main_v123 val_main_v110 val_main_v125 val_main_c_24 val_main_c_28 val_main_c_25 val_main_c_29
  rfl

theorem idx_v130_v131 (e : Fin 600000) (q : Fin 128) : idx_main_v130 (idx_main_v131 (ix2 e q)) = ix1 e :=
  funext fun a => Fin.ext (by match a with | ⟨0, _⟩ => rfl)
theorem idx_v137_v138 (p : Fin 50000) (q : Fin 128) : idx_main_v137 (idx_main_v138 (ix2 p q)) = ix1 p :=
  funext fun a => Fin.ext (by match a with | ⟨0, _⟩ => rfl)
theorem idx_v141_v142 (p : Fin 50000) (q : Fin 128) : idx_main_v141 (idx_main_v142 (ix2 p q)) = ix1 q :=
  funext fun a => Fin.ext (by match a with | ⟨0, _⟩ => rfl)

/-- What the second graph's first layer scatters: every edge's source row times the edge's weight. -/
theorem upd_v132 (x2 : FVec Ideal S50000x128 .f32) (x3 : IVec S2x600000 32) (x8 : FVec Ideal S128x128 .f32) :
    val_main_v132 (F := Ideal) x2 x3 x8
      = fun j => Host.gather gather_S50000x128_S600000x1_S600000x128_1_0_n_n_0_1_1128 (feat x2 x8) (val_main_v128 (F := Ideal) x3) j
          * (Host.gather gather_S50000_S600000x1_S600000_n_0_n_n_0_1_1 (val_main_v107 (F := Ideal) x3) (val_main_v128 (F := Ideal) x3) (ix1 (j 0))
            * Host.gather gather_S50000_S600000x1_S600000_n_0_n_n_0_1_1 (val_main_v107 (F := Ideal) x3) (val_main_v120 (F := Ideal) x3) (ix1 (j 0))) := by
  funext j
  obtain ⟨e, q, rfl⟩ : ∃ (e : Fin 600000) (q : Fin 128), j = ix2 e q := ⟨j 0, j 1, eq_ix2 j⟩
  rw [val_main_v132_apply, val_main_v131_apply, val_main_v130_apply, val_main_v122_apply, Ideal.mulf_def, Ideal.mulf_def,
    idx_v130_v131]
  unfold val_main_v129 val_main_v114 val_main_v121
  rw [feat_v99, v113_eq_v128]

theorem zero_call1 (i : S50000x128.Idx) : val_main_call1_v0 (F := Ideal) i = 0 := by
  rw [val_main_call1_v0_apply, val_main_call1_cst_apply, Ideal.ofBits_def, Ideal.ofBits_zero_f32]

/-- The hidden layer of the second graph's stack. -/
theorem hidden_b (x2 : FVec Ideal S50000x128 .f32) (x3 : IVec S2x600000 32) (x8 : FVec Ideal S128x128 .f32) (x9 : FVec Ideal S128 .f32) :
    val_main_v144 (F := Ideal) x2 x3 x8 x9
      = weightedLayer scatter_S50000x128_S600000x1_S600000x128_1_0_0_1 gather_S50000x128_S600000x1_S600000x128_1_0_n_n_0_1_1128
          gather_S50000_S600000x1_S600000_n_0_n_n_0_1_1 true (feat x2 x8) (val_main_v107 (F := Ideal) x3) x9
          (val_main_v133 (F := Ideal)) (val_main_v128 (F := Ideal) x3) (val_main_v134 (F := Ideal) x3) (val_main_v120 (F := Ideal) x3) := by
  funext i
  obtain ⟨p, q, rfl⟩ : ∃ (p : Fin 50000) (q : Fin 128), i = ix2 p q := ⟨i 0, i 1, eq_ix2 i⟩
  rw [val_main_v144_apply, val_main_v143_apply, val_main_v140_apply, val_main_v139_apply, val_main_v142_apply, val_main_v141_apply,
    val_main_v138_apply, val_main_v137_apply, val_main_v136_apply, idx_v137_v138, idx_v141_v142, zero_call1]
  simp only [Ideal.maximumf_def, Ideal.addf_def, Ideal.mulf_def]
  unfold val_main_v135
  rw [upd_v132, feat_v99]
  unfold weightedLayer act
  rw [if_pos rfl]

/-- The second graph's factor is a nonnegative real at every node. -/
theorem factor_b (x3 : IVec S2x600000 32) (i : S50000.Idx) :
    0 ≤ val_main_v107 (F := Ideal) x3 i ∧ val_main_v107 (F := Ideal) x3 i ≠ ⊤ := by
  have h101 : val_main_v101 (F := Ideal) i = 0 := by
    rw [val_main_v101_apply, val_main_cst_21_apply, Ideal.ofBits_def, Ideal.ofBits_zero_f32]
  have h100 : ∀ j, val_main_v100 (F := Ideal) j = 1 := fun j => by
    rw [val_main_v100_apply, val_main_cst_20_apply, Ideal.ofBits_def, Ideal.ofBits_one_f32]
  have h104 : val_main_v104 (F := Ideal) i = 1 := by
    rw [val_main_v104_apply, val_main_cst_22_apply, Ideal.ofBits_def, Ideal.ofBits_one_f32]
  have h106 : val_main_v106 (F := Ideal) i = ((-(1 / 2) : ℝ) : EReal) := by
    rw [val_main_v106_apply, val_main_cst_23_apply, Ideal.ofBits_def, neg_half_f32]
  rw [val_main_v107_apply, val_main_v105_apply, Ideal.hostPowf_def, Ideal.addf_def]
  unfold val_main_v103 Host.scatterAdd
  rw [Ideal.hostScatterAdd_def]
  unfold Ideal.hostScatterAdd
  exact factor_of_count _ _ _ _ _ _ h101 h104 h106 h100

/-- The second graph's wrapped destination column agrees with the given one wherever that is in range. -/
theorem wrap_b (x3 : IVec S2x600000 32) (e : Fin 600000) :
    0 ≤ (val_main_v134 (F := Ideal) x3 (ix2 e (0 : Fin 1))).toInt → (val_main_v134 (F := Ideal) x3 (ix2 e (0 : Fin 1))).toInt < ((50000 : ℕ) : ℤ) →
      val_main_v120 (F := Ideal) x3 (ix2 e (0 : Fin 1)) = val_main_v134 (F := Ideal) x3 (ix2 e (0 : Fin 1)) := by
  have e120 : idx_main_v120 (ix2 e (0 : Fin 1)) = ix1 e := funext fun a => Fin.ext (by match a with | ⟨0, _⟩ => rfl)
  have e134 : idx_main_v134 (ix2 e (0 : Fin 1)) = ix1 e := funext fun a => Fin.ext (by match a with | ⟨0, _⟩ => rfl)
  rw [val_main_v134_apply, val_main_v120_apply, e120, e134]
  intro h0 _
  rw [val_main_v119_apply, val_main_v116_apply, val_main_v115_apply, val_main_c_26_apply]
  exact select_slt_zero h0

theorem zero_v133 (i : S50000x128.Idx) : val_main_v133 (F := Ideal) i = 0 := by
  rw [val_main_v133_apply, val_main_cst_30_apply, Ideal.ofBits_def, Ideal.ofBits_zero_f32]

/-! ### The output layer of the second graph: the factor and the columns are recomputed, as the same functions -/

theorem lidx_v145 (p : Fin 50000) (q : Fin 64) (k : Fin 128) : lidx_main_v145 (ix2 p q) k = ix2 p k :=
  funext fun a => Fin.ext (by match a with | ⟨0, _⟩ => rfl | ⟨1, _⟩ => rfl)
theorem ridx_v145 (p : Fin 50000) (q : Fin 64) (k : Fin 128) : ridx_main_v145 (ix2 p q) k = ix2 k q :=
  funext fun a => Fin.ext (by match a with | ⟨0, _⟩ => rfl | ⟨1, _⟩ => rfl)

/-- The second product of the second graph, entry by entry, over the hidden layer's result. -/
theorem feat_v145 (x2 : FVec Ideal S50000x128 .f32) (x3 : IVec S2x600000 32) (x8 : FVec Ideal S128x128 .f32) (x9 : FVec Ideal S128 .f32)
    (x10 : FVec Ideal S128x64 .f32) :
    val_main_v145 (F := Ideal) x2 x3 x8 x9 x10 = feat (val_main_v144 (F := Ideal) x2 x3 x8 x9) x10 := by
  funext i
  obtain ⟨p, q, rfl⟩ : ∃ (p : Fin 50000) (q : Fin 64), i = ix2 p q := ⟨i 0, i 1, eq_ix2 i⟩
  rw [val_main_v145_apply]
  simp only [lidx_v145, ridx_v145]
  rfl

/-- The recomputed factor is the first layer's. -/
theorem v153_eq_v107 (x3 : IVec S2x600000 32) : val_main_v153 (F := Ideal) x3 = val_main_v107 (F := Ideal) x3 := by
  unfold val_main_v153 val_main_v107 val_main_v151 val_main_v105 val_main_v149 val_main_v103 val_main_v148 val_main_v102
    val_main_v147 val_main_v101 val_main_v146 val_main_v100 val_main_v150 val_main_v104 val_main_v152 val_main_v106
    val_main_cst_31 val_main_cst_20 val_main_cst_32 val_main_cst_21 val_main_cst_33 val_main_cst_22 val_main_cst_34 val_main_cst_23
  rfl

/-- The recomputed wrapped source columns are the first layer's. -/
theorem v159_eq_v128 (x3 : IVec S2x600000 32) : val_main_v159 (F := Ideal) x3 = val_main_v128 (F := Ideal) x3 := by
  unfold val_main_v159 val_main_v128 val_main_v158 val_main_v127 val_main_v155 val_main_v124 val_main_v157 val_main_v126
    val_main_v154 val_main_v123 val_main_v156 val_main_v125 val_main_c_35 val_main_c_28 val_main_c_36 val_main_c_29
  rfl
theorem v174_eq_v128 (x3 : IVec S2x600000 32) : val_main_v174 (F := Ideal) x3 = val_main_v128 (F := Ideal) x3 := by
  unfold val_main_v174 val_main_v128 val_main_v173 val_main_v127 val_main_v170 val_main_v124 val_main_v172 val_main_v126
    val_main_v169 val_main_v123 val_main_v171 val_main_v125 val_main_c_39 val_main_c_28 val_main_c_40 val_main_c_29
  rfl

/-- The recomputed wrapped destination column is the first layer's. -/
theorem v166_eq_v120 (x3 : IVec S2x600000 32) : val_main_v166 (F := Ideal) x3 = val_main_v120 (F := Ideal) x3 := by
  unfold val_main_v166 val_main_v120 val_main_v165 val_main_v119 val_main_v162 val_main_v116 val_main_v164 val_main_v118
    val_main_v161 val_main_v115 val_main_v163 val_main_v117 val_main_c_37 val_main_c_26 val_main_c_38 val_main_c_27
  rfl

/-- The destination column as given, again. -/
theorem v180_eq_v134 (x3 : IVec S2x600000 32) : val_main_v180 (F := Ideal) x3 = val_main_v134 (F := Ideal) x3 := by
  unfold val_main_v180 val_main_v134
  rfl

theorem idx_v176_v177 (e : Fin 600000) (q : Fin 64) : idx_main_v176 (idx_main_v177 (ix2 e q)) = ix1 e :=
  funext fun a => Fin.ext (by match a with | ⟨0, _⟩ => rfl)
theorem idx_v183_v184 (p : Fin 50000) (q : Fin 64) : idx_main_v183 (idx_main_v184 (ix2 p q)) = ix1 p :=
  funext fun a => Fin.ext (by match a with | ⟨0, _⟩ => rfl)
theorem idx_v187_v188 (p : Fin 50000) (q : Fin 64) : idx_main_v187 (idx_main_v188 (ix2 p q)) = ix1 q :=
  funext fun a => Fin.ext (by match a with | ⟨0, _⟩ => rfl)

/-- What the second graph's output layer scatters: every edge's source row times the edge's weight. -/
theorem upd_v178 (x2 : FVec Ideal S50000x128 .f32) (x3 : IVec S2x600000 32) (x8 : FVec Ideal S128x128 .f32) (x9 : FVec Ideal S128 .f32)
    (x10 : FVec Ideal S128x64 .f32) :
    val_main_v178 (F := Ideal) x2 x3 x8 x9 x10
      = fun j => Host.gather gather_S50000x64_S600000x1_S600000x64_1_0_n_n_0_1_164 (feat (val_main_v144 (F := Ideal) x2 x3 x8 x9) x10) (val_main_v128 (F := Ideal) x3) j
          * (Host.gather gather_S50000_S600000x1_S600000_n_0_n_n_0_1_1 (val_main_v107 (F := Ideal) x3) (val_main_v128 (F := Ideal) x3) (ix1 (j 0))
            * Host.gather gather_S50000_S600000x1_S600000_n_0_n_n_0_1_1 (val_main_v107 (F := Ideal) x3) (val_main_v120 (F := Ideal) x3) (ix1 (j 0))) := by
  funext j
  obtain ⟨e, q, rfl⟩ : ∃ (e : Fin 600000) (q : Fin 64), j = ix2 e q := ⟨j 0, j 1, eq_ix2 j⟩
  rw [val_main_v178_apply, val_main_v177_apply, val_main_v176_apply, val_main_v168_apply, Ideal.mulf_def, Ideal.mulf_def,
    idx_v176_v177]
  unfold val_main_v175 val_main_v160 val_main_v167
  rw [feat_v145, v153_eq_v107, v159_eq_v128, v166_eq_v120, v174_eq_v128]

/-- The output layer of the second graph's stack, over the hidden layer's result. -/
theorem out_b (x2 : FVec Ideal S50000x128 .f32) (x3 : IVec S2x600000 32) (x8 : FVec Ideal S128x128 .f32) (x9 : FVec Ideal S128 .f32)
    (x10 : FVec Ideal S128x64 .f32) (x11 : FVec Ideal S64 .f32) :
    val_main_v189 (F := Ideal) x2 x3 x8 x9 x10 x11
      = weightedLayer scatter_S50000x64_S600000x1_S600000x64_1_0_0_1 gather_S50000x64_S600000x1_S600000x64_1_0_n_n_0_1_164
          gather_S50000_S600000x1_S600000_n_0_n_n_0_1_1 false (feat (val_main_v144 (F := Ideal) x2 x3 x8 x9) x10) (val_main_v107 (F := Ideal) x3) x11
          (val_main_v179 (F := Ideal)) (val_main_v128 (F := Ideal) x3) (val_main_v134 (F := Ideal) x3) (val_main_v120 (F := Ideal) x3) := by
  funext i
  obtain ⟨p, q, rfl⟩ : ∃ (p : Fin 50000) (q : Fin 64), i = ix2 p q := ⟨i 0, i 1, eq_ix2 i⟩
  rw [val_main_v189_apply, val_main_v186_apply, val_main_v185_apply, val_main_v188_apply, val_main_v187_apply,
    val_main_v184_apply, val_main_v183_apply, val_main_v182_apply, idx_v183_v184, idx_v187_v188]
  simp only [Ideal.addf_def, Ideal.mulf_def]
  unfold val_main_v181
  rw [upd_v178, feat_v145, v153_eq_v107, v180_eq_v134]
  unfold weightedLayer act
  rw [if_neg Bool.false_ne_true]

theorem zero_v179 (i : S50000x64.Idx) : val_main_v179 (F := Ideal) i = 0 := by
  rw [val_main_v179_apply, val_main_cst_41_apply, Ideal.ofBits_def, Ideal.ofBits_zero_f32]

end Cert.ReferenceIdeal.Layers

end
-- ==== Proof.Bridge.lean ====
/-
  The two programs' results are one function of the arguments.

  For each of the two graphs the kernel's program leaves  layer₂(layer₁(x))  with the per-node factor applied at the
  nodes (scaled rows travel, the sum is scaled again on arrival), and the reference computes the same two layers with
  the factor applied on the edges (every travelling row times  s[src] · s[dst]). The factor, the wrapped source column
  and the destination column are the same operations of the same edge array in both programs. The layer law
  (a nonnegative real factor distributes over the sum and moves through the aggregation) joins the hidden layers;
  the output layers are then the same law over one common hidden value.
-/
import proofs.«119174_j20590073217487_2_alg».proof.Proof.KernelParts
import proofs.«119174_j20590073217487_2_alg».proof.Proof.GcnLayer
import proofs.«119174_j20590073217487_2_alg».proof.Proof.RefLayers

noncomputable section

namespace Cert.Bridge

open Idealize.ShloMosaic Idealize.ShloMosaic.ValueIdx
open Cert.KernelIdeal.Parts Cert.GcnLayer Cert.ReferenceIdeal.Read

/-- The kernel program's zero accumulators are zero (they are the reference's, entry by entry). -/
theorem zeros128_apply (i : (⟨2, ![50000, 128]⟩ : Shape).Idx) : zeros128 i = 0 :=
  Cert.ReferenceIdeal.Layers.zero_v38 i
theorem zeros64_apply (i : (⟨2, ![50000, 64]⟩ : Shape).Idx) : zeros64 i = 0 :=
  Cert.ReferenceIdeal.Layers.zero_v84 i

/-! ## The first graph -/

/-- The kernel program's per-node factor is the reference's (the same operations of the same edge array). -/
theorem factor_a_eq (idx : IVec ⟨2, ![2, 600000]⟩ 32) : factorOf idx = val_main_v12 (F := Ideal) idx := rfl
/-- The kernel program's wrapped source column is the reference's. -/
theorem src_a_eq (idx : IVec ⟨2, ![2, 600000]⟩ 32) : wrapColOf (srcOf idx) = val_main_v33 (F := Ideal) idx := rfl
/-- The kernel program's destination column is the reference's. -/
theorem dst_a_eq (idx : IVec ⟨2, ![2, 600000]⟩ 32) : colOf (dstOf idx) = val_main_v39 (F := Ideal) idx := rfl

/-- THE FIRST GRAPH'S TWO LAYERS: with the factor applied per node (the kernel's program) and per edge (the
    reference) they are one function of the arguments — the layer law at the hidden layer, then at the output layer
    over the hidden layer's common value. -/
theorem layers_a (x : FVec Ideal ⟨2, ![50000, 256]⟩ .f32) (idx : IVec ⟨2, ![2, 600000]⟩ 32) (W0 : FVec Ideal ⟨2, ![256, 128]⟩ .f32)
    (b0 : FVec Ideal ⟨1, ![128]⟩ .f32) (W1 : FVec Ideal ⟨2, ![128, 64]⟩ .f32) (b1 : FVec Ideal ⟨1, ![64]⟩ .f32) :
    scaledLayer Cert.KernelIdeal.scatter_S50000x64_S600000x1_S600000x64_1_0_0_1 Cert.KernelIdeal.gather_S50000x64_S600000x1_S600000x64_1_0_n_n_0_1_164 false
        (feat (scaledLayer Cert.KernelIdeal.scatter_S50000x128_S600000x1_S600000x128_1_0_0_1 Cert.KernelIdeal.gather_S50000x128_S600000x1_S600000x128_1_0_n_n_0_1_1128 true (feat x W0) (factorOf idx) b0 zeros128
          (wrapColOf (srcOf idx)) (colOf (dstOf idx))) W1)
        (factorOf idx) b1 zeros64 (wrapColOf (srcOf idx)) (colOf (dstOf idx))
      = val_main_v94 (F := Ideal) x idx W0 b0 W1 b1 := by
  rw [Cert.ReferenceIdeal.Layers.out_a, Cert.ReferenceIdeal.Layers.hidden_a, factor_a_eq, src_a_eq, dst_a_eq]
  have hid := (scaledLayer_eq_weightedLayer (N := 50000) (E := 600000) (C := 128) (w := 32) (by decide)
      Cert.KernelIdeal.Facts₀.scatter_S50000x128_S600000x1_S600000x128_1_0_0_1_wf Cert.ReferenceIdeal.Facts₀.scatter_S50000x128_S600000x1_S600000x128_1_0_0_1_wf Cert.KernelIdeal.Facts₀.gather_S50000x128_S600000x1_S600000x128_1_0_n_n_0_1_1128_wf Cert.ReferenceIdeal.Facts₀.gather_S50000x128_S600000x1_S600000x128_1_0_n_n_0_1_1128_wf Cert.ReferenceIdeal.Facts₀.gather_S50000_S600000x1_S600000_n_0_n_n_0_1_1_wf
      Cert.KernelIdeal.scatter_S50000x128_S600000x1_S600000x128_1_0_0_1 Cert.ReferenceIdeal.scatter_S50000x128_S600000x1_S600000x128_1_0_0_1 rfl rfl Cert.KernelIdeal.gather_S50000x128_S600000x1_S600000x128_1_0_n_n_0_1_1128 Cert.ReferenceIdeal.gather_S50000x128_S600000x1_S600000x128_1_0_n_n_0_1_1128 rfl rfl Cert.ReferenceIdeal.gather_S50000_S600000x1_S600000_n_0_n_n_0_1_1 rfl
      true (feat x W0) (val_main_v12 (F := Ideal) idx) (Cert.ReferenceIdeal.Layers.factor_a idx) b0
      zeros128 (val_main_v38 (F := Ideal)) zeros128_apply Cert.ReferenceIdeal.Layers.zero_v38
      (val_main_v33 (F := Ideal) idx) (val_main_v39 (F := Ideal) idx) (val_main_v25 (F := Ideal) idx) (Cert.ReferenceIdeal.Layers.wrap_a idx))
  rw [hid]
  exact (scaledLayer_eq_weightedLayer (N := 50000) (E := 600000) (C := 64) (w := 32) (by decide)
      Cert.KernelIdeal.Facts₀.scatter_S50000x64_S600000x1_S600000x64_1_0_0_1_wf Cert.ReferenceIdeal.Facts₀.scatter_S50000x64_S600000x1_S600000x64_1_0_0_1_wf Cert.KernelIdeal.Facts₀.gather_S50000x64_S600000x1_S600000x64_1_0_n_n_0_1_164_wf Cert.ReferenceIdeal.Facts₀.gather_S50000x64_S600000x1_S600000x64_1_0_n_n_0_1_164_wf Cert.ReferenceIdeal.Facts₀.gather_S50000_S600000x1_S600000_n_0_n_n_0_1_1_wf
      Cert.KernelIdeal.scatter_S50000x64_S600000x1_S600000x64_1_0_0_1 Cert.ReferenceIdeal.scatter_S50000x64_S600000x1_S600000x64_1_0_0_1 rfl rfl Cert.KernelIdeal.gather_S50000x64_S600000x1_S600000x64_1_0_n_n_0_1_164 Cert.ReferenceIdeal.gather_S50000x64_S600000x1_S600000x64_1_0_n_n_0_1_164 rfl rfl Cert.ReferenceIdeal.gather_S50000_S600000x1_S600000_n_0_n_n_0_1_1 rfl
      false (feat (weightedLayer Cert.ReferenceIdeal.scatter_S50000x128_S600000x1_S600000x128_1_0_0_1 Cert.ReferenceIdeal.gather_S50000x128_S600000x1_S600000x128_1_0_n_n_0_1_1128 Cert.ReferenceIdeal.gather_S50000_S600000x1_S600000_n_0_n_n_0_1_1 true (feat x W0) (val_main_v12 (F := Ideal) idx) b0
        (val_main_v38 (F := Ideal)) (val_main_v33 (F := Ideal) idx) (val_main_v39 (F := Ideal) idx) (val_main_v25 (F := Ideal) idx)) W1) (val_main_v12 (F := Ideal) idx) (Cert.ReferenceIdeal.Layers.factor_a idx) b1
      zeros64 (val_main_v84 (F := Ideal)) zeros64_apply Cert.ReferenceIdeal.Layers.zero_v84
      (val_main_v33 (F := Ideal) idx) (val_main_v39 (F := Ideal) idx) (val_main_v25 (F := Ideal) idx) (Cert.ReferenceIdeal.Layers.wrap_a idx))

/-! ## The second graph -/

/-- The kernel program's per-node factor is the reference's (the same operations of the same edge array). -/
theorem factor_b_eq (idx : IVec ⟨2, ![2, 600000]⟩ 32) : factorOf idx = val_main_v107 (F := Ideal) idx := rfl
/-- The kernel program's wrapped source column is the reference's. -/
theorem src_b_eq (idx : IVec ⟨2, ![2, 600000]⟩ 32) : wrapColOf (srcOf idx) = val_main_v128 (F := Ideal) idx := rfl
/-- The kernel program's destination column is the reference's. -/
theorem dst_b_eq (idx : IVec ⟨2, ![2, 600000]⟩ 32) : colOf (dstOf idx) = val_main_v134 (F := Ideal) idx := rfl

/-- THE SECOND GRAPH'S TWO LAYERS: with the factor applied per node (the kernel's program) and per edge (the
    reference) they are one function of the arguments — the layer law at the hidden layer, then at the output layer
    over the hidden layer's common value. -/
theorem layers_b (x : FVec Ideal ⟨2, ![50000, 128]⟩ .f32) (idx : IVec ⟨2, ![2, 600000]⟩ 32) (W0 : FVec Ideal ⟨2, ![128, 128]⟩ .f32)
    (b0 : FVec Ideal ⟨1, ![128]⟩ .f32) (W1 : FVec Ideal ⟨2, ![128, 64]⟩ .f32) (b1 : FVec Ideal ⟨1, ![64]⟩ .f32) :
    scaledLayer Cert.KernelIdeal.scatter_S50000x64_S600000x1_S600000x64_1_0_0_1 Cert.KernelIdeal.gather_S50000x64_S600000x1_S600000x64_1_0_n_n_0_1_164 false
        (feat (scaledLayer Cert.KernelIdeal.scatter_S50000x128_S600000x1_S600000x128_1_0_0_1 Cert.KernelIdeal.gather_S50000x128_S600000x1_S600000x128_1_0_n_n_0_1_1128 true (feat x W0) (factorOf idx) b0 zeros128
          (wrapColOf (srcOf idx)) (colOf (dstOf idx))) W1)
        (factorOf idx) b1 zeros64 (wrapColOf (srcOf idx)) (colOf (dstOf idx))
      = val_main_v189 (F := Ideal) x idx W0 b0 W1 b1 := by
  rw [Cert.ReferenceIdeal.Layers.out_b, Cert.ReferenceIdeal.Layers.hidden_b, factor_b_eq, src_b_eq, dst_b_eq]
  have hid := (scaledLayer_eq_weightedLayer (N := 50000) (E := 600000) (C := 128) (w := 32) (by decide)
      Cert.KernelIdeal.Facts₀.scatter_S50000x128_S600000x1_S600000x128_1_0_0_1_wf Cert.ReferenceIdeal.Facts₀.scatter_S50000x128_S600000x1_S600000x128_1_0_0_1_wf Cert.KernelIdeal.Facts₀.gather_S50000x128_S600000x1_S600000x128_1_0_n_n_0_1_1128_wf Cert.ReferenceIdeal.Facts₀.gather_S50000x128_S600000x1_S600000x128_1_0_n_n_0_1_1128_wf Cert.ReferenceIdeal.Facts₀.gather_S50000_S600000x1_S600000_n_0_n_n_0_1_1_wf
      Cert.KernelIdeal.scatter_S50000x128_S600000x1_S600000x128_1_0_0_1 Cert.ReferenceIdeal.scatter_S50000x128_S600000x1_S600000x128_1_0_0_1 rfl rfl Cert.KernelIdeal.gather_S50000x128_S600000x1_S600000x128_1_0_n_n_0_1_1128 Cert.ReferenceIdeal.gather_S50000x128_S600000x1_S600000x128_1_0_n_n_0_1_1128 rfl rfl Cert.ReferenceIdeal.gather_S50000_S600000x1_S600000_n_0_n_n_0_1_1 rfl
      true (feat x W0) (val_main_v107 (F := Ideal) idx) (Cert.ReferenceIdeal.Layers.factor_b idx) b0
      zeros128 (val_main_v133 (F := Ideal)) zeros128_apply Cert.ReferenceIdeal.Layers.zero_v133
      (val_main_v128 (F := Ideal) idx) (val_main_v134 (F := Ideal) idx) (val_main_v120 (F := Ideal) idx) (Cert.ReferenceIdeal.Layers.wrap_b idx))
  rw [hid]
  exact (scaledLayer_eq_weightedLayer (N := 50000) (E := 600000) (C := 64) (w := 32) (by decide)
      Cert.KernelIdeal.Facts₀.scatter_S50000x64_S600000x1_S600000x64_1_0_0_1_wf Cert.ReferenceIdeal.Facts₀.scatter_S50000x64_S600000x1_S600000x64_1_0_0_1_wf Cert.KernelIdeal.Facts₀.gather_S50000x64_S600000x1_S600000x64_1_0_n_n_0_1_164_wf Cert.ReferenceIdeal.Facts₀.gather_S50000x64_S600000x1_S600000x64_1_0_n_n_0_1_164_wf Cert.ReferenceIdeal.Facts₀.gather_S50000_S600000x1_S600000_n_0_n_n_0_1_1_wf
      Cert.KernelIdeal.scatter_S50000x64_S600000x1_S600000x64_1_0_0_1 Cert.ReferenceIdeal.scatter_S50000x64_S600000x1_S600000x64_1_0_0_1 rfl rfl Cert.KernelIdeal.gather_S50000x64_S600000x1_S600000x64_1_0_n_n_0_1_164 Cert.ReferenceIdeal.gather_S50000x64_S600000x1_S600000x64_1_0_n_n_0_1_164 rfl rfl Cert.ReferenceIdeal.gather_S50000_S600000x1_S600000_n_0_n_n_0_1_1 rfl
      false (feat (weightedLayer Cert.ReferenceIdeal.scatter_S50000x128_S600000x1_S600000x128_1_0_0_1 Cert.ReferenceIdeal.gather_S50000x128_S600000x1_S600000x128_1_0_n_n_0_1_1128 Cert.ReferenceIdeal.gather_S50000_S600000x1_S600000_n_0_n_n_0_1_1 true (feat x W0) (val_main_v107 (F := Ideal) idx) b0
        (val_main_v133 (F := Ideal)) (val_main_v128 (F := Ideal) idx) (val_main_v134 (F := Ideal) idx) (val_main_v120 (F := Ideal) idx)) W1) (val_main_v107 (F := Ideal) idx) (Cert.ReferenceIdeal.Layers.factor_b idx) b1
      zeros64 (val_main_v179 (F := Ideal)) zeros64_apply Cert.ReferenceIdeal.Layers.zero_v179
      (val_main_v128 (F := Ideal) idx) (val_main_v134 (F := Ideal) idx) (val_main_v120 (F := Ideal) idx) (Cert.ReferenceIdeal.Layers.wrap_b idx))

end Cert.Bridge

end
-- ==== Proof.lean ====
/-
  The certificate of a two-layer graph convolution over two graphs: a kernel program that applies the symmetric
  normalisation  D^(-1/2) (A + I) D^(-1/2)  by scaling node rows before and after the aggregation (eight calls: a
  matrix product fused with the per-node scale, and a fused combine, per layer and per graph, among stretches of host
  operations that gather rows along edges and add them up at their destinations), against a reference that weights
  every edge by  d[src]^(-1/2) · d[dst]^(-1/2).

  The three frames: the two kernel programs' are the launch of the eight calls over the segments of @main; the
  reference's is its run with the results dropped. No operation of the kernel was rewritten for the idealized
  reading, so there is nothing to preserve. The value claim: the idealized kernel's run leaves in its two result
  buffers what the last boundary of the fold through @main holds, which, read call by call and stretch by stretch, is
  the two layers with the factor applied per node; the reference's run leaves the two layers with the factor applied
  per edge; the two are one function of the arguments because the factor, (number of arriving edges + 1)^(-1/2), is a
  nonnegative real at every node, and such a factor distributes over the sum of the aggregated rows and the node's
  own row and moves through the aggregation. Nothing is assumed finite of the features, weights or biases.
-/
import proofs.«119174_j20590073217487_2_alg».proof.Defs
import proofs.«119174_j20590073217487_2_alg».proof.Proof.Gen.Kernel
import proofs.«119174_j20590073217487_2_alg».proof.Proof.Gen.Kernel.Frame
import proofs.«119174_j20590073217487_2_alg».proof.Proof.Gen.KernelIdeal
import proofs.«119174_j20590073217487_2_alg».proof.Proof.Gen.KernelIdeal.Frame
import proofs.«119174_j20590073217487_2_alg».proof.Proof.Gen.ReferenceIdeal
import proofs.«119174_j20590073217487_2_alg».proof.Proof.Gen.Pre_finite_inputs
import proofs.«119174_j20590073217487_2_alg».proof.Proof.Gen.ReferenceIdeal.Run
import proofs.«119174_j20590073217487_2_alg».proof.Proof.Gen.ReferenceIdeal.Read
import proofs.«119174_j20590073217487_2_alg».proof.Proof.KernelRun
import proofs.«119174_j20590073217487_2_alg».proof.Proof.FoldOutA
import proofs.«119174_j20590073217487_2_alg».proof.Proof.FoldOutB
import proofs.«119174_j20590073217487_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The first graph's result: what the kernel's program leaves is the reference's stage, at the launch arguments. -/
theorem first_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v94 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Gen.W16 (F := Ideal) m ρ c (Proc.devRef .tc Cert.KernelIdeal.main_v41) :=
  ((Cert.KernelIdeal.Fold.result_a m ρ c).trans (Cert.Bridge.layers_a _ _ _ _ _ _)).symm

/-- The second graph's result, likewise. -/
theorem second_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v189 (F := Ideal)
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
      = Cert.KernelIdeal.Gen.W16 (F := Ideal) m ρ c (Proc.devRef .tc Cert.KernelIdeal.main_v83) :=
  ((Cert.KernelIdeal.Fold.result_b m ρ c).trans (Cert.Bridge.layers_b _ _ _ _ _ _)).symm

/-- From memories agreeing on the arguments both idealized programs run, and end with equal results: the kernel's
    run names its results at the last boundary of its fold, the reference's at its stages of the same arguments. -/
theorem algebraic : Cert.algebraic_KernelIdeal_ReferenceIdeal := by
  intro m ρ m' ρ' _ hagree
  refine ⟨fun c => Cert.KernelIdeal.Gen.W16 (F := Ideal) m ρ c (Proc.devRef .tc Cert.KernelIdeal.main_v41),
    fun c => Cert.KernelIdeal.Gen.W16 (F := Ideal) m ρ c (Proc.devRef .tc Cert.KernelIdeal.main_v83),
    Cert.KernelIdeal.Named.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, -, -, e4, e5, e6, e7, -⟩ := hagree c
    rw [Cert.ReferenceIdeal.Read.val_main_v94_eq, e0, e1, e4, e5, e6, e7]
    exact first_result m ρ c
  · obtain ⟨-, -, e2, e3, -, -, -, -, e8, e9, e10, e11⟩ := hagree c
    rw [Cert.ReferenceIdeal.Read.val_main_v189_eq, e2, e3, e8, e9, e10, e11]
    exact second_result m ρ c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
